-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S64x16 : Shape := ⟨2, ![64, 16]⟩
abbrev S16 : Shape := ⟨1, ![16]⟩
abbrev S1600000 : Shape := ⟨1, ![1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_arg18 : FVec F S16 .f32) (main_v83 : IVec S_ 1) (main_v84 : FVec F S64x16 .f32) (main_cst_32 : FVec F S_ .f32) : IVec S_ 1 :=
  let main_v85 : FVec F S64x16 .f32 := broadcastInDim S64x16 ![] bcast_S_S64x16 main_cst_32
  let main_v86 : IVec S64x16 1 := cmpf .olt main_v84 main_v85
  let main_c_33 : IVec S_ 1 := constantI S_ 1 1#1
  let main_v87 : IVec S_ 1 := (fun x v => Host.reduce IntOp.andi x v reducesTo_S64x16_S_d0_1 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  main_v93

def fn_part4 {F : FTy → Type} [FloatOps F] (main_arg14 : FVec F S2x64x64 .f32) (main_arg15 : FVec F S2x64 .f32) (main_arg16 : FVec F S2x64x64 .f32) (main_arg17 : FVec F S64x16 .f32) (main_arg18 : FVec F S16 .f32) (main_v63 : IVec S_ 1) (main_v67 : IVec S_ 1) : IVec S_ 1 :=
  let main_v68 : IVec S_ 1 := andi main_v63 main_v67
  let main_v69 : FVec F S2x64x64 .f32 := Host.absf main_arg14
  let main_cst_26 : FVec F S_ .f32 := constant S_ .f32 0x7F800000#32
  let main_v70 : FVec F S2x64x64 .f32 := broadcastInDim S2x64x64 ![] bcast_S_S2x64x64 main_cst_26
  let main_v71 : IVec S2x64x64 1 := cmpf .olt main_v69 main_v70
  let main_c_27 : IVec S_ 1 := constantI S_ 1 1#1
  let main_v72 : IVec S_ 1 := (fun x v => Host.reduce IntOp.andi x v reducesTo_S2x64x64_S_d0_1_2 h_S_) main_v71 main_c_27
  let main_v73 : IVec S_ 1 := andi main_v68 main_v72
  let main_v74 : FVec F S2x64 .f32 := Host.absf main_arg15
  let main_cst_28 : FVec F S_ .f32 := constant S_ .f32 0x7F800000#32
  let main_v75 : FVec F S2x64 .f32 := broadcastInDim S2x64 ![] bcast_S_S2x64 main_cst_28
  let main_v76 : IVec S2x64 1 := cmpf .olt main_v74 main_v75
  let main_c_29 : IVec S_ 1 := constantI S_ 1 1#1
  let main_v77 : IVec S_ 1 := (fun x v => Host.reduce IntOp.andi x v reducesTo_S2x64_S_d0_1 h_S_) main_v76 main_c_29
  let main_v78 : IVec S_ 1 := andi main_v73 main_v77
  let main_v79 : FVec F S2x64x64 .f32 := Host.absf main_arg16
  let main_cst_30 : FVec F S_ .f32 := constant S_ .f32 0x7F800000#32
  let main_v80 : FVec F S2x64x64 .f32 := broadcastInDim S2x64x64 ![] bcast_S_S2x64x64 main_cst_30
  let main_v81 : IVec S2x64x64 1 := cmpf .olt main_v79 main_v80
  let main_c_31 : IVec S_ 1 := constantI S_ 1 1#1
  let main_v82 : IVec S_ 1 := (fun x v => Host.reduce IntOp.andi x v reducesTo_S2x64x64_S_d0_1_2 h_S_) main_v81 main_c_31
  let main_v83 : IVec S_ 1 := andi main_v78 main_v82
  let main_v84 : FVec F S64x16 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2x64x64 .f32) (main_arg12 : FVec F S2x64 .f32) (main_arg13 : FVec F S2x64x64 .f32) (main_arg14 : FVec F S2x64x64 .f32) (main_arg15 : FVec F S2x64 .f32) (main_arg16 : FVec F S2x64x64 .f32) (main_arg17 : FVec F S64x16 .f32) (main_arg18 : FVec F S16 .f32) (main_v48 : IVec S_ 1) (main_v49 : FVec F S2x64x64 .f32) (main_v50 : FVec F S2x64x64 .f32) : IVec S_ 1 :=
  let main_v51 : IVec S2x64x64 1 := cmpf .olt main_v49 main_v50
  let main_c_19 : IVec S_ 1 := constantI S_ 1 1#1
  let main_v52 : IVec S_ 1 := (fun x v => Host.reduce IntOp.andi x v reducesTo_S2x64x64_S_d0_1_2 h_S_) main_v51 main_c_19
  let main_v53 : IVec S_ 1 := andi main_v48 main_v52
  let main_v54 : FVec F S2x64x64 .f32 := Host.absf main_arg11
  let main_cst_20 : FVec F S_ .f32 := constant S_ .f32 0x7F800000#32
  let main_v55 : FVec F S2x64x64 .f32 := broadcastInDim S2x64x64 ![] bcast_S_S2x64x64 main_cst_20
  let main_v56 : IVec S2x64x64 1 := cmpf .olt main_v54 main_v55
  let main_c_21 : IVec S_ 1 := constantI S_ 1 1#1
  let main_v57 : IVec S_ 1 := (fun x v => Host.reduce IntOp.andi x v reducesTo_S2x64x64_S_d0_1_2 h_S_) main_v56 main_c_21
  let main_v58 : IVec S_ 1 := andi main_v53 main_v57
  let main_v59 : FVec F S2x64 .f32 := Host.absf main_arg12
  let main_cst_22 : FVec F S_ .f32 := constant S_ .f32 0x7F800000#32
  let main_v60 : FVec F S2x64 .f32 := broadcastInDim S2x64 ![] bcast_S_S2x64 main_cst_22
  let main_v61 : IVec S2x64 1 := cmpf .olt main_v59 main_v60
  let main_c_23 : IVec S_ 1 := constantI S_ 1 1#1
  let main_v62 : IVec S_ 1 := (fun x v => Host.reduce IntOp.andi x v reducesTo_S2x64_S_d0_1 h_S_) main_v61 main_c_23
  let main_v63 : IVec S_ 1 := andi main_v58 main_v62
  let main_v64 : FVec F S2x64x64 .f32 := Host.absf main_arg13
  let main_cst_24 : FVec F S_ .f32 := constant S_ .f32 0x7F800000#32
  let main_v65 : FVec F S2x64x64 .f32 := broadcastInDim S2x64x64 ![] bcast_S_S2x64x64 main_cst_24
  let main_v66 : IVec S2x64x64 1 := cmpf .olt main_v64 main_v65
  let main_c_25 : IVec S_ 1 := constantI S_ 1 1#1
  let main_v67 : IVec S_ 1 := (fun x v => Host.reduce IntOp.andi x v reducesTo_S2x64x64_S_d0_1_2 h_S_) main_v66 main_c_25
  fn_part4 (F := F) main_arg14 main_arg15 main_arg16 main_arg17 main_arg18 main_v63 main_v67

def fn_part2 {F : FTy → Type} [FloatOps F] (main_arg7 : FVec F S64 .f32) (main_arg8 : FVec F S2x64x64 .f32) (main_arg9 : FVec F S2x64 .f32) (main_arg10 : FVec F S2x64x64 .f32) (main_arg11 : FVec F S2x64x64 .f32) (main_arg12 : FVec F S2x64 .f32) (main_arg13 : FVec F S2x64x64 .f32) (main_arg14 : FVec F S2x64x64 .f32) (main_arg15 : FVec F S2x64 .f32) (main_arg16 : FVec F S2x64x64 .f32) (main_arg17 : FVec F S64x16 .f32) (main_arg18 : FVec F S16 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S2x64x64 .f32 := Host.absf main_arg8
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64x64 .f32 := Host.absf main_arg10
  let main_cst_18 : FVec F S_ .f32 := constant S_ .f32 0x7F800000#32
  let main_v50 : FVec F S2x64x64 .f32 := broadcastInDim S2x64x64 ![] bcast_S_S2x64x64 main_cst_18
  fn_part3 (F := F) main_arg11 main_arg12 main_arg13 main_arg14 main_arg15 main_arg16 main_arg17 main_arg18 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S2x64x64 .f32) (main_arg9 : FVec F S2x64 .f32) (main_arg10 : FVec F S2x64x64 .f32) (main_arg11 : FVec F S2x64x64 .f32) (main_arg12 : FVec F S2x64 .f32) (main_arg13 : FVec F S2x64x64 .f32) (main_arg14 : FVec F S2x64x64 .f32) (main_arg15 : FVec F S2x64 .f32) (main_arg16 : FVec F S2x64x64 .f32) (main_arg17 : FVec F S64x16 .f32) (main_arg18 : FVec F S16 .f32) (main_v13 : IVec S_ 1) (main_v16 : IVec S100000x32 1) : IVec S_ 1 :=
  let main_c_5 : IVec S_ 1 := constantI S_ 1 1#1
  let main_v17 : IVec S_ 1 := (fun x v => Host.reduce IntOp.andi x v reducesTo_S100000x32_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S100000x32 .f32) (main_arg1 : FVec F S100000x32 .f32) (main_arg2 : FVec F S100000x32 .f32) (main_arg3 : FVec F S100000x32 .f32) (main_arg4 : FVec F S64x64 .f32) (main_arg5 : FVec F S64 .f32) (main_arg6 : FVec F S64x64 .f32) (main_arg7 : FVec F S64 .f32) (main_arg8 : FVec F S2x64x64 .f32) (main_arg9 : FVec F S2x64 .f32) (main_arg10 : FVec F S2x64x64 .f32) (main_arg11 : FVec F S2x64x64 .f32) (main_arg12 : FVec F S2x64 .f32) (main_arg13 : FVec F S2x64x64 .f32) (main_arg14 : FVec F S2x64x64 .f32) (main_arg15 : FVec F S2x64 .f32) (main_arg16 : FVec F S2x64x64 .f32) (main_arg17 : FVec F S64x16 .f32) (main_arg18 : FVec F S16 .f32) (main_arg19 : IVec S1600000 32) (main_arg20 : IVec S1600000 32) (main_arg21 : IVec S1600000 32) (main_arg22 : IVec S1600000 32) (main_arg23 : IVec S1600000 32) (main_arg24 : IVec S1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S100000x32 .f32 := Host.absf main_arg2
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S100000x32 .f32 := Host.absf main_arg3
  let main_cst_4 : FVec F S_ .f32 := constant S_ .f32 0x7F800000#32
  let main_v15 : FVec F S100000x32 .f32 := broadcastInDim S100000x32 ![] bcast_S_S100000x32 main_cst_4
  let main_v16 : IVec S100000x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S100000x32 : Shape := ⟨2, ![100000, 32]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S64x16 : Shape := ⟨2, ![64, 16]⟩
abbrev S16 : Shape := ⟨1, ![16]⟩
abbrev S1600000 : Shape := ⟨1, ![1600000]⟩
abbrev S32x64 : Shape := ⟨2, ![32, 64]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S5000x1 : Shape := ⟨2, ![5000, 1]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 183
  | .vmem => 63
  | .smem => 0
  | _ => 0

abbrev hbmTy0_0 (i : Nat) : BufTy := match i % 128 with
  | 0 => ⟨S100000x32, .f32⟩
  | 1 => ⟨S100000x32, .f32⟩
  | 2 => ⟨S100000x32, .f32⟩
  | 3 => ⟨S100000x32, .f32⟩
  | 4 => ⟨S64x64, .f32⟩
  | 5 => ⟨S64, .f32⟩
  | 6 => ⟨S64x64, .f32⟩
  | 7 => ⟨S64, .f32⟩
  | 8 => ⟨S2x64x64, .f32⟩
  | 9 => ⟨S2x64, .f32⟩
  | 10 => ⟨S2x64x64, .f32⟩
  | 11 => ⟨S2x64x64, .f32⟩
  | 12 => ⟨S2x64, .f32⟩
  | 13 => ⟨S2x64x64, .f32⟩
  | 14 => ⟨S2x64x64, .f32⟩
  | 15 => ⟨S2x64, .f32⟩
  | 16 => ⟨S2x64x64, .f32⟩
  | 17 => ⟨S64x16, .f32⟩
  | 18 => ⟨S16, .f32⟩
  | 19 => ⟨S1600000, .i32⟩
  | 20 => ⟨S1600000, .i32⟩
  | 21 => ⟨S1600000, .i32⟩
  | 22 => ⟨S1600000, .i32⟩
  | 23 => ⟨S1600000, .i32⟩
  | 24 => ⟨S1600000, .i32⟩
  | 25 => ⟨S32x64, .f32⟩
  | 26 => ⟨S32x64, .f32⟩
  | 27 => ⟨S1x64, .f32⟩
  | 28 => ⟨S100000x64, .bf16⟩
  | 29 => ⟨S32x64, .f32⟩
  | 30 => ⟨S32x64, .f32⟩
  | 31 => ⟨S1x64, .f32⟩
  | 32 => ⟨S100000x64, .bf16⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .f32⟩
  | 45 => ⟨S100000x1, .f32⟩
  | 46 => ⟨S_, .f32⟩
  | 47 => ⟨S1600000, .f32⟩
  | 48 => ⟨S_, .f32⟩
  | 49 => ⟨S100000, .f32⟩
  | 50 => ⟨S1600000x1, .i32⟩
  | 51 => ⟨S100000, .f32⟩
  | 52 => ⟨S_, .f32⟩
  | 53 => ⟨S100000, .f32⟩
  | 54 => ⟨S100000, .f32⟩
  | 55 => ⟨S_, .f32⟩
  | 56 => ⟨S100000, .f32⟩
  | 57 => ⟨S100000, .f32⟩
  | 58 => ⟨S100000x1, .f32⟩
  | 59 => ⟨S_, .f32⟩
  | 60 => ⟨S1600000, .f32⟩
  | 61 => ⟨S_, .f32⟩
  | 62 => ⟨S100000, .f32⟩
  | 63 => ⟨S1600000x1, .i32⟩
  | 64 => ⟨S100000, .f32⟩
  | 65 => ⟨S_, .f32⟩
  | 66 => ⟨S100000, .f32⟩
  | 67 => ⟨S100000, .f32⟩
  | 68 => ⟨S_, .f32⟩
  | 69 => ⟨S100000, .f32⟩
  | 70 => ⟨S100000, .f32⟩
  | 71 => ⟨S100000x1, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x64, .bf16⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x64, .bf16⟩
  | 95 => ⟨S1600000x64, .f32⟩
  | 96 => ⟨S_, .f32⟩
  | 97 => ⟨S100000x64, .f32⟩
  | 98 => ⟨S1600000x1, .i32⟩
  | 99 => ⟨S100000x64, .f32⟩
  | 100 => ⟨S1x64x64, .f32⟩
  | 101 => ⟨S64x64, .f32⟩
  | 102 => ⟨S1x64x64, .f32⟩
  | 103 => ⟨S64x64, .f32⟩
  | 104 => ⟨S64x64, .f32⟩
  | 105 => ⟨S1x64, .f32⟩
  | 106 => ⟨S64, .f32⟩
  | 107 => ⟨S1x64, .f32⟩
  | 108 => ⟨S64, .f32⟩
  | 109 => ⟨S64, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .bf16⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S1x64x64, .f32⟩
  | 125 => ⟨S64x64, .f32⟩
  | 126 => ⟨S1x64x64, .f32⟩
  | 127 => ⟨S64x64, .f32⟩
  | _ => ⟨S100000x32, .f32⟩

abbrev hbmTy0_1 (i : Nat) : BufTy := match i % 128 with
  | 0 => ⟨S1x64, .f32⟩
  | 1 => ⟨S100000x64, .bf16⟩
  | 2 => ⟨S1x64x64, .f32⟩
  | 3 => ⟨S64x64, .f32⟩
  | 4 => ⟨S1x64x64, .f32⟩
  | 5 => ⟨S64x64, .f32⟩
  | 6 => ⟨S1x64, .f32⟩
  | 7 => ⟨S64, .f32⟩
  | 8 => ⟨S1x64, .f32⟩
  | 9 => ⟨S100000x64, .bf16⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x64, .bf16⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .bf16⟩
  | 33 => ⟨S1600000x64, .f32⟩
  | 34 => ⟨S_, .f32⟩
  | 35 => ⟨S100000x64, .f32⟩
  | 36 => ⟨S1600000x1, .i32⟩
  | 37 => ⟨S100000x64, .f32⟩
  | 38 => ⟨S1x64x64, .f32⟩
  | 39 => ⟨S64x64, .f32⟩
  | 40 => ⟨S1x64x64, .f32⟩
  | 41 => ⟨S64x64, .f32⟩
  | 42 => ⟨S64x64, .f32⟩
  | 43 => ⟨S1x64, .f32⟩
  | 44 => ⟨S64, .f32⟩
  | 45 => ⟨S1x64, .f32⟩
  | 46 => ⟨S64, .f32⟩
  | 47 => ⟨S64, .f32⟩
  | 48 => ⟨S1x64x64, .f32⟩
  | 49 => ⟨S64x64, .f32⟩
  | 50 => ⟨S1x64x64, .f32⟩
  | 51 => ⟨S64x64, .f32⟩
  | 52 => ⟨S1x64, .f32⟩
  | 53 => ⟨S1x16, .f32⟩
  | 54 => ⟨S100000x16, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x64, .f32⟩
  | .local _ .vmem, ⟨5, _⟩ => ⟨S32x64, .f32⟩
  | .local _ .vmem, ⟨6, _⟩ => ⟨S1x64, .f32⟩
  | .local _ .vmem, ⟨7, _⟩ => ⟨S5000x64, .bf16⟩
  | .local _ .vmem, ⟨8, _⟩ => ⟨S5000x64, .bf16⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32x64, .f32⟩
  | .local _ .vmem, ⟨14, _⟩ => ⟨S32x64, .f32⟩
  | .local _ .vmem, ⟨15, _⟩ => ⟨S1x64, .f32⟩
  | .local _ .vmem, ⟨16, _⟩ => ⟨S5000x64, .bf16⟩
  | .local _ .vmem, ⟨17, _⟩ => ⟨S5000x64, .bf16⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S5000x64, .bf16⟩
  | .local _ .vmem, ⟨27, _⟩ => ⟨S5000x64, .bf16⟩
  | .local _ .vmem, ⟨28, _⟩ => ⟨S64x64, .f32⟩
  | .local _ .vmem, ⟨29, _⟩ => ⟨S64x64, .f32⟩
  | .local _ .vmem, ⟨30, _⟩ => ⟨S64x64, .f32⟩
  | .local _ .vmem, ⟨31, _⟩ => ⟨S1x64, .f32⟩
  | .local _ .vmem, ⟨32, _⟩ => ⟨S5000x64, .bf16⟩
  | .local _ .vmem, ⟨33, _⟩ => ⟨S5000x64, .bf16⟩
  | .local _ .vmem, ⟨34, _⟩ => ⟨S5000x64, .f32⟩
  | .local _ .vmem, ⟨35, _⟩ => ⟨S5000x64, .f32⟩
  | .local _ .vmem, ⟨36, _⟩ => ⟨S5000x1, .f32⟩
  | .local _ .vmem, ⟨37, _⟩ => ⟨S5000x1, .f32⟩
  | .local _ .vmem, ⟨38, _⟩ => ⟨S5000x64, .bf16⟩
  | .local _ .vmem, ⟨39, _⟩ => ⟨S5000x64, .bf16⟩
  | .local _ .vmem, ⟨40, _⟩ => ⟨S64x64, .f32⟩
  | .local _ .vmem, ⟨41, _⟩ => ⟨S64x64, .f32⟩
  | .local _ .vmem, ⟨42, _⟩ => ⟨S1x64, .f32⟩
  | .local _ .vmem, ⟨43, _⟩ => ⟨S5000x64, .bf16⟩
  | .local _ .vmem, ⟨44, _⟩ => ⟨S5000x64, .bf16⟩
  | .local _ .vmem, ⟨45, _⟩ => ⟨S5000x64, .f32⟩
  | .local _ .vmem, ⟨46, _⟩ => ⟨S5000x64, .f32⟩
  | .local _ .vmem, ⟨47, _⟩ => ⟨S5000x1, .f32⟩
  | .local _ .vmem, ⟨48, _⟩ => ⟨S5000x1, .f32⟩
  | .local _ .vmem, ⟨49, _⟩ => ⟨S5000x64, .f32⟩
  | .local _ .vmem, ⟨50, _⟩ => ⟨S5000x64, .f32⟩
  | .local _ .vmem, ⟨51, _⟩ => ⟨S5000x1, .f32⟩
  | .local _ .vmem, ⟨52, _⟩ => ⟨S5000x1, .f32⟩
  | .local _ .vmem, ⟨53, _⟩ => ⟨S5000x64, .bf16⟩
  | .local _ .vmem, ⟨54, _⟩ => ⟨S5000x64, .bf16⟩
  | .local _ .vmem, ⟨55, _⟩ => ⟨S64x64, .f32⟩
  | .local _ .vmem, ⟨56, _⟩ => ⟨S64x64, .f32⟩
  | .local _ .vmem, ⟨57, _⟩ => ⟨S64x64, .f32⟩
  | .local _ .vmem, ⟨58, _⟩ => ⟨S1x64, .f32⟩
  | .local _ .vmem, ⟨59, _⟩ => ⟨S64x16, .f32⟩
  | .local _ .vmem, ⟨60, _⟩ => ⟨S1x16, .f32⟩
  | .local _ .vmem, ⟨61, _⟩ => ⟨S5000x16, .f32⟩
  | .local _ .vmem, ⟨62, _⟩ => ⟨S5000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_cst_4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_5 : Ref sig .tc := ⟨.hbm, 52, rfl⟩
abbrev main_v21 : Ref sig .tc := ⟨.hbm, 53, rfl⟩
abbrev main_v22 : Ref sig .tc := ⟨.hbm, 54, rfl⟩
abbrev main_cst_6 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_7 : Ref sig .tc := ⟨.hbm, 59, rfl⟩
abbrev main_v26 : Ref sig .tc := ⟨.hbm, 60, rfl⟩
abbrev main_cst_8 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_9 : Ref sig .tc := ⟨.hbm, 65, rfl⟩
abbrev main_v30 : Ref sig .tc := ⟨.hbm, 66, rfl⟩
abbrev main_v31 : Ref sig .tc := ⟨.hbm, 67, rfl⟩
abbrev main_cst_10 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_c : Ref sig .tc := ⟨.hbm, 72, rfl⟩
abbrev main_v35 : Ref sig .tc := ⟨.hbm, 73, rfl⟩
abbrev main_v36 : Ref sig .tc := ⟨.hbm, 74, rfl⟩
abbrev main_c_11 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_12 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_c_13 : Ref sig .tc := ⟨.hbm, 86, rfl⟩
abbrev main_v46 : Ref sig .tc := ⟨.hbm, 87, rfl⟩
abbrev main_v47 : Ref sig .tc := ⟨.hbm, 88, rfl⟩
abbrev main_c_14 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_15 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_16 : Ref sig .tc := ⟨.hbm, 110, rfl⟩
abbrev main_v67 : Ref sig .tc := ⟨.hbm, 111, rfl⟩
abbrev main_v68 : Ref sig .tc := ⟨.hbm, 112, rfl⟩
abbrev main_c_17 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_18 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_c_19 : Ref sig .tc := ⟨.hbm, 138, rfl⟩
abbrev main_v92 : Ref sig .tc := ⟨.hbm, 139, rfl⟩
abbrev main_v93 : Ref sig .tc := ⟨.hbm, 140, rfl⟩
abbrev main_c_20 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_21 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_c_22 : Ref sig .tc := ⟨.hbm, 152, rfl⟩
abbrev main_v103 : Ref sig .tc := ⟨.hbm, 153, rfl⟩
abbrev main_v104 : Ref sig .tc := ⟨.hbm, 154, rfl⟩
abbrev main_c_23 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_24 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg9_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg6_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg3_1 : Ref sig .tc := ⟨.vmem, 52, rfl⟩
abbrev cc4_stg4_0 : Ref sig .tc := ⟨.vmem, 53, rfl⟩
abbrev cc4_stg4_1 : Ref sig .tc := ⟨.vmem, 54, rfl⟩
abbrev cc4_stg5_0 : Ref sig .tc := ⟨.vmem, 55, rfl⟩
abbrev cc4_stg6_0 : Ref sig .tc := ⟨.vmem, 56, rfl⟩
abbrev cc4_stg7_0 : Ref sig .tc := ⟨.vmem, 57, rfl⟩
abbrev cc4_stg8_0 : Ref sig .tc := ⟨.vmem, 58, rfl⟩
abbrev cc4_stg9_0 : Ref sig .tc := ⟨.vmem, 59, rfl⟩
abbrev cc4_stg10_0 : Ref sig .tc := ⟨.vmem, 60, rfl⟩
abbrev cc4_stg11_0 : Ref sig .tc := ⟨.vmem, 61, rfl⟩
abbrev cc4_stg11_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem9_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem6_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem2_1 : DmaSem sig := 50
abbrev cc4_sem3_0 : DmaSem sig := 51
abbrev cc4_sem3_1 : DmaSem sig := 52
abbrev cc4_sem4_0 : DmaSem sig := 53
abbrev cc4_sem4_1 : DmaSem sig := 54
abbrev cc4_sem5_0 : DmaSem sig := 55
abbrev cc4_sem6_0 : DmaSem sig := 56
abbrev cc4_sem7_0 : DmaSem sig := 57
abbrev cc4_sem8_0 : DmaSem sig := 58
abbrev cc4_sem9_0 : DmaSem sig := 59
abbrev cc4_sem10_0 : DmaSem sig := 60
abbrev cc4_sem11_0 : DmaSem sig := 61
abbrev cc4_sem11_1 : DmaSem sig := 62

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x64 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x16 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x16 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S5000x16 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  slices_S64x64_S32x64_0_0 : S64x64.Slices ![0, 0] S32x64
  slices_S64x64_S32x64_32_0 : S64x64.Slices ![32, 0] S32x64
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x64x64_S1x64x64_1_0_0 : S2x64x64.Slices ![1, 0, 0] S1x64x64
  slices_S2x64_S1x64_1_0 : S2x64.Slices ![1, 0] S1x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  dot_S5000x32_S32x64_S5000x64_1_0_0_1_n_n_wf : DotDims.WF S5000x32 S32x64 S5000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .bf16 = 32 ∨ (Rect.block (s := S100000x64) S5000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .bf16 = 32 ∨ (Rect.block (s := S100000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .bf16 = 32 ∨ (Rect.block (s := S100000x64) S5000x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x64.size a ≤ S100000x64.size a
  hwx2_9 : ∀ i : grid2.Coords, EltTy.bits .bf16 = 32 ∨ (Rect.block (s := S100000x64) S5000x64.size (cc2_transform_9 i) (hinb2_9 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .bf16 = 32 ∨ (Rect.block (s := S100000x64) S5000x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .bf16 = 32 ∨ (Rect.block (s := S100000x64) S5000x64.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .bf16 = 32 ∨ (Rect.block (s := S100000x64) S5000x64.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x64.size a ≤ S64x64.size a
  hwx4_7 : ∀ i : grid4.Coords, EltTy.bits .f32 = 32 ∨ (Rect.block (s := S64x64) S64x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x16.size a ≤ S64x16.size a
  hwx4_9 : ∀ i : grid4.Coords, EltTy.bits .f32 = 32 ∨ (Rect.block (s := S64x16) S64x16.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x16.size a ≤ S1x16.size a
  hwx4_10 : ∀ i : grid4.Coords, EltTy.bits .f32 = 32 ∨ (Rect.block (s := S1x16) S1x16.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S5000x16.size a ≤ S100000x16.size a
  hwx4_11 : ∀ i : grid4.Coords, EltTy.bits .f32 = 32 ∨ (Rect.block (s := S100000x16) S5000x16.size (cc4_transform_11 i) (hinb4_11 i)).WholeWords (EltTy.packing .f32)

variable [Facts₀]

def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v7) S5000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v79) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v81) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v82) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v83) S5000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v77) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v85) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v102) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v113) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v25) S5000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v83) S5000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v125) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v127) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v118) S64x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v128) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg17) S64x16.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v129) S1x16.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v130) S5000x16.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S100000x32 : Shape := ⟨2, ![100000, 32]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S64x16 : Shape := ⟨2, ![64, 16]⟩
abbrev S16 : Shape := ⟨1, ![16]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S1x64x64 : Shape := ⟨3, ![1, 64, 64]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 269
  | .vmem => 0
  | .smem => 0
  | _ => 0

abbrev hbmTy0_0 (i : Nat) : BufTy := match i % 128 with
  | 0 => ⟨S100000x32, .f32⟩
  | 1 => ⟨S100000x32, .f32⟩
  | 2 => ⟨S100000x32, .f32⟩
  | 3 => ⟨S100000x32, .f32⟩
  | 4 => ⟨S64x64, .f32⟩
  | 5 => ⟨S64, .f32⟩
  | 6 => ⟨S64x64, .f32⟩
  | 7 => ⟨S64, .f32⟩
  | 8 => ⟨S2x64x64, .f32⟩
  | 9 => ⟨S2x64, .f32⟩
  | 10 => ⟨S2x64x64, .f32⟩
  | 11 => ⟨S2x64x64, .f32⟩
  | 12 => ⟨S2x64, .f32⟩
  | 13 => ⟨S2x64x64, .f32⟩
  | 14 => ⟨S2x64x64, .f32⟩
  | 15 => ⟨S2x64, .f32⟩
  | 16 => ⟨S2x64x64, .f32⟩
  | 17 => ⟨S64x16, .f32⟩
  | 18 => ⟨S16, .f32⟩
  | 19 => ⟨S1600000, .i32⟩
  | 20 => ⟨S1600000, .i32⟩
  | 21 => ⟨S1600000, .i32⟩
  | 22 => ⟨S1600000, .i32⟩
  | 23 => ⟨S1600000, .i32⟩
  | 24 => ⟨S1600000, .i32⟩
  | 25 => ⟨S100000x64, .f32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S1x64x64, .f32⟩
  | 42 => ⟨S64x64, .f32⟩
  | 43 => ⟨S1x64, .f32⟩
  | 44 => ⟨S64, .f32⟩
  | 45 => ⟨S1x64x64, .f32⟩
  | 46 => ⟨S64x64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S_, .f32⟩
  | 61 => ⟨S1600000, .f32⟩
  | 62 => ⟨S_, .f32⟩
  | 63 => ⟨S100000, .f32⟩
  | 64 => ⟨S1600000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S100000x64, .f32⟩
  | 77 => ⟨S100000x64, .f32⟩
  | 78 => ⟨S1x64x64, .f32⟩
  | 79 => ⟨S64x64, .f32⟩
  | 80 => ⟨S1x64, .f32⟩
  | 81 => ⟨S64, .f32⟩
  | 82 => ⟨S1x64x64, .f32⟩
  | 83 => ⟨S64x64, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x64, .f32⟩
  | 93 => ⟨S_, .f32⟩
  | 94 => ⟨S100000x64, .f32⟩
  | 95 => ⟨S1600000x1, .i32⟩
  | 96 => ⟨S100000x64, .f32⟩
  | 97 => ⟨S_, .f32⟩
  | 98 => ⟨S1600000, .f32⟩
  | 99 => ⟨S_, .f32⟩
  | 100 => ⟨S100000, .f32⟩
  | 101 => ⟨S1600000x1, .i32⟩
  | 102 => ⟨S100000, .f32⟩
  | 103 => ⟨S_, .f32⟩
  | 104 => ⟨S100000, .f32⟩
  | 105 => ⟨S100000, .f32⟩
  | 106 => ⟨S100000x1, .f32⟩
  | 107 => ⟨S100000x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S100000x64, .f32⟩
  | 114 => ⟨S100000x64, .f32⟩
  | 115 => ⟨S100000x64, .f32⟩
  | 116 => ⟨S1x64x64, .f32⟩
  | 117 => ⟨S64x64, .f32⟩
  | 118 => ⟨S1x64, .f32⟩
  | 119 => ⟨S64, .f32⟩
  | 120 => ⟨S1x64x64, .f32⟩
  | 121 => ⟨S64x64, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x32, .f32⟩

abbrev hbmTy0_1 (i : Nat) : BufTy := match i % 128 with
  | 0 => ⟨S1600000, .i32⟩
  | 1 => ⟨S1600000x1, .i32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S100000x64, .f32⟩
  | 24 => ⟨S100000x64, .f32⟩
  | 25 => ⟨S1x64x64, .f32⟩
  | 26 => ⟨S64x64, .f32⟩
  | 27 => ⟨S1x64, .f32⟩
  | 28 => ⟨S64, .f32⟩
  | 29 => ⟨S1x64x64, .f32⟩
  | 30 => ⟨S64x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S_, .f32⟩
  | 45 => ⟨S1600000, .f32⟩
  | 46 => ⟨S_, .f32⟩
  | 47 => ⟨S100000, .f32⟩
  | 48 => ⟨S1600000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S100000x64, .f32⟩
  | 61 => ⟨S100000x64, .f32⟩
  | 62 => ⟨S1x64x64, .f32⟩
  | 63 => ⟨S64x64, .f32⟩
  | 64 => ⟨S1x64, .f32⟩
  | 65 => ⟨S64, .f32⟩
  | 66 => ⟨S1x64x64, .f32⟩
  | 67 => ⟨S64x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S_, .f32⟩
  | 78 => ⟨S100000x64, .f32⟩
  | 79 => ⟨S1600000x1, .i32⟩
  | 80 => ⟨S100000x64, .f32⟩
  | 81 => ⟨S_, .f32⟩
  | 82 => ⟨S1600000, .f32⟩
  | 83 => ⟨S_, .f32⟩
  | 84 => ⟨S100000, .f32⟩
  | 85 => ⟨S1600000x1, .i32⟩
  | 86 => ⟨S100000, .f32⟩
  | 87 => ⟨S_, .f32⟩
  | 88 => ⟨S100000, .f32⟩
  | 89 => ⟨S100000, .f32⟩
  | 90 => ⟨S100000x1, .f32⟩
  | 91 => ⟨S100000x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S100000x64, .f32⟩
  | 98 => ⟨S100000x64, .f32⟩
  | 99 => ⟨S100000x64, .f32⟩
  | 100 => ⟨S1x64x64, .f32⟩
  | 101 => ⟨S64x64, .f32⟩
  | 102 => ⟨S1x64, .f32⟩
  | 103 => ⟨S64, .f32⟩
  | 104 => ⟨S1x64x64, .f32⟩
  | 105 => ⟨S64x64, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S_, .f32⟩
  | 120 => ⟨S1600000, .f32⟩
  | 121 => ⟨S_, .f32⟩
  | 122 => ⟨S100000, .f32⟩
  | 123 => ⟨S1600000x1, .i32⟩
  | 124 => ⟨S100000, .f32⟩
  | 125 => ⟨S_, .f32⟩
  | 126 => ⟨S100000, .f32⟩
  | 127 => ⟨S100000, .f32⟩
  | _ => ⟨S100000x32, .f32⟩

abbrev hbmTy0_2 (i : Nat) : BufTy := match i % 128 with
  | 0 => ⟨S100000x1, .f32⟩
  | 1 => ⟨S100000x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S100000x64, .f32⟩
  | 8 => ⟨S100000x64, .f32⟩
  | 9 => ⟨S100000x16, .f32⟩
  | 10 => ⟨S1x16, .f32⟩
  | 11 => ⟨S100000x16, .f32⟩
  | 12 => ⟨S100000x16, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call0_cst : Ref sig .tc := ⟨.hbm, 30, rfl⟩
abbrev main_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_call1_cst : Ref sig .tc := ⟨.hbm, 38, rfl⟩
abbrev main_call1_v0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c : Ref sig .tc := ⟨.hbm, 47, rfl⟩
abbrev main_v18 : Ref sig .tc := ⟨.hbm, 48, rfl⟩
abbrev main_v19 : Ref sig .tc := ⟨.hbm, 49, rfl⟩
abbrev main_c_0 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_1 : Ref sig .tc := ⟨.hbm, 60, rfl⟩
abbrev main_v28 : Ref sig .tc := ⟨.hbm, 61, rfl⟩
abbrev main_cst_2 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_3 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_4 : Ref sig .tc := ⟨.hbm, 84, rfl⟩
abbrev main_v49 : Ref sig .tc := ⟨.hbm, 85, rfl⟩
abbrev main_v50 : Ref sig .tc := ⟨.hbm, 86, rfl⟩
abbrev main_c_5 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_6 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_7 : Ref sig .tc := ⟨.hbm, 97, rfl⟩
abbrev main_v59 : Ref sig .tc := ⟨.hbm, 98, rfl⟩
abbrev main_cst_8 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_9 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_c_10 : Ref sig .tc := ⟨.hbm, 122, rfl⟩
abbrev main_v81 : Ref sig .tc := ⟨.hbm, 123, rfl⟩
abbrev main_v82 : Ref sig .tc := ⟨.hbm, 124, rfl⟩
abbrev main_c_11 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_12 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_13 : Ref sig .tc := ⟨.hbm, 135, rfl⟩
abbrev main_v91 : Ref sig .tc := ⟨.hbm, 136, rfl⟩
abbrev main_cst_14 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_15 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_c_16 : Ref sig .tc := ⟨.hbm, 159, rfl⟩
abbrev main_v112 : Ref sig .tc := ⟨.hbm, 160, rfl⟩
abbrev main_v113 : Ref sig .tc := ⟨.hbm, 161, rfl⟩
abbrev main_c_17 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_18 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_19 : Ref sig .tc := ⟨.hbm, 172, rfl⟩
abbrev main_v122 : Ref sig .tc := ⟨.hbm, 173, rfl⟩
abbrev main_cst_20 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_cst_21 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_c_22 : Ref sig .tc := ⟨.hbm, 196, rfl⟩
abbrev main_v143 : Ref sig .tc := ⟨.hbm, 197, rfl⟩
abbrev main_v144 : Ref sig .tc := ⟨.hbm, 198, rfl⟩
abbrev main_c_23 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_24 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_25 : Ref sig .tc := ⟨.hbm, 209, rfl⟩
abbrev main_v153 : Ref sig .tc := ⟨.hbm, 210, rfl⟩
abbrev main_cst_26 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_27 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_c_28 : Ref sig .tc := ⟨.hbm, 234, rfl⟩
abbrev main_v175 : Ref sig .tc := ⟨.hbm, 235, rfl⟩
abbrev main_v176 : Ref sig .tc := ⟨.hbm, 236, rfl⟩
abbrev main_c_29 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_cst_30 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_cst_31 : Ref sig .tc := ⟨.hbm, 247, rfl⟩
abbrev main_v185 : Ref sig .tc := ⟨.hbm, 248, rfl⟩
abbrev main_cst_32 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_cst_33 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩

abbrev nD : Nat := 1
abbrev τ : Topo := Topo.v7x

variable {F : FTy → Type} [FloatOps F]

class Facts₀ : Prop where
  concatenates_S100000x32_S100000x32_S100000x64_d1 : Shape.Concatenates [S100000x32, S100000x32] S100000x64 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x64x64_S1x64x64_1_0_0 : S2x64x64.Slices ![1, 0, 0] S1x64x64
  slices_S2x64_S1x64_1_0 : S2x64.Slices ![1, 0] S1x64
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x16_S100000x16_1_0_0_1_n_n_wf : DotDims.WF S100000x64 S64x16 S100000x16 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Spec.lean ====
/-
  The mathematics both programs compute, stated once over the extended reals.

  A two-layer heterogeneous neighbourhood-mean network over two node types. Every dense step is a
  matrix product of a row of node features with a weight matrix, plus a bias row; the irregular
  step (summing neighbour rows along edges, dividing by the in-degree) enters only as arrays the
  dense steps are handed. All definitions are generic in the number of rows, so the same function
  describes a 5000-row tile and the whole 100000-row array: row `n` of a result depends on row `n`
  of the row-indexed operands only.
-/
import Idealize.ShloMosaic.PureOps.Ideal
import Idealize.ShloMosaic.Lib.ValueIdx

noncomputable section

namespace Cert.Sage

open Idealize.ShloMosaic Idealize.ShloMosaic.ValueIdx

/-- An `r × c` matrix of extended reals, indexed as the programs index their rank-2 arrays. -/
abbrev Mat (r c : Nat) : Type := (⟨2, ![r, c]⟩ : Shape).Idx → EReal

/-- Row `n` of `x` times column `j` of `w`: the sum over the inner extent `K` of the products. -/
def dot {R K C : Nat} (x : Mat R K) (w : Mat K C) (n : Fin R) (j : Fin C) : EReal :=
  ∑ k : Fin K, x (ix2 n k) * w (ix2 k j)

/-- The input projection of one node type: the two 32-column feature halves against the two 32-row
    halves of the weight, plus the bias row, clamped below at zero. -/
def proj {R : Nat} (xd xc : Mat R 32) (wd wc : Mat 32 64) (b : Mat 1 64) : Mat R 64 :=
  fun i => max (dot xd wd (i 0) (i 1) + dot xc wc (i 0) (i 1) + b (ix2 0 (i 1))) 0

/-- A summed neighbourhood scaled row by row (by the reciprocal in-degree): the neighbourhood mean. -/
def scaled {R : Nat} (a : Mat R 64) (s : Mat R 1) : Mat R 64 :=
  fun i => a i * s (ix2 (i 0) 0)

/-- The update of a node type fed by TWO edge types: both neighbourhood means against their weights,
    the node's own features against the (already summed) root weight, and the (already summed) bias row. -/
def dual {R : Nat} (a1 : Mat R 64) (s1 : Mat R 1) (a2 : Mat R 64) (s2 : Mat R 1) (y : Mat R 64)
    (wl1 wl2 wr : Mat 64 64) (b : Mat 1 64) : Mat R 64 :=
  fun i => dot (scaled a1 s1) wl1 (i 0) (i 1) + dot (scaled a2 s2) wl2 (i 0) (i 1) + dot y wr (i 0) (i 1)
    + b (ix2 0 (i 1))

/-- The update of a node type fed by ONE edge type. -/
def single {R : Nat} (a : Mat R 64) (s : Mat R 1) (y : Mat R 64) (wl wr : Mat 64 64) (b : Mat 1 64) : Mat R 64 :=
  fun i => dot (scaled a s) wl (i 0) (i 1) + dot y wr (i 0) (i 1) + b (ix2 0 (i 1))

/-- The output head: 64 hidden columns to 16 output columns, plus the bias row. -/
def head {R : Nat} (h : Mat R 64) (w : Mat 64 16) (b : Mat 1 16) : Mat R 16 :=
  fun i => dot h w (i 0) (i 1) + b (ix2 0 (i 1))

/-! ## The operands as the dense steps receive them -/

/-- A length-`C` vector of extended reals. -/
abbrev Vect (C : Nat) : Type := (⟨1, ![C]⟩ : Shape).Idx → EReal

/-- A stack of `L` matrices. -/
abbrev Stack (L r c : Nat) : Type := (⟨3, ![L, r, c]⟩ : Shape).Idx → EReal

/-- Rows `0 … 31` of a 64-row weight: the half that meets the first 32 feature columns. -/
def top (w : Mat 64 64) : Mat 32 64 := fun i => w (ix2 ⟨(i 0).val, by have h : (i 0).val < 32 := (i 0).isLt; omega⟩ (i 1))

/-- Rows `32 … 63` of a 64-row weight: the half that meets the last 32 feature columns. -/
def bot (w : Mat 64 64) : Mat 32 64 := fun i => w (ix2 ⟨32 + (i 0).val, by have h : (i 0).val < 32 := (i 0).isLt; omega⟩ (i 1))

/-- A vector as a one-row matrix. -/
def row {C : Nat} (b : Vect C) : Mat 1 C := fun i => b (ix1 (i 1))

/-- A vector as a one-column matrix. -/
def col {R : Nat} (v : Vect R) : Mat R 1 := fun i => v (ix1 (i 0))

/-- Layer `l`'s matrix of a stack. -/
def layer {L : Nat} (l : Fin L) (w : Stack L 64 64) : Mat 64 64 := fun i => w (ix3 l (i 0) (i 1))

/-- Layer `l`'s bias, as a one-row matrix. -/
def layerRow {L : Nat} (l : Fin L) (b : Mat L 64) : Mat 1 64 := fun i => b (ix2 l (i 1))

/-- Two feature halves side by side: columns `0 … 31` from `xd`, columns `32 … 63` from `xc`. -/
def join {R : Nat} (xd xc : Mat R 32) : Mat R 64 :=
  fun i => if h : (i 1).val < 32 then xd (ix2 (i 0) ⟨(i 1).val, h⟩)
    else xc (ix2 (i 0) ⟨(i 1).val - 32, by have h1 : (i 1).val < 64 := (i 1).isLt; omega⟩)

/-! ## The same steps as the plain formulation groups them -/

/-- The plain input projection: the joined features against the whole weight, plus the bias, clamped at zero. -/
def projPlain {R : Nat} (xd xc : Mat R 32) (w : Mat 64 64) (b : Vect 64) : Mat R 64 :=
  fun i => max (dot (join xd xc) w (i 0) (i 1) + b (ix1 (i 1))) 0

/-- One edge type's contribution in the plain formulation: the summed neighbourhood DIVIDED entry by entry by
    the (row-constant) clamped in-degree matrix `d`, against its weight, plus its bias, plus the node's own
    features against its root weight. -/
def conv {R : Nat} (a d y : Mat R 64) (wl wr : Mat 64 64) (b : Mat 1 64) : Mat R 64 :=
  fun i => (dot (fun i' => Ideal.div (a i') (d i')) wl (i 0) (i 1) + b (ix2 0 (i 1))) + dot y wr (i 0) (i 1)

/-! ## The same definitions at explicit coordinates

A coordinate `i 0` of an index has the type `Fin (![R, C] 0)`, which is `Fin R` only after unfolding; rewriting
works on the forms below, where the row and the column are variables of type `Fin R` and `Fin C`. -/

theorem proj_apply {R : Nat} (xd xc : Mat R 32) (wd wc : Mat 32 64) (b : Mat 1 64) (n : Fin R) (j : Fin 64) :
    proj xd xc wd wc b (ix2 n j) = max (dot xd wd n j + dot xc wc n j + b (ix2 0 j)) 0 := rfl

theorem scaled_apply {R : Nat} (a : Mat R 64) (s : Mat R 1) (n : Fin R) (k : Fin 64) :
    scaled a s (ix2 n k) = a (ix2 n k) * s (ix2 n 0) := rfl

theorem dual_apply {R : Nat} (a1 : Mat R 64) (s1 : Mat R 1) (a2 : Mat R 64) (s2 : Mat R 1) (y : Mat R 64)
    (wl1 wl2 wr : Mat 64 64) (b : Mat 1 64) (n : Fin R) (j : Fin 64) :
    dual a1 s1 a2 s2 y wl1 wl2 wr b (ix2 n j)
      = dot (scaled a1 s1) wl1 n j + dot (scaled a2 s2) wl2 n j + dot y wr n j + b (ix2 0 j) := rfl

theorem single_apply {R : Nat} (a : Mat R 64) (s : Mat R 1) (y : Mat R 64) (wl wr : Mat 64 64) (b : Mat 1 64)
    (n : Fin R) (j : Fin 64) :
    single a s y wl wr b (ix2 n j) = dot (scaled a s) wl n j + dot y wr n j + b (ix2 0 j) := rfl

theorem head_apply {R : Nat} (h : Mat R 64) (w : Mat 64 16) (b : Mat 1 16) (n : Fin R) (j : Fin 16) :
    head h w b (ix2 n j) = dot h w n j + b (ix2 0 j) := rfl

theorem projPlain_apply {R : Nat} (xd xc : Mat R 32) (w : Mat 64 64) (b : Vect 64) (n : Fin R) (j : Fin 64) :
    projPlain xd xc w b (ix2 n j) = max (dot (join xd xc) w n j + b (ix1 j)) 0 := rfl

theorem conv_apply {R : Nat} (a d y : Mat R 64) (wl wr : Mat 64 64) (b : Mat 1 64) (n : Fin R) (j : Fin 64) :
    conv a d y wl wr b (ix2 n j)
      = (dot (fun i' => Ideal.div (a i') (d i')) wl n j + b (ix2 0 j)) + dot y wr n j := rfl

end Cert.Sage

end
-- ==== Proof.KernelHost.lean ====
/-
  The host stages of the kernel program, as functions of the program's argument arrays, and each read at an index.

  Between its five device regions the program rearranges its arguments on the host: it cuts a weight matrix into its
  top and bottom halves, turns a vector into a one-row matrix, picks layer 0 or layer 1 of a stacked parameter and adds
  two such layers, turns an edge list into a one-column index array (a negative source index wrapped once by the node
  count), counts the edges that arrive at each node and takes the reciprocal of that count (at least one), and sums,
  for each node, the rows of a feature array gathered along the edges that arrive at it. Each stage is defined below
  by exactly the operations the program applies, in the program's order, and then read at an index.
-/
import proofs.«117675_j59828894433623_2_alg».proof.KernelIdeal
import proofs.«117675_j59828894433623_2_alg».proof.Proof.Spec
import Idealize.ShloMosaic.Lib.ValueLayout
import Idealize.ShloMosaic.Lib.Pipeline.Value

noncomputable section

namespace Cert.KernelIdeal.Whole

open Idealize.ShloMosaic
open Cert.KernelIdeal Cert.KernelIdeal.Facts₀

variable [Cert.KernelIdeal.Facts₀]

/-- The contents of an array of shape S and element type φ at the ideal instance. -/
abbrev C (S : Shape) (φ : EltTy) : Type := (⟨S, φ⟩ : BufTy).Contents (Elt Ideal)

/-- Rows 0 … 31 of a [64, 64] matrix. -/
def wTop (a4 : C S64x64 .f32) : C S32x64 .f32 := extractStridedSlice S32x64 ![0, 0] a4 slices_S64x64_S32x64_0_0

/-- Rows 32 … 63 of a [64, 64] matrix. -/
def wBot (a4 : C S64x64 .f32) : C S32x64 .f32 := extractStridedSlice S32x64 ![32, 0] a4 slices_S64x64_S32x64_32_0

/-- A [64] vector as a [1, 64] row. -/
def biasRow (a5 : C S64 .f32) : C S1x64 .f32 := shapeCast S1x64 a5 shapeCasts_S64_S1x64

/-- A [16] vector as a [1, 16] row. -/
def headBias (a18 : C S16 .f32) : C S1x16 .f32 := shapeCast S1x16 a18 shapeCasts_S16_S1x16

/-- An edge list of target nodes as a one-column index array. -/
def dstCol (dst : C S1600000 .i32) : C S1600000x1 .i32 := broadcastInDim S1600000x1 ![0] bcast_S1600000_S1600000x1_0 dst

/-- An edge list of source nodes, a negative index wrapped once by the node count, as a one-column index array. -/
def srcCol (src : C S1600000 .i32) : C S1600000x1 .i32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- One over the number of edges arriving at each node (the count raised to at least one), as a [100000, 1] column. -/
def inv (dst : C S1600000 .i32) : C S100000x1 .f32 :=
  shapeCast S100000x1
    (Host.divf (F := Ideal) (broadcastInDim S100000 ![] bcast_S_S100000 (constant S_ .f32 0x3F800000#32))
      (maximumf (F := Ideal)
        (Host.scatterAdd (F := Ideal) scatter_S100000_S1600000x1_S1600000_n_0_0_1
          (broadcastInDim S100000 ![] bcast_S_S100000 (constant S_ .f32 0x00000000#32)) (dstCol dst)
          (broadcastInDim S1600000 ![] bcast_S_S1600000 (constant S_ .f32 0x3F800000#32)))
        (broadcastInDim S100000 ![] bcast_S_S100000 (constant S_ .f32 0x3F800000#32))))
    shapeCasts_S100000_S100000x1

/-- For each node, the sum over the edges arriving at it of the source node's row of y. -/
def agg (y : C S100000x64 .bf16) (src dst : C S1600000 .i32) : C S100000x64 .f32 :=
  Host.scatterAdd (F := Ideal) scatter_S100000x64_S1600000x1_S1600000x64_1_0_0_1
    (broadcastInDim S100000x64 ![] bcast_S_S100000x64 (constant S_ .f32 0x00000000#32)) (dstCol dst)
    (extf (F := Ideal) .f32 (Host.gather gather_S100000x64_S1600000x1_S1600000x64_1_0_n_n_0_1_164 y (srcCol src)) bitsLt_bf16_f32)

/-- Layer 0 of a stacked [2, 64, 64] parameter. -/
def layerMat0 (a : C S2x64x64 .f32) : C S64x64 .f32 :=
  shapeCast S64x64 (extractStridedSlice S1x64x64 ![0, 0, 0] a slices_S2x64x64_S1x64x64_0_0_0) shapeCasts_S1x64x64_S64x64

/-- Layer 1 of a stacked [2, 64, 64] parameter. -/
def layerMat1 (a : C S2x64x64 .f32) : C S64x64 .f32 :=
  shapeCast S64x64 (extractStridedSlice S1x64x64 ![1, 0, 0] a slices_S2x64x64_S1x64x64_1_0_0) shapeCasts_S1x64x64_S64x64

/-- Layer 0 of a stacked [2, 64] parameter. -/
def layerVec0 (b : C S2x64 .f32) : C S64 .f32 :=
  shapeCast S64 (extractStridedSlice S1x64 ![0, 0] b slices_S2x64_S1x64_0_0) shapeCasts_S1x64_S64

/-- Layer 1 of a stacked [2, 64] parameter. -/
def layerVec1 (b : C S2x64 .f32) : C S64 .f32 :=
  shapeCast S64 (extractStridedSlice S1x64 ![1, 0] b slices_S2x64_S1x64_1_0) shapeCasts_S1x64_S64

/-- The sum of layer 0 of two stacked matrices. -/
def rootSum0 (a10 a16 : C S2x64x64 .f32) : C S64x64 .f32 := addf (F := Ideal) (φ := .f32) (layerMat0 a10) (layerMat0 a16)

/-- The sum of layer 1 of two stacked matrices. -/
def rootSum1 (a10 a16 : C S2x64x64 .f32) : C S64x64 .f32 := addf (F := Ideal) (φ := .f32) (layerMat1 a10) (layerMat1 a16)

/-- The sum of layer 0 of two stacked vectors, as a [1, 64] row. -/
def biasSum0 (a9 a15 : C S2x64 .f32) : C S1x64 .f32 :=
  shapeCast S1x64 (addf (F := Ideal) (φ := .f32) (layerVec0 a9) (layerVec0 a15)) shapeCasts_S64_S1x64

/-- The sum of layer 1 of two stacked vectors, as a [1, 64] row. -/
def biasSum1 (a9 a15 : C S2x64 .f32) : C S1x64 .f32 :=
  shapeCast S1x64 (addf (F := Ideal) (φ := .f32) (layerVec1 a9) (layerVec1 a15)) shapeCasts_S64_S1x64

/-- Layer 0 of a stacked vector, as a [1, 64] row. -/
def layerBias0 (a12 : C S2x64 .f32) : C S1x64 .f32 := shapeCast S1x64 (layerVec0 a12) shapeCasts_S64_S1x64

/-! ## The layout stages read at an index -/

section Layout
open Idealize.ShloMosaic.ValueIdx

/-- The top half of a weight: rows 0 … 31. -/
theorem wTop_eq (a4 : C S64x64 .f32) : wTop a4 = Cert.Sage.top a4 := by
  funext i
  obtain ⟨r, c, rfl⟩ : ∃ (r : Fin 32) (c : Fin 64), i = ix2 r c := ⟨i 0, i 1, eq_ix2 i⟩
  exact extractStridedSlice_apply ![0, 0] a4 slices_S64x64_S32x64_0_0 (ix2 r c)
    (ix2 (⟨r.val, by omega⟩ : Fin 64) c) (by intro a; fin_cases a <;> simp [ix2])

/-- The bottom half of a weight: rows 32 … 63. -/
theorem wBot_eq (a4 : C S64x64 .f32) : wBot a4 = Cert.Sage.bot a4 := by
  funext i
  obtain ⟨r, c, rfl⟩ : ∃ (r : Fin 32) (c : Fin 64), i = ix2 r c := ⟨i 0, i 1, eq_ix2 i⟩
  exact extractStridedSlice_apply ![32, 0] a4 slices_S64x64_S32x64_32_0 (ix2 r c)
    (ix2 (⟨32 + r.val, by omega⟩ : Fin 64) c) (by intro a; fin_cases a <;> simp [ix2])

/-- A [64] vector stood up as a [1, 64] row. -/
theorem biasRow_eq (a5 : C S64 .f32) : biasRow a5 = Cert.Sage.row a5 := by
  funext i
  obtain ⟨u, c, rfl⟩ : ∃ (u : Fin 1) (c : Fin 64), i = ix2 u c := ⟨i 0, i 1, eq_ix2 i⟩
  exact shapeCast_a_1a_apply a5 shapeCasts_S64_S1x64 u c

/-- A [16] vector stood up as a [1, 16] row. -/
theorem headBias_eq (a18 : C S16 .f32) : headBias a18 = Cert.Sage.row a18 := by
  funext i
  obtain ⟨u, c, rfl⟩ : ∃ (u : Fin 1) (c : Fin 16), i = ix2 u c := ⟨i 0, i 1, eq_ix2 i⟩
  exact shapeCast_a_1a_apply a18 shapeCasts_S16_S1x16 u c

/-- Layer 0 of a stack of matrices. -/
theorem layerMat0_eq (a : C S2x64x64 .f32) : layerMat0 a = Cert.Sage.layer 0 a := by
  funext i
  obtain ⟨r, c, rfl⟩ : ∃ (r : Fin 64) (c : Fin 64), i = ix2 r c := ⟨i 0, i 1, eq_ix2 i⟩
  unfold layerMat0
  rw [shapeCast_1ab_ab_apply]
  exact extractStridedSlice_apply ![0, 0, 0] a slices_S2x64x64_S1x64x64_0_0_0 (ix3 (0 : Fin 1) r c)
    (ix3 (0 : Fin 2) r c) (by intro a; fin_cases a <;> simp [ix3])

/-- Layer 1 of a stack of matrices. -/
theorem layerMat1_eq (a : C S2x64x64 .f32) : layerMat1 a = Cert.Sage.layer 1 a := by
  funext i
  obtain ⟨r, c, rfl⟩ : ∃ (r : Fin 64) (c : Fin 64), i = ix2 r c := ⟨i 0, i 1, eq_ix2 i⟩
  unfold layerMat1
  rw [shapeCast_1ab_ab_apply]
  exact extractStridedSlice_apply ![1, 0, 0] a slices_S2x64x64_S1x64x64_1_0_0 (ix3 (0 : Fin 1) r c)
    (ix3 (1 : Fin 2) r c) (by intro a; fin_cases a <;> simp [ix3])

/-- Layer 0 of a stack of vectors, at column c. -/
theorem layerVec0_apply (b : C S2x64 .f32) (c : Fin 64) : layerVec0 b (ix1 c) = b (ix2 (0 : Fin 2) c) := by
  unfold layerVec0
  rw [shapeCast_1a_a_apply]
  exact extractStridedSlice_apply ![0, 0] b slices_S2x64_S1x64_0_0 (ix2 (0 : Fin 1) c)
    (ix2 (0 : Fin 2) c) (by intro a; fin_cases a <;> simp [ix2])

/-- Layer 1 of a stack of vectors, at column c. -/
theorem layerVec1_apply (b : C S2x64 .f32) (c : Fin 64) : layerVec1 b (ix1 c) = b (ix2 (1 : Fin 2) c) := by
  unfold layerVec1
  rw [shapeCast_1a_a_apply]
  exact extractStridedSlice_apply ![1, 0] b slices_S2x64_S1x64_1_0 (ix2 (0 : Fin 1) c)
    (ix2 (1 : Fin 2) c) (by intro a; fin_cases a <;> simp [ix2])

/-- The sum of layer 0 of two stacks of matrices, entry by entry. -/
theorem rootSum0_eq (a10 a16 : C S2x64x64 .f32) :
    rootSum0 a10 a16 = fun i => Cert.Sage.layer 0 a10 i + Cert.Sage.layer 0 a16 i := by
  funext i
  show layerMat0 a10 i + layerMat0 a16 i = _
  rw [layerMat0_eq, layerMat0_eq]

/-- The sum of layer 1 of two stacks of matrices, entry by entry. -/
theorem rootSum1_eq (a10 a16 : C S2x64x64 .f32) :
    rootSum1 a10 a16 = fun i => Cert.Sage.layer 1 a10 i + Cert.Sage.layer 1 a16 i := by
  funext i
  show layerMat1 a10 i + layerMat1 a16 i = _
  rw [layerMat1_eq, layerMat1_eq]

/-- The sum of layer 0 of two stacks of vectors, as a row. -/
theorem biasSum0_eq (a9 a15 : C S2x64 .f32) :
    biasSum0 a9 a15 = fun i => Cert.Sage.layerRow 0 a9 i + Cert.Sage.layerRow 0 a15 i := by
  funext i
  obtain ⟨u, c, rfl⟩ : ∃ (u : Fin 1) (c : Fin 64), i = ix2 u c := ⟨i 0, i 1, eq_ix2 i⟩
  unfold biasSum0
  rw [shapeCast_a_1a_apply]
  show layerVec0 a9 (ix1 c) + layerVec0 a15 (ix1 c) = a9 (ix2 (0 : Fin 2) c) + a15 (ix2 (0 : Fin 2) c)
  rw [layerVec0_apply, layerVec0_apply]

/-- The sum of layer 1 of two stacks of vectors, as a row. -/
theorem biasSum1_eq (a9 a15 : C S2x64 .f32) :
    biasSum1 a9 a15 = fun i => Cert.Sage.layerRow 1 a9 i + Cert.Sage.layerRow 1 a15 i := by
  funext i
  obtain ⟨u, c, rfl⟩ : ∃ (u : Fin 1) (c : Fin 64), i = ix2 u c := ⟨i 0, i 1, eq_ix2 i⟩
  unfold biasSum1
  rw [shapeCast_a_1a_apply]
  show layerVec1 a9 (ix1 c) + layerVec1 a15 (ix1 c) = a9 (ix2 (1 : Fin 2) c) + a15 (ix2 (1 : Fin 2) c)
  rw [layerVec1_apply, layerVec1_apply]

/-- Layer 0 of a stack of vectors, as a row. -/
theorem layerBias0_eq (a12 : C S2x64 .f32) : layerBias0 a12 = Cert.Sage.layerRow 0 a12 := by
  funext i
  obtain ⟨u, c, rfl⟩ : ∃ (u : Fin 1) (c : Fin 64), i = ix2 u c := ⟨i 0, i 1, eq_ix2 i⟩
  unfold layerBias0
  rw [shapeCast_a_1a_apply]
  exact layerVec0_apply a12 c

end Layout

end Cert.KernelIdeal.Whole

end
-- ==== Proof.KernelStages.lean ====
/-
  The kernel program's result as a closed function of its 25 arguments: the five dense steps (Cert.Sage's
  functions, one per launch) composed with the host operations between them.

  Authors' and papers' inputs are projected; layer 0 updates the papers from both the authors' and the papers'
  summed neighbourhoods and the authors from the papers'; layer 1 updates the papers again and applies the
  output head. The author update of layer 1 is never formed: nothing reads it.
-/
import proofs.«117675_j59828894433623_2_alg».proof.Proof.KernelHost
import proofs.«117675_j59828894433623_2_alg».proof.Proof.Spec

noncomputable section

namespace Cert.KernelIdeal.Whole

open Idealize.ShloMosaic
open Cert.KernelIdeal Cert.KernelIdeal.Facts₀

variable [Cert.KernelIdeal.Facts₀]

/-- The input projection of one node type (launches 0 and 1). -/
def yIn (xd xc : C S100000x32 .f32) (w : C S64x64 .f32) (b : C S64 .f32) : C S100000x64 .bf16 :=
  Cert.Sage.proj (R := 100000) xd xc (wTop w) (wBot w) (biasRow b)

/-- Layer 0's paper update (launch 2): the authors' rows summed along the author→paper edges and the papers'
    rows summed along the paper→paper edges, each scaled by its reciprocal in-degree, and the papers' own rows. -/
def paper0 (yA yP : C S100000x64 .bf16) (a8 : C S2x64x64 .f32) (a9 : C S2x64 .f32) (a10 a14 : C S2x64x64 .f32)
    (a15 : C S2x64 .f32) (a16 : C S2x64x64 .f32) (a19 a20 a23 a24 : C S1600000 .i32) : C S100000x64 .bf16 :=
  Cert.Sage.dual (R := 100000) (agg yA a19 a20) (inv a20) (agg yP a23 a24) (inv a24) yP
    (layerMat0 a8) (layerMat0 a14) (rootSum0 a10 a16) (biasSum0 a9 a15)

/-- Layer 0's author update (launch 3): the papers' rows summed along the paper→author edges, and the authors'
    own rows. -/
def author0 (yP yA : C S100000x64 .bf16) (a11 : C S2x64x64 .f32) (a12 : C S2x64 .f32) (a13 : C S2x64x64 .f32)
    (a21 a22 : C S1600000 .i32) : C S100000x64 .bf16 :=
  Cert.Sage.single (R := 100000) (agg yP a21 a22) (inv a22) yA (layerMat0 a11) (layerMat0 a13) (layerBias0 a12)

/-- Layer 1's paper update followed by the output head (launch 4). -/
def out1 (yA yP : C S100000x64 .bf16) (a8 : C S2x64x64 .f32) (a9 : C S2x64 .f32) (a10 a14 : C S2x64x64 .f32)
    (a15 : C S2x64 .f32) (a16 : C S2x64x64 .f32) (a17 : C S64x16 .f32) (a18 : C S16 .f32)
    (a19 a20 a23 a24 : C S1600000 .i32) : C S100000x16 .f32 :=
  Cert.Sage.head (R := 100000)
    (Cert.Sage.dual (R := 100000) (agg yA a19 a20) (inv a20) (agg yP a23 a24) (inv a24) yP
      (layerMat1 a8) (layerMat1 a14) (rootSum1 a10 a16) (biasSum1 a9 a15))
    a17 (headBias a18)

/-- The whole program's result. -/
def kout (a0 a1 a2 a3 : C S100000x32 .f32) (a4 : C S64x64 .f32) (a5 : C S64 .f32) (a6 : C S64x64 .f32)
    (a7 : C S64 .f32) (a8 : C S2x64x64 .f32) (a9 : C S2x64 .f32) (a10 a11 : C S2x64x64 .f32) (a12 : C S2x64 .f32)
    (a13 a14 : C S2x64x64 .f32) (a15 : C S2x64 .f32) (a16 : C S2x64x64 .f32) (a17 : C S64x16 .f32)
    (a18 : C S16 .f32) (a19 a20 a21 a22 a23 a24 : C S1600000 .i32) : C S100000x16 .f32 :=
  out1 (author0 (yIn a2 a3 a6 a7) (yIn a0 a1 a4 a5) a11 a12 a13 a21 a22)
    (paper0 (yIn a0 a1 a4 a5) (yIn a2 a3 a6 a7) a8 a9 a10 a14 a15 a16 a19 a20 a23 a24)
    a8 a9 a10 a14 a15 a16 a17 a18 a19 a20 a23 a24

end Cert.KernelIdeal.Whole

end
-- ==== Proof.Algebra.lean ====
/-
  The laws that join the two formulations of the network, and the fact that every dense step maps real
  inputs to real outputs.

  On the extended reals addition and multiplication are commutative and associative, so regrouping sums
  and splitting a 64-term sum into 32 + 32 are free. Two steps are not free. Multiplication distributes
  over addition only among real numbers (at an infinity `x · (a + b)` and `x · a + x · b` can differ): that
  is what turns "features against the sum of two root weights" into the sum of the two products, and it is
  where finiteness of the node features and of the weights is used. And scaling by the reciprocal of the
  in-degree equals dividing by the in-degree because the clamped in-degree is a nonzero real.
-/
import proofs.«117675_j59828894433623_2_alg».proof.Proof.Spec

noncomputable section

namespace Cert.Sage

open Idealize.ShloMosaic Idealize.ShloMosaic.ValueIdx

/-! ## Finiteness -/

/-- An extended real that is an ordinary real number. -/
def IsReal (x : EReal) : Prop := ∃ r : ℝ, x = (r : EReal)

theorem IsReal.zero : IsReal 0 := ⟨0, rfl⟩

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- Division by a nonzero real keeps a real number real. -/
theorem IsReal.div_coe {x : EReal} (hx : IsReal x) {c : ℝ} (hc : c ≠ 0) : IsReal (Ideal.div x (c : EReal)) := by
  rw [Ideal.div_coe hc]; exact hx.mul (IsReal.coe _)

/-- Among real numbers multiplication distributes over addition (it does not at the infinities). -/
theorem mul_add_of_isReal {y p q : EReal} (hy : IsReal y) (hp : IsReal p) (hq : IsReal q) :
    y * (p + q) = y * p + y * q := by
  obtain ⟨a, rfl⟩ := hy; obtain ⟨b, rfl⟩ := hp; obtain ⟨c, rfl⟩ := hq
  rw [← EReal.coe_add, ← EReal.coe_mul, ← EReal.coe_mul, ← EReal.coe_mul, ← EReal.coe_add, mul_add]

theorem dot_isReal {R K C : Nat} (x : Mat R K) (w : Mat K C) (hx : ∀ i, IsReal (x i)) (hw : ∀ i, IsReal (w i))
    (n : Fin R) (j : Fin C) : IsReal (dot x w n j) :=
  IsReal.sum _ _ fun k _ => (hx _).mul (hw _)

/-! ## The laws that join the two formulations -/

/-- A row of real features against the SUM of two real weights is the sum of the two products. -/
theorem dot_add_right {R K C : Nat} (y : Mat R K) (w1 w2 : Mat K C) (hy : ∀ i, IsReal (y i))
    (h1 : ∀ i, IsReal (w1 i)) (h2 : ∀ i, IsReal (w2 i)) (n : Fin R) (j : Fin C) :
    dot y (fun i => w1 i + w2 i) n j = dot y w1 n j + dot y w2 n j := by
  unfold dot
  rw [← Finset.sum_add_distrib]
  exact Finset.sum_congr rfl fun k _ => mul_add_of_isReal (hy _) (h1 _) (h2 _)

/-- Scaling a row by the reciprocal of a nonzero real in-degree is dividing each entry by that in-degree:
    true for every extended real entry. -/
theorem dot_scaled_eq {R : Nat} (a d : Mat R 64) (s : Mat R 1) (c : Fin R → ℝ) (hc : ∀ n, c n ≠ 0)
    (hd : ∀ n j, d (ix2 n j) = (c n : EReal)) (hs : ∀ n, s (ix2 n 0) = ((1 / c n : ℝ) : EReal))
    (wl : Mat 64 64) (n : Fin R) (j : Fin 64) :
    dot (scaled a s) wl n j = dot (fun i' => Ideal.div (a i') (d i')) wl n j := by
  unfold dot scaled
  refine Finset.sum_congr rfl fun k _ => ?_
  show a (ix2 n k) * s (ix2 n 0) * wl (ix2 k j) = Ideal.div (a (ix2 n k)) (d (ix2 n k)) * wl (ix2 k j)
  rw [hd n k, Ideal.div_coe (hc n), hs n]

/-- The update fed by two edge types, computed with the root weights and the biases summed first, is the sum
    of the two edge types' separate contributions — given real node features and real root weights. -/
theorem dual_eq_conv {R : Nat} (a1 d1 a2 d2 y : Mat R 64) (s1 s2 : Mat R 1) (c1 c2 : Fin R → ℝ)
    (hc1 : ∀ n, c1 n ≠ 0) (hc2 : ∀ n, c2 n ≠ 0)
    (hd1 : ∀ n j, d1 (ix2 n j) = (c1 n : EReal)) (hs1 : ∀ n, s1 (ix2 n 0) = ((1 / c1 n : ℝ) : EReal))
    (hd2 : ∀ n j, d2 (ix2 n j) = (c2 n : EReal)) (hs2 : ∀ n, s2 (ix2 n 0) = ((1 / c2 n : ℝ) : EReal))
    (wl1 wl2 wr1 wr2 : Mat 64 64) (b1 b2 : Mat 1 64)
    (hy : ∀ i, IsReal (y i)) (h1 : ∀ i, IsReal (wr1 i)) (h2 : ∀ i, IsReal (wr2 i)) :
    dual a1 s1 a2 s2 y wl1 wl2 (fun i => wr1 i + wr2 i) (fun i => b1 i + b2 i)
      = fun i => conv a1 d1 y wl1 wr1 b1 i + conv a2 d2 y wl2 wr2 b2 i := by
  funext i
  obtain ⟨n, j, rfl⟩ : ∃ (n : Fin R) (j : Fin 64), i = ix2 n j := ⟨i 0, i 1, eq_ix2 i⟩
  rw [dual_apply, conv_apply, conv_apply, dot_scaled_eq a1 d1 s1 c1 hc1 hd1 hs1,
    dot_scaled_eq a2 d2 s2 c2 hc2 hd2 hs2, dot_add_right y wr1 wr2 hy h1 h2]
  ac_rfl

/-- The update fed by one edge type is that edge type's contribution. -/
theorem single_eq_conv {R : Nat} (a d y : Mat R 64) (s : Mat R 1) (c : Fin R → ℝ) (hc : ∀ n, c n ≠ 0)
    (hd : ∀ n j, d (ix2 n j) = (c n : EReal)) (hs : ∀ n, s (ix2 n 0) = ((1 / c n : ℝ) : EReal))
    (wl wr : Mat 64 64) (b : Mat 1 64) :
    single a s y wl wr b = conv a d y wl wr b := by
  funext i
  obtain ⟨n, j, rfl⟩ : ∃ (n : Fin R) (j : Fin 64), i = ix2 n j := ⟨i 0, i 1, eq_ix2 i⟩
  rw [single_apply, conv_apply, dot_scaled_eq a d s c hc hd hs]
  ac_rfl

/-- The joined features against a 64-row weight: the first 32 columns meet the weight's top half, the last 32
    its bottom half. -/
theorem dot_join {R : Nat} (xd xc : Mat R 32) (w : Mat 64 64) (n : Fin R) (j : Fin 64) :
    dot (join xd xc) w n j = dot xd (top w) n j + dot xc (bot w) n j := by
  unfold dot
  rw [show (∑ k : Fin 64, join xd xc (ix2 n k) * w (ix2 k j))
      = ∑ k : Fin (32 + 32), join xd xc (ix2 n k) * w (ix2 k j) from rfl, Fin.sum_univ_add]
  congr 1

/-- The input projection computed half by half is the plain one. -/
theorem proj_eq_projPlain {R : Nat} (xd xc : Mat R 32) (w : Mat 64 64) (b : Vect 64) :
    proj xd xc (top w) (bot w) (row b) = projPlain xd xc w b := by
  funext i
  obtain ⟨n, j, rfl⟩ : ∃ (n : Fin R) (j : Fin 64), i = ix2 n j := ⟨i 0, i 1, eq_ix2 i⟩
  rw [proj_apply, projPlain_apply, dot_join]
  rfl

/-! ## Every dense step maps real inputs to real outputs -/

theorem proj_isReal {R : Nat} (xd xc : Mat R 32) (wd wc : Mat 32 64) (b : Mat 1 64)
    (hxd : ∀ i, IsReal (xd i)) (hxc : ∀ i, IsReal (xc i)) (hwd : ∀ i, IsReal (wd i)) (hwc : ∀ i, IsReal (wc i))
    (hb : ∀ i, IsReal (b i)) (i : (⟨2, ![R, 64]⟩ : Shape).Idx) : IsReal (proj xd xc wd wc b i) := by
  obtain ⟨n, j, rfl⟩ : ∃ (n : Fin R) (j : Fin 64), i = ix2 n j := ⟨i 0, i 1, eq_ix2 i⟩
  rw [proj_apply]
  exact (((dot_isReal xd wd hxd hwd n j).add (dot_isReal xc wc hxc hwc n j)).add (hb _)).max IsReal.zero

theorem scaled_isReal {R : Nat} (a : Mat R 64) (s : Mat R 1) (ha : ∀ i, IsReal (a i)) (hs : ∀ i, IsReal (s i))
    (i : (⟨2, ![R, 64]⟩ : Shape).Idx) : IsReal (scaled a s i) := (ha i).mul (hs _)

theorem dual_isReal {R : Nat} (a1 : Mat R 64) (s1 : Mat R 1) (a2 : Mat R 64) (s2 : Mat R 1) (y : Mat R 64)
    (wl1 wl2 wr : Mat 64 64) (b : Mat 1 64)
    (ha1 : ∀ i, IsReal (a1 i)) (hs1 : ∀ i, IsReal (s1 i)) (ha2 : ∀ i, IsReal (a2 i)) (hs2 : ∀ i, IsReal (s2 i))
    (hy : ∀ i, IsReal (y i)) (hwl1 : ∀ i, IsReal (wl1 i)) (hwl2 : ∀ i, IsReal (wl2 i)) (hwr : ∀ i, IsReal (wr i))
    (hb : ∀ i, IsReal (b i)) (i : (⟨2, ![R, 64]⟩ : Shape).Idx) : IsReal (dual a1 s1 a2 s2 y wl1 wl2 wr b i) := by
  obtain ⟨n, j, rfl⟩ : ∃ (n : Fin R) (j : Fin 64), i = ix2 n j := ⟨i 0, i 1, eq_ix2 i⟩
  rw [dual_apply]
  exact (((dot_isReal _ wl1 (scaled_isReal a1 s1 ha1 hs1) hwl1 n j).add
    (dot_isReal _ wl2 (scaled_isReal a2 s2 ha2 hs2) hwl2 n j)).add (dot_isReal y wr hy hwr n j)).add (hb _)

end Cert.Sage

end
-- ==== Proof.LibRowGather.lean ====
/-
  A row gather read at an index.

  What `x[idx]` of a matrix `x : [N, C]` at an index column `idx : [R, 1]` lowers to: `stablehlo.gather` with
  offset_dims `[1]`, collapsed_slice_dims `[0]`, start_index_map `[0]`, index_vector_dim 1, slice_sizes `[1, C]` and no
  batching axes; the result has shape `[R, C]`. Result element `(r, c)` is `x` at the row "`idx[r, 0]` read as a signed
  integer and clamped into `[0, N − 1]`" and the column `c`: on operand axis 0 (in the start index map, collapsed) the
  operand index is the clamped start alone, on operand axis 1 (not in the start index map, so its start is 0; the one
  offset axis) it is the result's second coordinate.
-/
import Idealize.ShloMosaic.PureOps.ShapeOps
import Idealize.ShloMosaic.Lib.ValueIdx

namespace Idealize.ShloMosaic.RowGather

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`, for the record `rowDims`: the operand at row `idx[r, 0]`, read signed and clamped
    into `[0, N − 1]`, and column `c`. -/
theorem rowDims_gather_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r ⟨0, Nat.one_pos⟩)).toInt.toNat (N - 1), by omega⟩ c) := by
  unfold Host.gather
  congr 1
  funext a
  refine Fin.ext ?_
  match a with
  | ⟨0, _⟩ =>
    show (rowDims N C R wf).start (ix2 r c) idx 0 + (rowDims N C R wf).batchCoord (ix2 r c) 0
      + (rowDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowDims N C R wf).start (ix2 r c) idx 1 + (rowDims N C R wf).batchCoord (ix2 r c) 1
      + (rowDims N C R wf).offCoord (ix2 r c) 1 = c.val
    have hst : (rowDims N C R wf).start (ix2 r c) idx 1 = 0 := by
      unfold GatherDims.start
      rw [dif_neg (show ¬ (1 : Fin 2) ∈ (rowDims N C R wf).startIndexMap from
        (by decide : (1 : Fin 2) ∉ ([0] : List (Fin 2))))]
    have hk : (1 : Fin 2) ∈ (rowDims N C R wf).sKept :=
      (GatherDims.mem_sKept _ _).mpr ⟨(by decide : (1 : Fin 2) ∉ ([0] : List (Fin 2))), List.not_mem_nil⟩
    rw [hst, GatherDims.batchCoord_eq_zero _ _ _ List.not_mem_nil]
    simp only [Nat.zero_add]
    unfold GatherDims.offCoord
    rw [dif_pos hk]
    rfl

/-- THE ROW GATHER READ AT `(r, c)`, for any record with the row gather's dimension numbers: the operand at row
    `idx[r, 0]`, read signed and clamped into `[0, N − 1]`, and column `c`. -/
theorem rowGather_apply {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 ⟨min (idx (ix2 r ⟨0, Nat.one_pos⟩)).toInt.toNat (N - 1), by omega⟩ c) := by
  obtain ⟨od, cd, ob, sb, sm, iv, ss, wf⟩ := d
  simp only at h1 h2 h3 h4 h5 h6 h7
  subst h1 h2 h3 h4 h5 h6 h7
  exact rowDims_gather_apply hN wf x idx r c

end Idealize.ShloMosaic.RowGather
-- ==== Proof.LibRowScatter.lean ====
/-
  An accumulating row scatter read at an index, over the extended reals.

  What a segment sum of the rows of a matrix `upd : [E, C]` into `x : [N, C]` at an index column `idx : [E, 1]` lowers
  to: `stablehlo.scatter` with an `add` body, update_window_dims `[1]`, inserted_window_dims `[0]`,
  scatter_dims_to_operand_dims `[0]` and index_vector_dim 1. Update element `(e, c')` lands at the row `idx[e, 0]
  read as a signed integer` (not clamped) and the column `c'` when that row lies in `[0, N)`, and is dropped
  otherwise: on operand axis 0 (named by the scatter-dims map, an inserted window axis) the result index is the start
  alone, on operand axis 1 (not named by the map, so its start is 0; the one window axis) it is the update's second
  coordinate. So the updates landing on `(n, c)` are exactly the `(e, c)` with `idx[e, 0] = n`, and the result there is
  the operand's element plus the sum of those updates. The same holds for a vector `upd : [E]` scattered into
  `x : [N]` (no window axis at all): the result at `n` is `x n` plus the sum of `upd e` over the `e` with
  `idx[e, 0] = n`.
-/
import Idealize.ShloMosaic.PureOps.Ideal
import Idealize.ShloMosaic.Lib.ValueIdx

open scoped BigOperators

namespace Idealize.ShloMosaic.RowScatter

open Idealize.ShloMosaic Idealize.ShloMosaic.ValueIdx

/-- The update rows whose target row, `idx[e, 0]` read as a signed integer, is `n`. -/
def hits {N E w : Nat} (idx : IVec ⟨2, ![E, 1]⟩ w) (n : Fin N) : Finset (Fin E) :=
  Finset.univ.filter fun e => (idx (ix2 e (0 : Fin 1))).toInt = (n.val : Int)

/-- Membership in `hits`: the target row of `e`, read signed, is `n`. -/
theorem mem_hits {N E w : Nat} (idx : IVec ⟨2, ![E, 1]⟩ w) (n : Fin N) (e : Fin E) :
    e ∈ hits idx n ↔ (idx (ix2 e (0 : Fin 1))).toInt = (n.val : Int) := by
  simp [hits]

/-! ## The row scatter -/

/-- The row scatter's dimension numbers for an operand `[N, C]`, scatter indices `[E, 1]` and updates `[E, C]`; their
    conditions `wf` are decided on a program's literal shapes. -/
abbrev rowDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where an update of the row scatter lands: update `(e, c')` lands on `(n, c)` exactly when its target row
    `idx[e, 0]`, read signed, is `n` and its column `c'` is `c`. -/
theorem rowDims_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowDims N C E wf).resultIdx? (ix2 e c') idx = some (ix2 n c)
      ↔ (idx (ix2 e (0 : Fin 1))).toInt = (n.val : Int) ∧ c' = c := by
  have hs0 : (rowDims N C E wf).start (ix2 e c') idx 0 = (idx (ix2 e (0 : Fin 1))).toInt := by
    unfold ScatterDims.start
    rw [dif_pos (show (0 : Fin 2) ∈ (rowDims N C E wf).scatterDimsToOperandDims from List.mem_singleton.mpr rfl)]
    have hsi : (rowDims N C E wf).siIdx (ix2 e c') ⟨List.idxOf (0 : Fin 2) (rowDims N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowDims N C E wf).start (ix2 e c') idx 1 = 0 := by
    unfold ScatterDims.start
    rw [dif_neg (show ¬ (1 : Fin 2) ∈ (rowDims N C E wf).scatterDimsToOperandDims from
      (by decide : (1 : Fin 2) ∉ ([0] : List (Fin 2))))]
  have hk : (rowDims N C E wf).sKept = [1] := rfl
  have hw0 : (rowDims N C E wf).window (ix2 e c') 0 = 0 := by
    unfold ScatterDims.window
    rw [dif_neg (by rw [hk]; exact (by decide : (0 : Fin 2) ∉ ([1] : List (Fin 2))))]
  have hw1 : (rowDims N C E wf).window (ix2 e c') 1 = c'.val := by
    unfold ScatterDims.window
    rw [dif_pos (by rw [hk]; exact List.mem_singleton.mpr rfl)]
    rfl
  unfold ScatterDims.resultIdx?
  by_cases h : ∀ a, 0 ≤ (rowDims N C E wf).start (ix2 e c') idx a + (rowDims N C E wf).window (ix2 e c') a
      ∧ (rowDims N C E wf).start (ix2 e c') idx a + (rowDims N C E wf).window (ix2 e c') a
        < (⟨2, ![N, C]⟩ : Shape).size a
  · rw [dif_pos h, Option.some.injEq]
    have h0 := h 0
    rw [hs0, hw0] at h0
    constructor
    · intro hf
      have e0 : ((rowDims N C E wf).start (ix2 e c') idx 0 + (rowDims N C E wf).window (ix2 e c') 0).toNat = n.val :=
        congrArg Fin.val (congrFun hf 0)
      have e1 : ((rowDims N C E wf).start (ix2 e c') idx 1 + (rowDims N C E wf).window (ix2 e c') 1).toNat = c.val :=
        congrArg Fin.val (congrFun hf 1)
      rw [hs0, hw0] at e0
      rw [hs1, hw1] at e1
      refine ⟨by omega, Fin.ext (by omega)⟩
    · rintro ⟨ht, rfl⟩
      funext a; refine Fin.ext ?_
      match a with
      | ⟨0, _⟩ =>
        show ((rowDims N C E wf).start (ix2 e c') idx 0 + (rowDims N C E wf).window (ix2 e c') 0).toNat = n.val
        rw [hs0, hw0]; omega
      | ⟨1, _⟩ =>
        show ((rowDims N C E wf).start (ix2 e c') idx 1 + (rowDims N C E wf).window (ix2 e c') 1).toNat = c'.val
        rw [hs1, hw1]; omega
  · rw [dif_neg h]
    constructor
    · intro hf; cases hf
    · rintro ⟨ht, rfl⟩
      refine absurd (fun a => ?_) h
      match a with
      | ⟨0, _⟩ =>
        show 0 ≤ (rowDims N C E wf).start (ix2 e c') idx 0 + (rowDims N C E wf).window (ix2 e c') 0
          ∧ (rowDims N C E wf).start (ix2 e c') idx 0 + (rowDims N C E wf).window (ix2 e c') 0 < (N : Int)
        rw [hs0, hw0]; have := n.isLt; omega
      | ⟨1, _⟩ =>
        show 0 ≤ (rowDims N C E wf).start (ix2 e c') idx 1 + (rowDims N C E wf).window (ix2 e c') 1
          ∧ (rowDims N C E wf).start (ix2 e c') idx 1 + (rowDims N C E wf).window (ix2 e c') 1 < (C : Int)
        rw [hs1, hw1]; have := c'.isLt; omega

/-- THE ROW SCATTER READ AT `(n, c)`, for the record `rowDims`: the operand's element plus the sum of the updates
    `(e, c)` over the rows `e` whose target row `idx[e, 0]`, read signed, is `n`. -/
theorem rowDims_scatterAdd_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) (rowDims N C E wf) x idx upd (ix2 n c)
      = x (ix2 n c) + ∑ e ∈ hits idx n, upd (ix2 e c) := by
  have hdef : Host.scatterAdd (F := Ideal) (rowDims N C E wf) x idx upd
      = Ideal.hostScatterAdd (rowDims N C E wf) x idx upd := rfl
  rw [hdef]
  simp only [Ideal.hostScatterAdd]
  congr 1
  rw [Finset.sum_filter, sum_idx2]
  unfold hits
  rw [Finset.sum_filter]
  refine Finset.sum_congr rfl fun e _ => ?_
  simp only [rowDims_resultIdx?_eq_some_iff]
  by_cases ht : (idx (ix2 e (0 : Fin 1))).toInt = (n.val : Int)
  · simp only [ht, true_and, if_true]
    rw [Finset.sum_ite_eq' Finset.univ c (fun b => upd (ix2 e b)), if_pos (Finset.mem_univ c)]
  · simp only [ht, false_and, if_false]
    exact Finset.sum_const_zero

/-- THE ROW SCATTER READ AT `(n, c)`, for any record with the row scatter's dimension numbers: the operand's element
    plus the sum of the updates `(e, c)` over the rows `e` whose target row `idx[e, 0]`, read signed, is `n`
    (an update whose target row is outside `[0, N)` is dropped). -/
theorem rowScatterAdd_apply {N C E w : Nat} {φ : FTy}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) d x idx upd (ix2 n c) = x (ix2 n c) + ∑ e ∈ hits idx n, upd (ix2 e c) := by
  obtain ⟨uw, iw, sd, iv, wf⟩ := d
  simp only at h1 h2 h3 h4
  subst h1 h2 h3 h4
  exact rowDims_scatterAdd_apply wf x idx upd n c

/-! ## The vector scatter -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers for an operand `[N]`, scatter indices `[E, 1]` and updates `[E]` (no window
    axis); their conditions `wf` are decided on a program's literal shapes. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where an update of the vector scatter lands: update `e` lands on `n` exactly when its target `idx[e, 0]`, read
    signed, is `n`. -/
theorem vecDims_resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecDims N E wf).resultIdx? (ix1 e) idx = some (ix1 n)
      ↔ (idx (ix2 e (0 : Fin 1))).toInt = (n.val : Int) := by
  have hs0 : (vecDims N E wf).start (ix1 e) idx 0 = (idx (ix2 e (0 : Fin 1))).toInt := by
    unfold ScatterDims.start
    rw [dif_pos (show (0 : Fin 1) ∈ (vecDims N E wf).scatterDimsToOperandDims from List.mem_singleton.mpr rfl)]
    have hsi : (vecDims N E wf).siIdx (ix1 e) ⟨List.idxOf (0 : Fin 1) (vecDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hk : (vecDims N E wf).sKept = [] := rfl
  have hw0 : (vecDims N E wf).window (ix1 e) 0 = 0 := by
    unfold ScatterDims.window
    rw [dif_neg (by rw [hk]; exact List.not_mem_nil)]
  unfold ScatterDims.resultIdx?
  by_cases h : ∀ a, 0 ≤ (vecDims N E wf).start (ix1 e) idx a + (vecDims N E wf).window (ix1 e) a
      ∧ (vecDims N E wf).start (ix1 e) idx a + (vecDims N E wf).window (ix1 e) a
        < (⟨1, ![N]⟩ : Shape).size a
  · rw [dif_pos h, Option.some.injEq]
    have h0 := h 0
    rw [hs0, hw0] at h0
    constructor
    · intro hf
      have e0 : ((vecDims N E wf).start (ix1 e) idx 0 + (vecDims N E wf).window (ix1 e) 0).toNat = n.val :=
        congrArg Fin.val (congrFun hf 0)
      rw [hs0, hw0] at e0
      omega
    · intro ht
      funext a; refine Fin.ext ?_
      match a with
      | ⟨0, _⟩ =>
        show ((vecDims N E wf).start (ix1 e) idx 0 + (vecDims N E wf).window (ix1 e) 0).toNat = n.val
        rw [hs0, hw0]; omega
  · rw [dif_neg h]
    constructor
    · intro hf; cases hf
    · intro ht
      refine absurd (fun a => ?_) h
      match a with
      | ⟨0, _⟩ =>
        show 0 ≤ (vecDims N E wf).start (ix1 e) idx 0 + (vecDims N E wf).window (ix1 e) 0
          ∧ (vecDims N E wf).start (ix1 e) idx 0 + (vecDims N E wf).window (ix1 e) 0 < (N : Int)
        rw [hs0, hw0]; have := n.isLt; omega

/-- THE VECTOR SCATTER READ AT `n`, for the record `vecDims`: the operand's element plus the sum of the updates `e`
    whose target `idx[e, 0]`, read signed, is `n`. -/
theorem vecDims_scatterAdd_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecDims N E wf) x idx upd (ix1 n)
      = x (ix1 n) + ∑ e ∈ hits idx n, upd (ix1 e) := by
  have hdef : Host.scatterAdd (F := Ideal) (vecDims N E wf) x idx upd
      = Ideal.hostScatterAdd (vecDims N E wf) x idx upd := rfl
  rw [hdef]
  simp only [Ideal.hostScatterAdd]
  congr 1
  rw [Finset.sum_filter, sum_idx1]
  unfold hits
  rw [Finset.sum_filter]
  refine Finset.sum_congr rfl fun e _ => ?_
  simp only [vecDims_resultIdx?_eq_some_iff]

/-- THE VECTOR SCATTER READ AT `n`, for any record with the vector scatter's dimension numbers: the operand's element
    plus the sum of the updates `e` whose target `idx[e, 0]`, read signed, is `n` (an update whose target is outside
    `[0, N)` is dropped). With every update equal to one this counts the rows aimed at `n`. -/
theorem vecScatterAdd_apply {N E w : Nat} {φ : FTy}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n) = x (ix1 n) + ∑ e ∈ hits idx n, upd (ix1 e) := by
  obtain ⟨uw, iw, sd, iv, wf⟩ := d
  simp only at h1 h2 h3 h4
  subst h1 h2 h3 h4
  exact vecDims_scatterAdd_apply wf x idx upd n

end Idealize.ShloMosaic.RowScatter
-- ==== Proof.AggFacts.lean ====
/-
  The irregular step's two facts the dense steps need.

  A scatter-add of ones along the edges' targets counts, at node `n`, the edges aimed at `n`: a natural
  number, so after clamping below at one a nonzero REAL — dividing by it and scaling by its reciprocal agree
  on every extended real. And summing gathered rows of a real array along the edges gives a real array: each
  entry is a finite sum of entries of the array.
-/
import proofs.«117675_j59828894433623_2_alg».proof.Proof.Algebra
import proofs.«117675_j59828894433623_2_alg».proof.Proof.LibRowGather
import proofs.«117675_j59828894433623_2_alg».proof.Proof.LibRowScatter

noncomputable section

namespace Cert.Sage

open Idealize.ShloMosaic Idealize.ShloMosaic.ValueIdx Idealize.ShloMosaic.RowScatter

/-- The word of `1.0` denotes the real number one. -/
theorem ofBits_one : Ideal.ofBits .f32 0x3F800000#32 = 1 := by
  simp [Ideal.ofBits, Ideal.ieee, -EReal.coe_mul]; norm_num

/-- The clamped in-degree of node `n` along the target column `idx`: the number of edges aimed at `n`, at least one. -/
def deg {N E w : Nat} (idx : IVec ⟨2, ![E, 1]⟩ w) (n : Fin N) : ℝ := max ((hits idx n).card : ℝ) 1

theorem deg_ne_zero {N E w : Nat} (idx : IVec ⟨2, ![E, 1]⟩ w) (n : Fin N) : deg idx n ≠ 0 := by
  have h : (1 : ℝ) ≤ deg idx n := le_max_right _ _
  intro h0; rw [h0] at h; norm_num at h

/-- A sum of ones over a finite set is its number of elements. -/
theorem sum_one_eq_card {ι : Type*} (s : Finset ι) : (∑ _e ∈ s, (1 : EReal)) = ((s.card : ℝ) : EReal) := by
  classical
  refine Finset.induction_on s ?_ ?_
  · simp
  · intro a s ha ih
    rw [Finset.sum_insert ha, ih, Finset.card_insert_of_notMem ha, Nat.cast_add, Nat.cast_one, EReal.coe_add,
      EReal.coe_one, add_comm]

/-- The larger of two reals, taken among the extended reals, is the larger real. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A scatter-add of ones into zeros counts the edges aimed at each node. -/
theorem count_apply {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ .f32) (idx : IVec ⟨2, ![E, 1]⟩ w) (upd : FVec Ideal ⟨1, ![E]⟩ .f32)
    (hx : ∀ i, x i = 0) (hu : ∀ i, upd i = 1) (n : Fin N) :
    Host.scatterAdd (F := Ideal) d x idx upd (ix1 n) = (((hits idx n).card : ℝ) : EReal) := by
  rw [vecScatterAdd_apply d h1 h2 h3 h4 x idx upd n, hx, zero_add,
    Finset.sum_congr rfl (fun e _ => hu (ix1 e)), Finset.sum_const, EReal.nsmul_eq_mul, mul_one]
  norm_cast

/-- The count clamped below at one is the clamped in-degree. -/
theorem max_count_one {N E w : Nat} (idx : IVec ⟨2, ![E, 1]⟩ w) (n : Fin N) :
    max ((((hits idx n).card : ℝ) : EReal)) 1 = ((deg idx n : ℝ) : EReal) := by
  unfold deg
  rw [← EReal.coe_one]
  exact (EReal.coe_strictMono.monotone.map_max).symm

/-- One divided by a nonzero real is the real reciprocal. -/
theorem one_div_coe {c : ℝ} (hc : c ≠ 0) : Ideal.div 1 (c : EReal) = ((1 / c : ℝ) : EReal) := by
  rw [Ideal.div_coe hc, one_mul]

/-- Gathering rows of a real array and summing them along the edges into zeros gives a real array. -/
theorem gather_scatter_isReal {N C E w w' : Nat} (hN : 0 < N)
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (g : GatherDims ⟨2, ![N, C]⟩ ⟨2, ![E, 1]⟩ ⟨2, ![E, C]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (x : FVec Ideal ⟨2, ![N, C]⟩ .f32) (hx : ∀ i, x i = 0)
    (dst : IVec ⟨2, ![E, 1]⟩ w) (src : IVec ⟨2, ![E, 1]⟩ w')
    (y : (⟨2, ![N, C]⟩ : Shape).Idx → EReal) (hy : ∀ i, IsReal (y i)) (i : (⟨2, ![N, C]⟩ : Shape).Idx) :
    IsReal (Host.scatterAdd (F := Ideal) d x dst (Host.gather g y src) i) := by
  obtain ⟨n, c, rfl⟩ : ∃ (n : Fin N) (c : Fin C), i = ix2 n c := ⟨i 0, i 1, eq_ix2 i⟩
  rw [rowScatterAdd_apply d h1 h2 h3 h4 x dst _ n c, hx, zero_add]
  refine IsReal.sum _ _ fun e _ => ?_
  rw [RowGather.rowGather_apply hN g g1 g2 g3 g4 g5 g6 g7 y src e c]
  exact hy _

end Cert.Sage

end
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.KernelHostAgg.lean ====
/-
  The two irregular host stages of the kernel program, read at an index.

  Counting the edges aimed at each node is a scatter-add of ones into zeros; the program raises the count to at least
  one and takes one over it, so the column it hands the device regions holds, at node n, the real number
  1 / max (number of edges aimed at n) 1. Summing, for each node, the rows of a feature array gathered along the edges
  aimed at it gives, entry by entry, a finite sum of entries of that array: real whenever the array is.
-/
import proofs.«117675_j59828894433623_2_alg».proof.Proof.KernelHost
import proofs.«117675_j59828894433623_2_alg».proof.Proof.AggFacts
import proofs.«117675_j59828894433623_2_alg».proof.Proof.LibKeepdimsSum
import Idealize.ShloMosaic.Lib.IdealHost

noncomputable section

namespace Cert.KernelIdeal.Whole

open Idealize.ShloMosaic Idealize.ShloMosaic.ValueIdx
open Cert.KernelIdeal Cert.KernelIdeal.Facts₀

variable [Cert.KernelIdeal.Facts₀]

/-- The pattern of 1.0 broadcast to any shape reads one everywhere. -/
theorem bcast_one_apply {T : Shape} (h : S_.BroadcastsInDim T (![] : Fin 0 → Fin T.rank)) (j : T.Idx) :
    broadcastInDim T ![] h (constant S_ .f32 0x3F800000#32 : FVec Ideal S_ .f32) j = 1 := by
  rw [broadcastInDim_scalar_apply]
  exact Cert.Sage.ofBits_one

/-- The pattern of 0.0 broadcast to any shape reads zero everywhere. -/
theorem bcast_zero_apply {T : Shape} (h : S_.BroadcastsInDim T (![] : Fin 0 → Fin T.rank)) (j : T.Idx) :
    broadcastInDim T ![] h (constant S_ .f32 0x00000000#32 : FVec Ideal S_ .f32) j = 0 := by
  rw [broadcastInDim_scalar_apply]
  exact Ideal.ofBits_zero_f32

/-- The reciprocal in-degree column at node n: one over the number of edges aimed at n, that number raised to at
    least one. -/
theorem inv_apply (dst : C S1600000 .i32) (n : Fin 100000) :
    inv dst (ix2 n 0) = ((1 / Cert.Sage.deg (dstCol dst) n : ℝ) : EReal) := by
  have hc := Cert.Sage.count_apply scatter_S100000_S1600000x1_S1600000_n_0_0_1 rfl rfl rfl rfl
    (broadcastInDim S100000 ![] bcast_S_S100000 (constant S_ .f32 0x00000000#32 : FVec Ideal S_ .f32)) (dstCol dst)
    (broadcastInDim S1600000 ![] bcast_S_S1600000 (constant S_ .f32 0x3F800000#32 : FVec Ideal S_ .f32))
    (fun i => bcast_zero_apply bcast_S_S100000 i) (fun i => bcast_one_apply bcast_S_S1600000 i) n
  unfold inv
  rw [Cert.KeepdimsSum.shapeCast_a_a1_apply]
  rw [hostDivf_apply, maximumf_apply, hc, bcast_one_apply, Cert.Sage.max_count_one,
    Cert.Sage.one_div_coe (Cert.Sage.deg_ne_zero _ _)]

/-- Every entry of the reciprocal in-degree column is a real number. -/
theorem inv_isReal (dst : C S1600000 .i32) : ∀ i, Cert.Sage.IsReal (inv dst i) := by
  intro i
  obtain ⟨n, u, rfl⟩ : ∃ (n : Fin 100000) (u : Fin 1), i = ix2 n u := ⟨i 0, i 1, eq_ix2 i⟩
  have hu : u = 0 := Subsingleton.elim _ _
  subst hu
  rw [inv_apply]
  exact Cert.Sage.IsReal.coe _

/-- The summed neighbourhood of a real array is a real array. -/
theorem agg_isReal (y : C S100000x64 .bf16) (hy : ∀ i, Cert.Sage.IsReal (y i)) (src dst : C S1600000 .i32) :
    ∀ i, Cert.Sage.IsReal (agg y src dst i) := fun i =>
  Cert.Sage.gather_scatter_isReal (by norm_num) scatter_S100000x64_S1600000x1_S1600000x64_1_0_0_1 rfl rfl rfl rfl
    gather_S100000x64_S1600000x1_S1600000x64_1_0_n_n_0_1_164 rfl rfl rfl rfl rfl rfl rfl
    (broadcastInDim S100000x64 ![] bcast_S_S100000x64 (constant S_ .f32 0x00000000#32 : FVec Ideal S_ .f32))
    (fun i => bcast_zero_apply bcast_S_S100000x64 i) (dstCol dst) (srcCol src) y hy i

end Cert.KernelIdeal.Whole

end
-- ==== Proof.LibColumnJoin.lean ====
/-
  Two general facts used to read a matrix product whose operands are joined along the feature axis.

  * Joining an [R, A] matrix u and an [R, B] matrix v along axis 1 gives an [R, N] matrix (N = A + B) whose entry (r, c)
    is u (r, c) for c < A and v (r, c − A) for A ≤ c (`join_cols_left`, `join_cols_right`).
  * In any commutative additive monoid, a sum over n + m consecutive indices is the sum over the first n plus the sum over
    the last m (`sum_fin_split`), with the two ranges given as explicit `Fin N` values so that no index type has to be
    spelt as a sum.
-/
import Idealize.ShloMosaic.Lib.Pipeline.Value
import Idealize.ShloMosaic.Lib.ValueIdx

noncomputable section

namespace Idealize.ShloMosaic.ColumnJoin

open Idealize.ShloMosaic Idealize.ShloMosaic.ValueIdx

variable {α : Type}

/-- Entry (r, c) of [u | v], for a column c that falls in u: it is u (r, c). -/
theorem join_cols_left {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin A) (hc : c.val = d.val) :
    concatenate (⟨2, ![R, N]⟩ : Shape) 1 [⟨⟨2, ![R, A]⟩, u⟩, ⟨⟨2, ![R, B]⟩, v⟩] h (ix2 r c) = u (ix2 r d) :=
  concatenate_pair_apply_left 1 u v h (ix2 r c) rfl (ix2 r d) (fun b => match b with
    | ⟨0, _⟩ => rfl
    | ⟨1, _⟩ => hc.symm)

/-- Entry (r, c) of [u | v], for a column c past u's A columns: it is v (r, c − A). -/
theorem join_cols_right {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin B) (hc : c.val = A + d.val) :
    concatenate (⟨2, ![R, N]⟩ : Shape) 1 [⟨⟨2, ![R, A]⟩, u⟩, ⟨⟨2, ![R, B]⟩, v⟩] h (ix2 r c) = v (ix2 r d) :=
  concatenate_pair_apply_right 1 u v h (ix2 r c) rfl rfl (ix2 r d) (fun b hb => match b, hb with
    | ⟨0, _⟩, _ => rfl
    | ⟨1, _⟩, hb => absurd rfl hb)
    (by show d.val + A = c.val; omega)

/-- A sum over `N = n + m` indices is the sum over the first `n` plus the sum over the last `m`. -/
theorem sum_fin_split {M : Type*} [AddCommMonoid M] {N : Nat} (n m : Nat) (hN : N = n + m) (f : Fin N → M) :
    ∑ k : Fin N, f k
      = (∑ d : Fin n, f ⟨d.val, by have := d.isLt; omega⟩) + ∑ d : Fin m, f ⟨n + d.val, by have := d.isLt; omega⟩ := by
  subst hN
  exact Fin.sum_univ_add f

end Idealize.ShloMosaic.ColumnJoin

end
-- ==== Proof.RefStages.lean ====
/-
  The plain formulation read stage by stage.

  Each stage of the plain program is a function of the program's arguments. Here every dense stage is
  identified, index by index, with the corresponding function of the shared vocabulary: the feature halves
  joined side by side, the input projection (joined features against the whole weight, plus the bias, clamped
  below at zero), one edge type's contribution (the summed neighbourhood divided entry by entry by the clamped
  in-degree matrix, against its weight, plus its bias, plus the node's own features against the root weight),
  the sum of two contributions, and the output head. The irregular stages (collecting neighbour rows along the
  edges and adding them up per target node) are never opened: they enter only as the arrays the dense stages
  are handed.
-/
import proofs.«117675_j59828894433623_2_alg».proof.Proof.Gen.ReferenceIdeal.Read
import proofs.«117675_j59828894433623_2_alg».proof.Proof.Spec
import proofs.«117675_j59828894433623_2_alg».proof.Proof.LibColumnJoin

noncomputable section

namespace Cert.ReferenceIdeal.Stages

open Cert.ReferenceIdeal Cert.ReferenceIdeal.Gen Cert.ReferenceIdeal.Read Idealize.ShloMosaic
  Idealize.ShloMosaic.ValueIdx Idealize.ShloMosaic.ColumnJoin

/-! ## The joined features and the input projections -/

/-- Joining two 32-column halves along the feature axis: column c comes from the first half for c < 32 and
    from the second half, at column c − 32, otherwise. -/
theorem join_eq (u v : (⟨S100000x32, .f32⟩ : BufTy).Contents (Elt Ideal)) :
    concatenate S100000x64 1 [⟨S100000x32, u⟩, ⟨S100000x32, v⟩] concatenates_S100000x32_S100000x32_S100000x64_d1
      = Cert.Sage.join u v := by
  funext i
  obtain ⟨r, c, rfl⟩ : ∃ (r : Fin 100000) (c : Fin 64), i = ix2 r c := ⟨i 0, i 1, eq_ix2 i⟩
  by_cases h : c.val < 32
  · refine (join_cols_left u v _ r c ⟨c.val, h⟩ rfl).trans ?_
    show _ = dite _ _ _
    rw [dif_pos h]
  · refine (join_cols_right u v _ r c ⟨c.val - 32, by have := c.isLt; omega⟩ (by show c.val = 32 + (c.val - 32); omega)).trans ?_
    show _ = dite _ _ _
    rw [dif_neg h]

theorem v0_eq (x0 x1 : (⟨S100000x32, .f32⟩ : BufTy).Contents (Elt Ideal)) :
    val_main_v0 (F := Ideal) x0 x1 = Cert.Sage.join x0 x1 := join_eq x0 x1

theorem v6_eq (x2 x3 : (⟨S100000x32, .f32⟩ : BufTy).Contents (Elt Ideal)) :
    val_main_v6 (F := Ideal) x2 x3 = Cert.Sage.join x2 x3 := join_eq x2 x3

/-- The input projection of the first node type. -/
theorem v5_eq (x0 x1 : (⟨S100000x32, .f32⟩ : BufTy).Contents (Elt Ideal)) (x4 : (⟨S64x64, .f32⟩ : BufTy).Contents (Elt Ideal)) (x5 : (⟨S64, .f32⟩ : BufTy).Contents (Elt Ideal)) :
    val_main_v5 (F := Ideal) x0 x1 x4 x5 = Cert.Sage.projPlain x0 x1 x4 x5 := by
  funext i
  obtain ⟨r, c, rfl⟩ : ∃ (r : Fin 100000) (c : Fin 64), i = ix2 r c := ⟨i 0, i 1, eq_ix2 i⟩
  have el : ∀ k : Fin 64, lidx_main_v1 (ix2 r c) k = ix2 r k := fun k => funext fun a => Fin.ext (by match a with | ⟨0, _⟩ => rfl | ⟨1, _⟩ => rfl)
  have er : ∀ k : Fin 64, ridx_main_v1 (ix2 r c) k = ix2 k c := fun k => funext fun a => Fin.ext (by match a with | ⟨0, _⟩ => rfl | ⟨1, _⟩ => rfl)
  have eb : idx_main_v2 (idx_main_v3 (ix2 r c)) = ix1 c := funext fun a => Fin.ext (by match a with | ⟨0, _⟩ => rfl)
  rw [val_main_v5_apply, val_main_v4_apply, val_main_v1_apply, val_main_v3_apply, val_main_v2_apply,
    val_main_call0_v0_apply, val_main_call0_cst_apply, Cert.Sage.projPlain_apply]
  simp only [el, er, eb, v0_eq, Ideal.maximumf_def, Ideal.addf_def, Ideal.ofBits_def,
    Ideal.ofBits_zero_f32, Cert.Sage.dot]

/-- The input projection of the second node type. -/
theorem v11_eq (x2 x3 : (⟨S100000x32, .f32⟩ : BufTy).Contents (Elt Ideal)) (x6 : (⟨S64x64, .f32⟩ : BufTy).Contents (Elt Ideal)) (x7 : (⟨S64, .f32⟩ : BufTy).Contents (Elt Ideal)) :
    val_main_v11 (F := Ideal) x2 x3 x6 x7 = Cert.Sage.projPlain x2 x3 x6 x7 := by
  funext i
  obtain ⟨r, c, rfl⟩ : ∃ (r : Fin 100000) (c : Fin 64), i = ix2 r c := ⟨i 0, i 1, eq_ix2 i⟩
  have el : ∀ k : Fin 64, lidx_main_v7 (ix2 r c) k = ix2 r k := fun k => funext fun a => Fin.ext (by match a with | ⟨0, _⟩ => rfl | ⟨1, _⟩ => rfl)
  have er : ∀ k : Fin 64, ridx_main_v7 (ix2 r c) k = ix2 k c := fun k => funext fun a => Fin.ext (by match a with | ⟨0, _⟩ => rfl | ⟨1, _⟩ => rfl)
  have eb : idx_main_v8 (idx_main_v9 (ix2 r c)) = ix1 c := funext fun a => Fin.ext (by match a with | ⟨0, _⟩ => rfl)
  rw [val_main_v11_apply, val_main_v10_apply, val_main_v7_apply, val_main_v9_apply, val_main_v8_apply,
    val_main_call1_v0_apply, val_main_call1_cst_apply, Cert.Sage.projPlain_apply]
  simp only [el, er, eb, v6_eq, Ideal.maximumf_def, Ideal.addf_def, Ideal.ofBits_def,
    Ideal.ofBits_zero_f32, Cert.Sage.dot]

end Cert.ReferenceIdeal.Stages

end
-- ==== Proof.RefStages2.lean ====
/-
  The plain formulation read stage by stage: the five edge-type contributions, the sums of two contributions, and
  the output head.

  A contribution is the summed neighbourhood divided entry by entry by the clamped in-degree matrix, against its
  weight, plus its bias row, plus the node's own features against the root weight. The weights and the bias of
  layer l are the l-th matrices of the stacked parameters: cutting out one layer of a stack and dropping the
  leading unit axis reads the stack at (l, row, column). The summed neighbourhoods and the in-degree matrices
  are left as the arrays the program computes; they are not opened here.
-/
import proofs.«117675_j59828894433623_2_alg».proof.Proof.Gen.ReferenceIdeal.Read
import proofs.«117675_j59828894433623_2_alg».proof.Proof.Spec
import proofs.«117675_j59828894433623_2_alg».proof.Proof.LibColumnJoin

noncomputable section

namespace Cert.ReferenceIdeal.Stages

open Cert.ReferenceIdeal Cert.ReferenceIdeal.Gen Cert.ReferenceIdeal.Read Idealize.ShloMosaic
  Idealize.ShloMosaic.ValueIdx Idealize.ShloMosaic.ColumnJoin

/-! ## Layer 0 of the stacked parameters

Cutting layer 0 out of a stack and dropping the leading unit axis reads the stack at (0, row, column); the same
for a bias, repeated down the rows. -/

theorem v13_eq_layer (x8 : (⟨S2x64x64, .f32⟩ : BufTy).Contents (Elt Ideal)) :
    val_main_v13 (F := Ideal) x8 = Cert.Sage.layer (0 : Fin 2) x8 := by
  funext j
  obtain ⟨k, c, rfl⟩ : ∃ (k c : Fin 64), j = ix2 k c := ⟨j 0, j 1, eq_ix2 j⟩
  rw [val_main_v13_apply, val_main_v12_apply]
  show x8 _ = x8 _
  refine congrArg x8 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

theorem v17_eq_layer (x10 : (⟨S2x64x64, .f32⟩ : BufTy).Contents (Elt Ideal)) :
    val_main_v17 (F := Ideal) x10 = Cert.Sage.layer (0 : Fin 2) x10 := by
  funext j
  obtain ⟨k, c, rfl⟩ : ∃ (k c : Fin 64), j = ix2 k c := ⟨j 0, j 1, eq_ix2 j⟩
  rw [val_main_v17_apply, val_main_v16_apply]
  show x10 _ = x10 _
  refine congrArg x10 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

theorem v44_eq_layer (x14 : (⟨S2x64x64, .f32⟩ : BufTy).Contents (Elt Ideal)) :
    val_main_v44 (F := Ideal) x14 = Cert.Sage.layer (0 : Fin 2) x14 := by
  funext j
  obtain ⟨k, c, rfl⟩ : ∃ (k c : Fin 64), j = ix2 k c := ⟨j 0, j 1, eq_ix2 j⟩
  rw [val_main_v44_apply, val_main_v43_apply]
  show x14 _ = x14 _
  refine congrArg x14 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

theorem v48_eq_layer (x16 : (⟨S2x64x64, .f32⟩ : BufTy).Contents (Elt Ideal)) :
    val_main_v48 (F := Ideal) x16 = Cert.Sage.layer (0 : Fin 2) x16 := by
  funext j
  obtain ⟨k, c, rfl⟩ : ∃ (k c : Fin 64), j = ix2 k c := ⟨j 0, j 1, eq_ix2 j⟩
  rw [val_main_v48_apply, val_main_v47_apply]
  show x16 _ = x16 _
  refine congrArg x16 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

theorem v76_eq_layer (x11 : (⟨S2x64x64, .f32⟩ : BufTy).Contents (Elt Ideal)) :
    val_main_v76 (F := Ideal) x11 = Cert.Sage.layer (0 : Fin 2) x11 := by
  funext j
  obtain ⟨k, c, rfl⟩ : ∃ (k c : Fin 64), j = ix2 k c := ⟨j 0, j 1, eq_ix2 j⟩
  rw [val_main_v76_apply, val_main_v75_apply]
  show x11 _ = x11 _
  refine congrArg x11 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

theorem v80_eq_layer (x13 : (⟨S2x64x64, .f32⟩ : BufTy).Contents (Elt Ideal)) :
    val_main_v80 (F := Ideal) x13 = Cert.Sage.layer (0 : Fin 2) x13 := by
  funext j
  obtain ⟨k, c, rfl⟩ : ∃ (k c : Fin 64), j = ix2 k c := ⟨j 0, j 1, eq_ix2 j⟩
  rw [val_main_v80_apply, val_main_v79_apply]
  show x13 _ = x13 _
  refine congrArg x13 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

theorem v39_eq_layerRow (x9 : (⟨S2x64, .f32⟩ : BufTy).Contents (Elt Ideal)) (r : Fin 100000) (c : Fin 64) :
    val_main_v39 (F := Ideal) x9 (ix2 r c) = Cert.Sage.layerRow (0 : Fin 2) x9 (ix2 0 c) := by
  rw [val_main_v39_apply, val_main_v38_apply, val_main_v15_apply, val_main_v14_apply]
  show x9 _ = x9 _
  refine congrArg x9 (funext fun a => Fin.ext ?_)
  have hc := c.isLt
  match a with
  | ⟨0, _⟩ => rfl
  | ⟨1, _⟩ => show c.val % 64 = c.val; omega

theorem v70_eq_layerRow (x15 : (⟨S2x64, .f32⟩ : BufTy).Contents (Elt Ideal)) (r : Fin 100000) (c : Fin 64) :
    val_main_v70 (F := Ideal) x15 (ix2 r c) = Cert.Sage.layerRow (0 : Fin 2) x15 (ix2 0 c) := by
  rw [val_main_v70_apply, val_main_v69_apply, val_main_v46_apply, val_main_v45_apply]
  show x15 _ = x15 _
  refine congrArg x15 (funext fun a => Fin.ext ?_)
  have hc := c.isLt
  match a with
  | ⟨0, _⟩ => rfl
  | ⟨1, _⟩ => show c.val % 64 = c.val; omega

theorem v102_eq_layerRow (x12 : (⟨S2x64, .f32⟩ : BufTy).Contents (Elt Ideal)) (r : Fin 100000) (c : Fin 64) :
    val_main_v102 (F := Ideal) x12 (ix2 r c) = Cert.Sage.layerRow (0 : Fin 2) x12 (ix2 0 c) := by
  rw [val_main_v102_apply, val_main_v101_apply, val_main_v78_apply, val_main_v77_apply]
  show x12 _ = x12 _
  refine congrArg x12 (funext fun a => Fin.ext ?_)
  have hc := c.isLt
  match a with
  | ⟨0, _⟩ => rfl
  | ⟨1, _⟩ => show c.val % 64 = c.val; omega

/-! ## The three contributions of layer 0 -/

/-- Layer 0, first edge type into the second node type. -/
theorem v42_eq (x0 x1 x2 x3 : (⟨S100000x32, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S2x64x64, .f32⟩ : BufTy).Contents (Elt Ideal)) (x9 : (⟨S2x64, .f32⟩ : BufTy).Contents (Elt Ideal)) (x10 : (⟨S2x64x64, .f32⟩ : BufTy).Contents (Elt Ideal)) (x19 x20 : (⟨S1600000, .i32⟩ : BufTy).Contents (Elt Ideal)) :
    val_main_v42 (F := Ideal) x0 x1 x2 x3 x4 x5 x6 x7 x8 x9 x10 x19 x20
      = Cert.Sage.conv (val_main_v27 (F := Ideal) x0 x1 x4 x5 x19 x20) (val_main_v35 (F := Ideal) x20) (val_main_v11 (F := Ideal) x2 x3 x6 x7)
          (Cert.Sage.layer (0 : Fin 2) x8) (Cert.Sage.layer (0 : Fin 2) x10) (Cert.Sage.layerRow (0 : Fin 2) x9) := by
  funext i
  obtain ⟨r, c, rfl⟩ : ∃ (r : Fin 100000) (c : Fin 64), i = ix2 r c := ⟨i 0, i 1, eq_ix2 i⟩
  have el : ∀ k : Fin 64, lidx_main_v37 (ix2 r c) k = ix2 r k := fun k => funext fun a => Fin.ext (by match a with | ⟨0, _⟩ => rfl | ⟨1, _⟩ => rfl)
  have er : ∀ k : Fin 64, ridx_main_v37 (ix2 r c) k = ix2 k c := fun k => funext fun a => Fin.ext (by match a with | ⟨0, _⟩ => rfl | ⟨1, _⟩ => rfl)
  have el' : ∀ k : Fin 64, lidx_main_v41 (ix2 r c) k = ix2 r k := fun k => funext fun a => Fin.ext (by match a with | ⟨0, _⟩ => rfl | ⟨1, _⟩ => rfl)
  have er' : ∀ k : Fin 64, ridx_main_v41 (ix2 r c) k = ix2 k c := fun k => funext fun a => Fin.ext (by match a with | ⟨0, _⟩ => rfl | ⟨1, _⟩ => rfl)
  rw [val_main_v42_apply, val_main_v40_apply, val_main_v37_apply, val_main_v41_apply,
    v39_eq_layerRow, Cert.Sage.conv_apply, Ideal.addf_def, Ideal.addf_def]
  have hl : (∑ k : Fin 64, (val_main_v36 (F := Ideal) x0 x1 x4 x5 x19 x20) (lidx_main_v37 (ix2 r c) k) * (val_main_v13 (F := Ideal) x8) (ridx_main_v37 (ix2 r c) k))
      = Cert.Sage.dot (fun i' => Ideal.div ((val_main_v27 (F := Ideal) x0 x1 x4 x5 x19 x20) i') ((val_main_v35 (F := Ideal) x20) i')) (Cert.Sage.layer (0 : Fin 2) x8) r c :=
    Finset.sum_congr rfl fun k _ => by rw [el k, er k, v13_eq_layer, val_main_v36_apply, Ideal.hostDivf_def]
  have hr : (∑ k : Fin 64, (val_main_v11 (F := Ideal) x2 x3 x6 x7) (lidx_main_v41 (ix2 r c) k) * (val_main_v17 (F := Ideal) x10) (ridx_main_v41 (ix2 r c) k))
      = Cert.Sage.dot (val_main_v11 (F := Ideal) x2 x3 x6 x7) (Cert.Sage.layer (0 : Fin 2) x10) r c :=
    Finset.sum_congr rfl fun k _ => by rw [el' k, er' k, v17_eq_layer]
  rw [hl, hr]

/-- Layer 0, second edge type into the second node type. -/
theorem v73_eq (x2 x3 : (⟨S100000x32, .f32⟩ : BufTy).Contents (Elt Ideal)) (x6 : (⟨S64x64, .f32⟩ : BufTy).Contents (Elt Ideal)) (x7 : (⟨S64, .f32⟩ : BufTy).Contents (Elt Ideal)) (x14 : (⟨S2x64x64, .f32⟩ : BufTy).Contents (Elt Ideal)) (x15 : (⟨S2x64, .f32⟩ : BufTy).Contents (Elt Ideal)) (x16 : (⟨S2x64x64, .f32⟩ : BufTy).Contents (Elt Ideal)) (x23 x24 : (⟨S1600000, .i32⟩ : BufTy).Contents (Elt Ideal)) :
    val_main_v73 (F := Ideal) x2 x3 x6 x7 x14 x15 x16 x23 x24
      = Cert.Sage.conv (val_main_v58 (F := Ideal) x2 x3 x6 x7 x23 x24) (val_main_v66 (F := Ideal) x24) (val_main_v11 (F := Ideal) x2 x3 x6 x7)
          (Cert.Sage.layer (0 : Fin 2) x14) (Cert.Sage.layer (0 : Fin 2) x16) (Cert.Sage.layerRow (0 : Fin 2) x15) := by
  funext i
  obtain ⟨r, c, rfl⟩ : ∃ (r : Fin 100000) (c : Fin 64), i = ix2 r c := ⟨i 0, i 1, eq_ix2 i⟩
  have el : ∀ k : Fin 64, lidx_main_v68 (ix2 r c) k = ix2 r k := fun k => funext fun a => Fin.ext (by match a with | ⟨0, _⟩ => rfl | ⟨1, _⟩ => rfl)
  have er : ∀ k : Fin 64, ridx_main_v68 (ix2 r c) k = ix2 k c := fun k => funext fun a => Fin.ext (by match a with | ⟨0, _⟩ => rfl | ⟨1, _⟩ => rfl)
  have el' : ∀ k : Fin 64, lidx_main_v72 (ix2 r c) k = ix2 r k := fun k => funext fun a => Fin.ext (by match a with | ⟨0, _⟩ => rfl | ⟨1, _⟩ => rfl)
  have er' : ∀ k : Fin 64, ridx_main_v72 (ix2 r c) k = ix2 k c := fun k => funext fun a => Fin.ext (by match a with | ⟨0, _⟩ => rfl | ⟨1, _⟩ => rfl)
  rw [val_main_v73_apply, val_main_v71_apply, val_main_v68_apply, val_main_v72_apply,
    v70_eq_layerRow, Cert.Sage.conv_apply, Ideal.addf_def, Ideal.addf_def]
  have hl : (∑ k : Fin 64, (val_main_v67 (F := Ideal) x2 x3 x6 x7 x23 x24) (lidx_main_v68 (ix2 r c) k) * (val_main_v44 (F := Ideal) x14) (ridx_main_v68 (ix2 r c) k))
      = Cert.Sage.dot (fun i' => Ideal.div ((val_main_v58 (F := Ideal) x2 x3 x6 x7 x23 x24) i') ((val_main_v66 (F := Ideal) x24) i')) (Cert.Sage.layer (0 : Fin 2) x14) r c :=
    Finset.sum_congr rfl fun k _ => by rw [el k, er k, v44_eq_layer, val_main_v67_apply, Ideal.hostDivf_def]
  have hr : (∑ k : Fin 64, (val_main_v11 (F := Ideal) x2 x3 x6 x7) (lidx_main_v72 (ix2 r c) k) * (val_main_v48 (F := Ideal) x16) (ridx_main_v72 (ix2 r c) k))
      = Cert.Sage.dot (val_main_v11 (F := Ideal) x2 x3 x6 x7) (Cert.Sage.layer (0 : Fin 2) x16) r c :=
    Finset.sum_congr rfl fun k _ => by rw [el' k, er' k, v48_eq_layer]
  rw [hl, hr]

/-- Layer 0, the edge type into the first node type. -/
theorem v105_eq (x0 x1 x2 x3 : (⟨S100000x32, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x11 : (⟨S2x64x64, .f32⟩ : BufTy).Contents (Elt Ideal)) (x12 : (⟨S2x64, .f32⟩ : BufTy).Contents (Elt Ideal)) (x13 : (⟨S2x64x64, .f32⟩ : BufTy).Contents (Elt Ideal)) (x21 x22 : (⟨S1600000, .i32⟩ : BufTy).Contents (Elt Ideal)) :
    val_main_v105 (F := Ideal) x0 x1 x2 x3 x4 x5 x6 x7 x11 x12 x13 x21 x22
      = Cert.Sage.conv (val_main_v90 (F := Ideal) x2 x3 x6 x7 x21 x22) (val_main_v98 (F := Ideal) x22) (val_main_v5 (F := Ideal) x0 x1 x4 x5)
          (Cert.Sage.layer (0 : Fin 2) x11) (Cert.Sage.layer (0 : Fin 2) x13) (Cert.Sage.layerRow (0 : Fin 2) x12) := by
  funext i
  obtain ⟨r, c, rfl⟩ : ∃ (r : Fin 100000) (c : Fin 64), i = ix2 r c := ⟨i 0, i 1, eq_ix2 i⟩
  have el : ∀ k : Fin 64, lidx_main_v100 (ix2 r c) k = ix2 r k := fun k => funext fun a => Fin.ext (by match a with | ⟨0, _⟩ => rfl | ⟨1, _⟩ => rfl)
  have er : ∀ k : Fin 64, ridx_main_v100 (ix2 r c) k = ix2 k c := fun k => funext fun a => Fin.ext (by match a with | ⟨0, _⟩ => rfl | ⟨1, _⟩ => rfl)
  have el' : ∀ k : Fin 64, lidx_main_v104 (ix2 r c) k = ix2 r k := fun k => funext fun a => Fin.ext (by match a with | ⟨0, _⟩ => rfl | ⟨1, _⟩ => rfl)
  have er' : ∀ k : Fin 64, ridx_main_v104 (ix2 r c) k = ix2 k c := fun k => funext fun a => Fin.ext (by match a with | ⟨0, _⟩ => rfl | ⟨1, _⟩ => rfl)
  rw [val_main_v105_apply, val_main_v103_apply, val_main_v100_apply, val_main_v104_apply,
    v102_eq_layerRow, Cert.Sage.conv_apply, Ideal.addf_def, Ideal.addf_def]
  have hl : (∑ k : Fin 64, (val_main_v99 (F := Ideal) x2 x3 x6 x7 x21 x22) (lidx_main_v100 (ix2 r c) k) * (val_main_v76 (F := Ideal) x11) (ridx_main_v100 (ix2 r c) k))
      = Cert.Sage.dot (fun i' => Ideal.div ((val_main_v90 (F := Ideal) x2 x3 x6 x7 x21 x22) i') ((val_main_v98 (F := Ideal) x22) i')) (Cert.Sage.layer (0 : Fin 2) x11) r c :=
    Finset.sum_congr rfl fun k _ => by rw [el k, er k, v76_eq_layer, val_main_v99_apply, Ideal.hostDivf_def]
  have hr : (∑ k : Fin 64, (val_main_v5 (F := Ideal) x0 x1 x4 x5) (lidx_main_v104 (ix2 r c) k) * (val_main_v80 (F := Ideal) x13) (ridx_main_v104 (ix2 r c) k))
      = Cert.Sage.dot (val_main_v5 (F := Ideal) x0 x1 x4 x5) (Cert.Sage.layer (0 : Fin 2) x13) r c :=
    Finset.sum_congr rfl fun k _ => by rw [el' k, er' k, v80_eq_layer]
  rw [hl, hr]

end Cert.ReferenceIdeal.Stages

end
-- ==== Proof.RefStages3.lean ====
/-
  The plain formulation read stage by stage: the five edge-type contributions, the sums of two contributions, and
  the output head.

  A contribution is the summed neighbourhood divided entry by entry by the clamped in-degree matrix, against its
  weight, plus its bias row, plus the node's own features against the root weight. The weights and the bias of
  layer l are the l-th matrices of the stacked parameters: cutting out one layer of a stack and dropping the
  leading unit axis reads the stack at (l, row, column). The summed neighbourhoods and the in-degree matrices
  are left as the arrays the program computes; they are not opened here.
-/
import proofs.«117675_j59828894433623_2_alg».proof.Proof.Gen.ReferenceIdeal.Read
import proofs.«117675_j59828894433623_2_alg».proof.Proof.Spec
import proofs.«117675_j59828894433623_2_alg».proof.Proof.LibColumnJoin

noncomputable section

namespace Cert.ReferenceIdeal.Stages

open Cert.ReferenceIdeal Cert.ReferenceIdeal.Gen Cert.ReferenceIdeal.Read Idealize.ShloMosaic
  Idealize.ShloMosaic.ValueIdx Idealize.ShloMosaic.ColumnJoin

/-! ## Layer 1 of the stacked parameters

Cutting layer 1 out of a stack and dropping the leading unit axis reads the stack at (1, row, column); the same
for a bias, repeated down the rows. -/

theorem v107_eq_layer (x8 : (⟨S2x64x64, .f32⟩ : BufTy).Contents (Elt Ideal)) :
    val_main_v107 (F := Ideal) x8 = Cert.Sage.layer (1 : Fin 2) x8 := by
  funext j
  obtain ⟨k, c, rfl⟩ : ∃ (k c : Fin 64), j = ix2 k c := ⟨j 0, j 1, eq_ix2 j⟩
  rw [val_main_v107_apply, val_main_v106_apply]
  show x8 _ = x8 _
  refine congrArg x8 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

theorem v111_eq_layer (x10 : (⟨S2x64x64, .f32⟩ : BufTy).Contents (Elt Ideal)) :
    val_main_v111 (F := Ideal) x10 = Cert.Sage.layer (1 : Fin 2) x10 := by
  funext j
  obtain ⟨k, c, rfl⟩ : ∃ (k c : Fin 64), j = ix2 k c := ⟨j 0, j 1, eq_ix2 j⟩
  rw [val_main_v111_apply, val_main_v110_apply]
  show x10 _ = x10 _
  refine congrArg x10 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

theorem v138_eq_layer (x14 : (⟨S2x64x64, .f32⟩ : BufTy).Contents (Elt Ideal)) :
    val_main_v138 (F := Ideal) x14 = Cert.Sage.layer (1 : Fin 2) x14 := by
  funext j
  obtain ⟨k, c, rfl⟩ : ∃ (k c : Fin 64), j = ix2 k c := ⟨j 0, j 1, eq_ix2 j⟩
  rw [val_main_v138_apply, val_main_v137_apply]
  show x14 _ = x14 _
  refine congrArg x14 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

theorem v142_eq_layer (x16 : (⟨S2x64x64, .f32⟩ : BufTy).Contents (Elt Ideal)) :
    val_main_v142 (F := Ideal) x16 = Cert.Sage.layer (1 : Fin 2) x16 := by
  funext j
  obtain ⟨k, c, rfl⟩ : ∃ (k c : Fin 64), j = ix2 k c := ⟨j 0, j 1, eq_ix2 j⟩
  rw [val_main_v142_apply, val_main_v141_apply]
  show x16 _ = x16 _
  refine congrArg x16 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

theorem v133_eq_layerRow (x9 : (⟨S2x64, .f32⟩ : BufTy).Contents (Elt Ideal)) (r : Fin 100000) (c : Fin 64) :
    val_main_v133 (F := Ideal) x9 (ix2 r c) = Cert.Sage.layerRow (1 : Fin 2) x9 (ix2 0 c) := by
  rw [val_main_v133_apply, val_main_v132_apply, val_main_v109_apply, val_main_v108_apply]
  show x9 _ = x9 _
  refine congrArg x9 (funext fun a => Fin.ext ?_)
  have hc := c.isLt
  match a with
  | ⟨0, _⟩ => rfl
  | ⟨1, _⟩ => show c.val % 64 = c.val; omega

theorem v164_eq_layerRow (x15 : (⟨S2x64, .f32⟩ : BufTy).Contents (Elt Ideal)) (r : Fin 100000) (c : Fin 64) :
    val_main_v164 (F := Ideal) x15 (ix2 r c) = Cert.Sage.layerRow (1 : Fin 2) x15 (ix2 0 c) := by
  rw [val_main_v164_apply, val_main_v163_apply, val_main_v140_apply, val_main_v139_apply]
  show x15 _ = x15 _
  refine congrArg x15 (funext fun a => Fin.ext ?_)
  have hc := c.isLt
  match a with
  | ⟨0, _⟩ => rfl
  | ⟨1, _⟩ => show c.val % 64 = c.val; omega

/-! ## The two contributions of layer 1, the sums and the head -/

/-- Layer 1, first edge type into the second node type. -/
theorem v136_eq (x0 x1 x2 x3 : (⟨S100000x32, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S2x64x64, .f32⟩ : BufTy).Contents (Elt Ideal)) (x9 : (⟨S2x64, .f32⟩ : BufTy).Contents (Elt Ideal)) (x10 x11 : (⟨S2x64x64, .f32⟩ : BufTy).Contents (Elt Ideal)) (x12 : (⟨S2x64, .f32⟩ : BufTy).Contents (Elt Ideal)) (x13 x14 : (⟨S2x64x64, .f32⟩ : BufTy).Contents (Elt Ideal)) (x15 : (⟨S2x64, .f32⟩ : BufTy).Contents (Elt Ideal)) (x16 : (⟨S2x64x64, .f32⟩ : BufTy).Contents (Elt Ideal)) (x19 x20 x21 x22 x23 x24 : (⟨S1600000, .i32⟩ : BufTy).Contents (Elt Ideal)) :
    val_main_v136 (F := Ideal) x0 x1 x2 x3 x4 x5 x6 x7 x8 x9 x10 x11 x12 x13 x14 x15 x16 x19 x20 x21 x22 x23 x24
      = Cert.Sage.conv (val_main_v121 (F := Ideal) x0 x1 x2 x3 x4 x5 x6 x7 x11 x12 x13 x19 x20 x21 x22) (val_main_v129 (F := Ideal) x20) (val_main_v74 (F := Ideal) x0 x1 x2 x3 x4 x5 x6 x7 x8 x9 x10 x14 x15 x16 x19 x20 x23 x24)
          (Cert.Sage.layer (1 : Fin 2) x8) (Cert.Sage.layer (1 : Fin 2) x10) (Cert.Sage.layerRow (1 : Fin 2) x9) := by
  funext i
  obtain ⟨r, c, rfl⟩ : ∃ (r : Fin 100000) (c : Fin 64), i = ix2 r c := ⟨i 0, i 1, eq_ix2 i⟩
  have el : ∀ k : Fin 64, lidx_main_v131 (ix2 r c) k = ix2 r k := fun k => funext fun a => Fin.ext (by match a with | ⟨0, _⟩ => rfl | ⟨1, _⟩ => rfl)
  have er : ∀ k : Fin 64, ridx_main_v131 (ix2 r c) k = ix2 k c := fun k => funext fun a => Fin.ext (by match a with | ⟨0, _⟩ => rfl | ⟨1, _⟩ => rfl)
  have el' : ∀ k : Fin 64, lidx_main_v135 (ix2 r c) k = ix2 r k := fun k => funext fun a => Fin.ext (by match a with | ⟨0, _⟩ => rfl | ⟨1, _⟩ => rfl)
  have er' : ∀ k : Fin 64, ridx_main_v135 (ix2 r c) k = ix2 k c := fun k => funext fun a => Fin.ext (by match a with | ⟨0, _⟩ => rfl | ⟨1, _⟩ => rfl)
  rw [val_main_v136_apply, val_main_v134_apply, val_main_v131_apply, val_main_v135_apply,
    v133_eq_layerRow, Cert.Sage.conv_apply, Ideal.addf_def, Ideal.addf_def]
  have hl : (∑ k : Fin 64, (val_main_v130 (F := Ideal) x0 x1 x2 x3 x4 x5 x6 x7 x11 x12 x13 x19 x20 x21 x22) (lidx_main_v131 (ix2 r c) k) * (val_main_v107 (F := Ideal) x8) (ridx_main_v131 (ix2 r c) k))
      = Cert.Sage.dot (fun i' => Ideal.div ((val_main_v121 (F := Ideal) x0 x1 x2 x3 x4 x5 x6 x7 x11 x12 x13 x19 x20 x21 x22) i') ((val_main_v129 (F := Ideal) x20) i')) (Cert.Sage.layer (1 : Fin 2) x8) r c :=
    Finset.sum_congr rfl fun k _ => by rw [el k, er k, v107_eq_layer, val_main_v130_apply, Ideal.hostDivf_def]
  have hr : (∑ k : Fin 64, (val_main_v74 (F := Ideal) x0 x1 x2 x3 x4 x5 x6 x7 x8 x9 x10 x14 x15 x16 x19 x20 x23 x24) (lidx_main_v135 (ix2 r c) k) * (val_main_v111 (F := Ideal) x10) (ridx_main_v135 (ix2 r c) k))
      = Cert.Sage.dot (val_main_v74 (F := Ideal) x0 x1 x2 x3 x4 x5 x6 x7 x8 x9 x10 x14 x15 x16 x19 x20 x23 x24) (Cert.Sage.layer (1 : Fin 2) x10) r c :=
    Finset.sum_congr rfl fun k _ => by rw [el' k, er' k, v111_eq_layer]
  rw [hl, hr]

/-- Layer 1, second edge type into the second node type. -/
theorem v167_eq (x0 x1 x2 x3 : (⟨S100000x32, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S2x64x64, .f32⟩ : BufTy).Contents (Elt Ideal)) (x9 : (⟨S2x64, .f32⟩ : BufTy).Contents (Elt Ideal)) (x10 x14 : (⟨S2x64x64, .f32⟩ : BufTy).Contents (Elt Ideal)) (x15 : (⟨S2x64, .f32⟩ : BufTy).Contents (Elt Ideal)) (x16 : (⟨S2x64x64, .f32⟩ : BufTy).Contents (Elt Ideal)) (x19 x20 x23 x24 : (⟨S1600000, .i32⟩ : BufTy).Contents (Elt Ideal)) :
    val_main_v167 (F := Ideal) x0 x1 x2 x3 x4 x5 x6 x7 x8 x9 x10 x14 x15 x16 x19 x20 x23 x24
      = Cert.Sage.conv (val_main_v152 (F := Ideal) x0 x1 x2 x3 x4 x5 x6 x7 x8 x9 x10 x14 x15 x16 x19 x20 x23 x24) (val_main_v160 (F := Ideal) x24) (val_main_v74 (F := Ideal) x0 x1 x2 x3 x4 x5 x6 x7 x8 x9 x10 x14 x15 x16 x19 x20 x23 x24)
          (Cert.Sage.layer (1 : Fin 2) x14) (Cert.Sage.layer (1 : Fin 2) x16) (Cert.Sage.layerRow (1 : Fin 2) x15) := by
  funext i
  obtain ⟨r, c, rfl⟩ : ∃ (r : Fin 100000) (c : Fin 64), i = ix2 r c := ⟨i 0, i 1, eq_ix2 i⟩
  have el : ∀ k : Fin 64, lidx_main_v162 (ix2 r c) k = ix2 r k := fun k => funext fun a => Fin.ext (by match a with | ⟨0, _⟩ => rfl | ⟨1, _⟩ => rfl)
  have er : ∀ k : Fin 64, ridx_main_v162 (ix2 r c) k = ix2 k c := fun k => funext fun a => Fin.ext (by match a with | ⟨0, _⟩ => rfl | ⟨1, _⟩ => rfl)
  have el' : ∀ k : Fin 64, lidx_main_v166 (ix2 r c) k = ix2 r k := fun k => funext fun a => Fin.ext (by match a with | ⟨0, _⟩ => rfl | ⟨1, _⟩ => rfl)
  have er' : ∀ k : Fin 64, ridx_main_v166 (ix2 r c) k = ix2 k c := fun k => funext fun a => Fin.ext (by match a with | ⟨0, _⟩ => rfl | ⟨1, _⟩ => rfl)
  rw [val_main_v167_apply, val_main_v165_apply, val_main_v162_apply, val_main_v166_apply,
    v164_eq_layerRow, Cert.Sage.conv_apply, Ideal.addf_def, Ideal.addf_def]
  have hl : (∑ k : Fin 64, (val_main_v161 (F := Ideal) x0 x1 x2 x3 x4 x5 x6 x7 x8 x9 x10 x14 x15 x16 x19 x20 x23 x24) (lidx_main_v162 (ix2 r c) k) * (val_main_v138 (F := Ideal) x14) (ridx_main_v162 (ix2 r c) k))
      = Cert.Sage.dot (fun i' => Ideal.div ((val_main_v152 (F := Ideal) x0 x1 x2 x3 x4 x5 x6 x7 x8 x9 x10 x14 x15 x16 x19 x20 x23 x24) i') ((val_main_v160 (F := Ideal) x24) i')) (Cert.Sage.layer (1 : Fin 2) x14) r c :=
    Finset.sum_congr rfl fun k _ => by rw [el k, er k, v138_eq_layer, val_main_v161_apply, Ideal.hostDivf_def]
  have hr : (∑ k : Fin 64, (val_main_v74 (F := Ideal) x0 x1 x2 x3 x4 x5 x6 x7 x8 x9 x10 x14 x15 x16 x19 x20 x23 x24) (lidx_main_v166 (ix2 r c) k) * (val_main_v142 (F := Ideal) x16) (ridx_main_v166 (ix2 r c) k))
      = Cert.Sage.dot (val_main_v74 (F := Ideal) x0 x1 x2 x3 x4 x5 x6 x7 x8 x9 x10 x14 x15 x16 x19 x20 x23 x24) (Cert.Sage.layer (1 : Fin 2) x16) r c :=
    Finset.sum_congr rfl fun k _ => by rw [el' k, er' k, v142_eq_layer]
  rw [hl, hr]

/-- The second node type after layer 0: the sum of its two contributions. -/
theorem v74_eq (x0 x1 x2 x3 : (⟨S100000x32, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S2x64x64, .f32⟩ : BufTy).Contents (Elt Ideal)) (x9 : (⟨S2x64, .f32⟩ : BufTy).Contents (Elt Ideal)) (x10 x14 : (⟨S2x64x64, .f32⟩ : BufTy).Contents (Elt Ideal)) (x15 : (⟨S2x64, .f32⟩ : BufTy).Contents (Elt Ideal)) (x16 : (⟨S2x64x64, .f32⟩ : BufTy).Contents (Elt Ideal)) (x19 x20 x23 x24 : (⟨S1600000, .i32⟩ : BufTy).Contents (Elt Ideal)) :
    val_main_v74 (F := Ideal) x0 x1 x2 x3 x4 x5 x6 x7 x8 x9 x10 x14 x15 x16 x19 x20 x23 x24
      = fun i => val_main_v42 (F := Ideal) x0 x1 x2 x3 x4 x5 x6 x7 x8 x9 x10 x19 x20 i + val_main_v73 (F := Ideal) x2 x3 x6 x7 x14 x15 x16 x23 x24 i :=
  funext fun i => by rw [val_main_v74_apply, Ideal.addf_def]

/-- The second node type after layer 1: the sum of its two contributions. -/
theorem v168_eq (x0 x1 x2 x3 : (⟨S100000x32, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S2x64x64, .f32⟩ : BufTy).Contents (Elt Ideal)) (x9 : (⟨S2x64, .f32⟩ : BufTy).Contents (Elt Ideal)) (x10 x11 : (⟨S2x64x64, .f32⟩ : BufTy).Contents (Elt Ideal)) (x12 : (⟨S2x64, .f32⟩ : BufTy).Contents (Elt Ideal)) (x13 x14 : (⟨S2x64x64, .f32⟩ : BufTy).Contents (Elt Ideal)) (x15 : (⟨S2x64, .f32⟩ : BufTy).Contents (Elt Ideal)) (x16 : (⟨S2x64x64, .f32⟩ : BufTy).Contents (Elt Ideal)) (x19 x20 x21 x22 x23 x24 : (⟨S1600000, .i32⟩ : BufTy).Contents (Elt Ideal)) :
    val_main_v168 (F := Ideal) x0 x1 x2 x3 x4 x5 x6 x7 x8 x9 x10 x11 x12 x13 x14 x15 x16 x19 x20 x21 x22 x23 x24
      = fun i => val_main_v136 (F := Ideal) x0 x1 x2 x3 x4 x5 x6 x7 x8 x9 x10 x11 x12 x13 x14 x15 x16 x19 x20 x21 x22 x23 x24 i + val_main_v167 (F := Ideal) x0 x1 x2 x3 x4 x5 x6 x7 x8 x9 x10 x14 x15 x16 x19 x20 x23 x24 i :=
  funext fun i => by rw [val_main_v168_apply, Ideal.addf_def]

/-- The output head: the layer-1 features against the 64 × 16 weight, plus the bias row. -/
theorem v203_eq' (x0 x1 x2 x3 : (⟨S100000x32, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S2x64x64, .f32⟩ : BufTy).Contents (Elt Ideal)) (x9 : (⟨S2x64, .f32⟩ : BufTy).Contents (Elt Ideal)) (x10 x11 : (⟨S2x64x64, .f32⟩ : BufTy).Contents (Elt Ideal)) (x12 : (⟨S2x64, .f32⟩ : BufTy).Contents (Elt Ideal)) (x13 x14 : (⟨S2x64x64, .f32⟩ : BufTy).Contents (Elt Ideal)) (x15 : (⟨S2x64, .f32⟩ : BufTy).Contents (Elt Ideal)) (x16 : (⟨S2x64x64, .f32⟩ : BufTy).Contents (Elt Ideal)) (x17 : (⟨S64x16, .f32⟩ : BufTy).Contents (Elt Ideal)) (x18 : (⟨S16, .f32⟩ : BufTy).Contents (Elt Ideal)) (x19 x20 x21 x22 x23 x24 : (⟨S1600000, .i32⟩ : BufTy).Contents (Elt Ideal)) :
    val_main_v203 (F := Ideal) x0 x1 x2 x3 x4 x5 x6 x7 x8 x9 x10 x11 x12 x13 x14 x15 x16 x17 x18 x19 x20 x21 x22 x23 x24
      = Cert.Sage.head (val_main_v168 (F := Ideal) x0 x1 x2 x3 x4 x5 x6 x7 x8 x9 x10 x11 x12 x13 x14 x15 x16 x19 x20 x21 x22 x23 x24) x17 (Cert.Sage.row x18) := by
  funext i
  obtain ⟨r, c, rfl⟩ : ∃ (r : Fin 100000) (c : Fin 16), i = ix2 r c := ⟨i 0, i 1, eq_ix2 i⟩
  have el : ∀ k : Fin 64, lidx_main_v200 (ix2 r c) k = ix2 r k := fun k => funext fun a => Fin.ext (by match a with | ⟨0, _⟩ => rfl | ⟨1, _⟩ => rfl)
  have er : ∀ k : Fin 64, ridx_main_v200 (ix2 r c) k = ix2 k c := fun k => funext fun a => Fin.ext (by match a with | ⟨0, _⟩ => rfl | ⟨1, _⟩ => rfl)
  have eb : idx_main_v201 (idx_main_v202 (ix2 r c)) = ix1 c := funext fun a => Fin.ext (by match a with | ⟨0, _⟩ => rfl)
  have hb : Cert.Sage.row x18 (ix2 (0 : Fin 1) c) = x18 (ix1 c) := rfl
  rw [val_main_v203_apply, val_main_v200_apply, val_main_v202_apply, val_main_v201_apply, Cert.Sage.head_apply,
    Ideal.addf_def, eb, hb]
  have hd : (∑ k : Fin 64, (val_main_v168 (F := Ideal) x0 x1 x2 x3 x4 x5 x6 x7 x8 x9 x10 x11 x12 x13 x14 x15 x16 x19 x20 x21 x22 x23 x24) (lidx_main_v200 (ix2 r c) k) * x17 (ridx_main_v200 (ix2 r c) k))
      = Cert.Sage.dot (val_main_v168 (F := Ideal) x0 x1 x2 x3 x4 x5 x6 x7 x8 x9 x10 x11 x12 x13 x14 x15 x16 x19 x20 x21 x22 x23 x24) x17 r c :=
    Finset.sum_congr rfl fun k _ => by rw [el k, er k]
  rw [hd]

end Cert.ReferenceIdeal.Stages

end
-- ==== Proof.RefDegrees.lean ====
/-
  The plain program's clamped in-degree matrices, read at an entry.

  Each is a scatter-add of ones into zeros along an edge type's target column (a count of the edges aimed at
  the node), clamped below at one, laid out as a column and spread over the 64 feature columns: at `(n, j)`
  it is the clamped in-degree of node `n`, whatever `j`. The program recomputes the same matrix in each layer.
-/
import proofs.«117675_j59828894433623_2_alg».proof.Proof.Gen.ReferenceIdeal.Read
import proofs.«117675_j59828894433623_2_alg».proof.Proof.AggFacts

noncomputable section

namespace Cert.ReferenceIdeal.Degrees

open Idealize.ShloMosaic Idealize.ShloMosaic.ValueIdx Idealize.ShloMosaic.RowScatter
open Cert.ReferenceIdeal Cert.ReferenceIdeal.Gen Cert.ReferenceIdeal.Read Cert.Sage

/-- The scatter-add of ones behind `v35` counts the edges aimed at node `n`. -/
theorem count_v31 (x : (⟨S1600000, .i32⟩ : BufTy).Contents (Elt Ideal)) (n : Fin 100000) :
    val_main_v31 (F := Ideal) x (ix1 n) = (((hits (val_main_v30 (F := Ideal) x) n).card : ℝ) : EReal) := by
  unfold val_main_v31
  refine count_apply _ rfl rfl rfl rfl _ _ _ (fun i => ?_) (fun i => ?_) n
  · rw [val_main_v29_apply, val_main_cst_2_apply]; exact Ideal.ofBits_zero_f32
  · rw [val_main_v28_apply, val_main_cst_1_apply]; exact ofBits_one

/-- `v35` at `(n, j)` is the clamped in-degree of node `n`. -/
theorem deg_v35 (x : (⟨S1600000, .i32⟩ : BufTy).Contents (Elt Ideal)) (n : Fin 100000) (j : Fin 64) :
    val_main_v35 (F := Ideal) x (ix2 n j) = ((deg (val_main_v30 (F := Ideal) x) n : ℝ) : EReal) := by
  rw [val_main_v35_apply, val_main_v34_apply, val_main_v33_apply, val_main_v32_apply,
    val_main_cst_3_apply]
  have hi : idx_main_v34 (idx_main_v35 (ix2 n j)) = ix1 n :=
    funext fun a => Fin.ext (by match a with | ⟨0, _⟩ => rfl)
  rw [hi, count_v31]
  show max _ (Ideal.ofBits .f32 0x3F800000#32) = _
  rw [ofBits_one, max_count_one]

/-- The scatter-add of ones behind `v66` counts the edges aimed at node `n`. -/
theorem count_v62 (x : (⟨S1600000, .i32⟩ : BufTy).Contents (Elt Ideal)) (n : Fin 100000) :
    val_main_v62 (F := Ideal) x (ix1 n) = (((hits (val_main_v61 (F := Ideal) x) n).card : ℝ) : EReal) := by
  unfold val_main_v62
  refine count_apply _ rfl rfl rfl rfl _ _ _ (fun i => ?_) (fun i => ?_) n
  · rw [val_main_v60_apply, val_main_cst_8_apply]; exact Ideal.ofBits_zero_f32
  · rw [val_main_v59_apply, val_main_cst_7_apply]; exact ofBits_one

/-- `v66` at `(n, j)` is the clamped in-degree of node `n`. -/
theorem deg_v66 (x : (⟨S1600000, .i32⟩ : BufTy).Contents (Elt Ideal)) (n : Fin 100000) (j : Fin 64) :
    val_main_v66 (F := Ideal) x (ix2 n j) = ((deg (val_main_v61 (F := Ideal) x) n : ℝ) : EReal) := by
  rw [val_main_v66_apply, val_main_v65_apply, val_main_v64_apply, val_main_v63_apply,
    val_main_cst_9_apply]
  have hi : idx_main_v65 (idx_main_v66 (ix2 n j)) = ix1 n :=
    funext fun a => Fin.ext (by match a with | ⟨0, _⟩ => rfl)
  rw [hi, count_v62]
  show max _ (Ideal.ofBits .f32 0x3F800000#32) = _
  rw [ofBits_one, max_count_one]

/-- The scatter-add of ones behind `v98` counts the edges aimed at node `n`. -/
theorem count_v94 (x : (⟨S1600000, .i32⟩ : BufTy).Contents (Elt Ideal)) (n : Fin 100000) :
    val_main_v94 (F := Ideal) x (ix1 n) = (((hits (val_main_v93 (F := Ideal) x) n).card : ℝ) : EReal) := by
  unfold val_main_v94
  refine count_apply _ rfl rfl rfl rfl _ _ _ (fun i => ?_) (fun i => ?_) n
  · rw [val_main_v92_apply, val_main_cst_14_apply]; exact Ideal.ofBits_zero_f32
  · rw [val_main_v91_apply, val_main_cst_13_apply]; exact ofBits_one

/-- `v98` at `(n, j)` is the clamped in-degree of node `n`. -/
theorem deg_v98 (x : (⟨S1600000, .i32⟩ : BufTy).Contents (Elt Ideal)) (n : Fin 100000) (j : Fin 64) :
    val_main_v98 (F := Ideal) x (ix2 n j) = ((deg (val_main_v93 (F := Ideal) x) n : ℝ) : EReal) := by
  rw [val_main_v98_apply, val_main_v97_apply, val_main_v96_apply, val_main_v95_apply,
    val_main_cst_15_apply]
  have hi : idx_main_v97 (idx_main_v98 (ix2 n j)) = ix1 n :=
    funext fun a => Fin.ext (by match a with | ⟨0, _⟩ => rfl)
  rw [hi, count_v94]
  show max _ (Ideal.ofBits .f32 0x3F800000#32) = _
  rw [ofBits_one, max_count_one]

/-- The scatter-add of ones behind `v129` counts the edges aimed at node `n`. -/
theorem count_v125 (x : (⟨S1600000, .i32⟩ : BufTy).Contents (Elt Ideal)) (n : Fin 100000) :
    val_main_v125 (F := Ideal) x (ix1 n) = (((hits (val_main_v124 (F := Ideal) x) n).card : ℝ) : EReal) := by
  unfold val_main_v125
  refine count_apply _ rfl rfl rfl rfl _ _ _ (fun i => ?_) (fun i => ?_) n
  · rw [val_main_v123_apply, val_main_cst_20_apply]; exact Ideal.ofBits_zero_f32
  · rw [val_main_v122_apply, val_main_cst_19_apply]; exact ofBits_one

/-- `v129` at `(n, j)` is the clamped in-degree of node `n`. -/
theorem deg_v129 (x : (⟨S1600000, .i32⟩ : BufTy).Contents (Elt Ideal)) (n : Fin 100000) (j : Fin 64) :
    val_main_v129 (F := Ideal) x (ix2 n j) = ((deg (val_main_v124 (F := Ideal) x) n : ℝ) : EReal) := by
  rw [val_main_v129_apply, val_main_v128_apply, val_main_v127_apply, val_main_v126_apply,
    val_main_cst_21_apply]
  have hi : idx_main_v128 (idx_main_v129 (ix2 n j)) = ix1 n :=
    funext fun a => Fin.ext (by match a with | ⟨0, _⟩ => rfl)
  rw [hi, count_v125]
  show max _ (Ideal.ofBits .f32 0x3F800000#32) = _
  rw [ofBits_one, max_count_one]

/-- The scatter-add of ones behind `v160` counts the edges aimed at node `n`. -/
theorem count_v156 (x : (⟨S1600000, .i32⟩ : BufTy).Contents (Elt Ideal)) (n : Fin 100000) :
    val_main_v156 (F := Ideal) x (ix1 n) = (((hits (val_main_v155 (F := Ideal) x) n).card : ℝ) : EReal) := by
  unfold val_main_v156
  refine count_apply _ rfl rfl rfl rfl _ _ _ (fun i => ?_) (fun i => ?_) n
  · rw [val_main_v154_apply, val_main_cst_26_apply]; exact Ideal.ofBits_zero_f32
  · rw [val_main_v153_apply, val_main_cst_25_apply]; exact ofBits_one

/-- `v160` at `(n, j)` is the clamped in-degree of node `n`. -/
theorem deg_v160 (x : (⟨S1600000, .i32⟩ : BufTy).Contents (Elt Ideal)) (n : Fin 100000) (j : Fin 64) :
    val_main_v160 (F := Ideal) x (ix2 n j) = ((deg (val_main_v155 (F := Ideal) x) n : ℝ) : EReal) := by
  rw [val_main_v160_apply, val_main_v159_apply, val_main_v158_apply, val_main_v157_apply,
    val_main_cst_27_apply]
  have hi : idx_main_v159 (idx_main_v160 (ix2 n j)) = ix1 n :=
    funext fun a => Fin.ext (by match a with | ⟨0, _⟩ => rfl)
  rw [hi, count_v156]
  show max _ (Ideal.ofBits .f32 0x3F800000#32) = _
  rw [ofBits_one, max_count_one]

end Cert.ReferenceIdeal.Degrees

end
-- ==== Proof.FiniteInputs.lean ====
/-
  The precondition read back: every float argument holds real numbers.

  The predicate computes, for each of the nineteen float arrays x, the conjunction over all entries of |x i| < +∞
  (an entry-wise comparison against the broadcast pattern of +∞, folded by "and" from the word 1 over every axis),
  and then the conjunction of the nineteen words. In the extended reals |x| = max x (-x), and max x (-x) < ⊤ holds
  exactly when x is neither ⊤ nor ⊥, that is, when x is the image of a real number. So the predicate being the word 1
  gives, for every array and every index, a real number r with x i = r.
-/
import proofs.«117675_j59828894433623_2_alg».proof.Pre_finite_inputs
import Idealize.ShloMosaic.PureOps.Ideal
import Idealize.ShloMosaic.Lib.ValueIdx
import Idealize.ShloMosaic.Lib.ReduceAll

noncomputable section

namespace Cert.FiniteInputs

open Idealize.ShloMosaic Idealize.ShloMosaic.ValueIdx
open Cert.Pre_finite_inputs

/-- The rank-0 shape has exactly one index. -/
instance : Subsingleton S_.Idx := ⟨fun a b => funext fun d => d.elim0⟩

/-- An extended real whose absolute value max x (-x) lies strictly below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the comparison |x| < +∞ being the word 1 says that entry of x is a real number. -/
theorem real_of_entry {S : Shape} (x : FVec Ideal S .f32) (hb : S_.BroadcastsInDim S (![] : Fin 0 → Fin S.rank)) (i : S.Idx)
    (h : cmpf .olt (Host.absf x) (broadcastInDim S ![] hb (constant S_ .f32 0x7F800000#32)) i = 1#1) :
    ∃ r : ℝ, x i = (r : EReal) := by
  have e : (constant S_ .f32 0x7F800000#32 : FVec Ideal S_ .f32) = fun _ => (⊤ : EReal) := by
    funext j; show Ideal.ofBits .f32 0x7F800000#32 = ⊤; simp [Ideal.ofBits, Ideal.ieee]
  have h' : BitVec.ofBool (decide (max (x i) (-(x i)) < (⊤ : EReal))) = 1#1 := by
    rw [e] at h; exact h
  refine real_of_abs_lt_top (x i) ?_
  by_contra hn
  rw [decide_eq_false hn] at h'
  exact absurd h' (by decide)

/-- The conjunction over all entries of |x i| < +∞ being the word 1 (read at the one index of the rank-0 result) makes
    every entry of x real. -/
theorem all_real_at {S : Shape} {axes : List (Fin S.rank)} (x : FVec Ideal S .f32)
    (hb : S_.BroadcastsInDim S (![] : Fin 0 → Fin S.rank)) (hr : S.ReducesTo axes S_) (hu : 0 < S_.numel) (j : S_.Idx)
    (h : Host.reduce IntOp.andi (cmpf .olt (Host.absf x) (broadcastInDim S ![] hb (constant S_ .f32 0x7F800000#32)))
          (constantI S_ 1 1#1) hr hu j = 1#1) :
    ∀ i, ∃ r : ℝ, x i = (r : EReal) :=
  fun i => real_of_entry x hb i (Host.reduce_andi_all _ _ hr hu j h i)

/-- The same, from the equation of rank-0 arrays the predicate states. -/
theorem all_real {S : Shape} {axes : List (Fin S.rank)} (x : FVec Ideal S .f32)
    (hb : S_.BroadcastsInDim S (![] : Fin 0 → Fin S.rank)) (hr : S.ReducesTo axes S_) (hu : 0 < S_.numel)
    (h : Host.reduce IntOp.andi (cmpf .olt (Host.absf x) (broadcastInDim S ![] hb (constant S_ .f32 0x7F800000#32)))
          (constantI S_ 1 1#1) hr hu = (fun _ => 1#1)) :
    ∀ i, ∃ r : ℝ, x i = (r : EReal) :=
  all_real_at x hb hr hu ix0 (congrFun h ix0)

/-- THE PRECONDITION DECODED: the predicate being the word 1 makes every entry of each of the nineteen float arguments
    a real number. The predicate is a left-nested conjunction of nineteen words, one all-entries conjunction per
    argument. -/
theorem reals_of_pre [Cert.Pre_finite_inputs.Facts]
    (a0 a1 a2 a3 : FVec Ideal S100000x32 .f32) (a4 : FVec Ideal S64x64 .f32) (a5 : FVec Ideal S64 .f32)
    (a6 : FVec Ideal S64x64 .f32) (a7 : FVec Ideal S64 .f32) (a8 : FVec Ideal S2x64x64 .f32) (a9 : FVec Ideal S2x64 .f32)
    (a10 a11 : FVec Ideal S2x64x64 .f32) (a12 : FVec Ideal S2x64 .f32) (a13 a14 : FVec Ideal S2x64x64 .f32)
    (a15 : FVec Ideal S2x64 .f32) (a16 : FVec Ideal S2x64x64 .f32) (a17 : FVec Ideal S64x16 .f32) (a18 : FVec Ideal S16 .f32)
    (a19 a20 a21 a22 a23 a24 : IVec S1600000 32)
    (h : Cert.Pre_finite_inputs.fn (F := Ideal) a0 a1 a2 a3 a4 a5 a6 a7 a8 a9 a10 a11 a12 a13 a14 a15 a16 a17 a18
          a19 a20 a21 a22 a23 a24 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal)) ∧ (∀ i, ∃ r : ℝ, a10 i = (r : EReal)) ∧ (∀ i, ∃ r : ℝ, a11 i = (r : EReal))
    ∧ (∀ i, ∃ r : ℝ, a12 i = (r : EReal)) ∧ (∀ i, ∃ r : ℝ, a13 i = (r : EReal)) ∧ (∀ i, ∃ r : ℝ, a14 i = (r : EReal))
    ∧ (∀ i, ∃ r : ℝ, a15 i = (r : EReal)) ∧ (∀ i, ∃ r : ℝ, a16 i = (r : EReal)) ∧ (∀ i, ∃ r : ℝ, a17 i = (r : EReal))
    ∧ (∀ i, ∃ r : ℝ, a18 i = (r : EReal)) := by
  have e := congrFun h ix0
  unfold Cert.Pre_finite_inputs.fn at e
  dsimp only at e
  unfold Cert.Pre_finite_inputs.fn_part1 at e
  dsimp only at e
  unfold Cert.Pre_finite_inputs.fn_part2 at e
  dsimp only at e
  unfold Cert.Pre_finite_inputs.fn_part3 at e
  dsimp only at e
  unfold Cert.Pre_finite_inputs.fn_part4 at e
  dsimp only at e
  unfold Cert.Pre_finite_inputs.fn_part5 at e
  dsimp only at e
  simp only [andi, IntOp.andi_eq_one] at e
  obtain ⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩ := e
  exact ⟨all_real_at a0 _ _ _ _ h0, all_real_at a1 _ _ _ _ h1, all_real_at a2 _ _ _ _ h2, all_real_at a3 _ _ _ _ h3,
    all_real_at a4 _ _ _ _ h4, all_real_at a5 _ _ _ _ h5, all_real_at a6 _ _ _ _ h6, all_real_at a7 _ _ _ _ h7,
    all_real_at a8 _ _ _ _ h8, all_real_at a9 _ _ _ _ h9, all_real_at a10 _ _ _ _ h10, all_real_at a11 _ _ _ _ h11,
    all_real_at a12 _ _ _ _ h12, all_real_at a13 _ _ _ _ h13, all_real_at a14 _ _ _ _ h14, all_real_at a15 _ _ _ _ h15,
    all_real_at a16 _ _ _ _ h16, all_real_at a17 _ _ _ _ h17, all_real_at a18 _ _ _ _ h18⟩

end Cert.FiniteInputs

end
-- ==== Proof.Bridge.lean ====
/-
  The kernel program's closed result is the plain program's composed term.

  Stage by stage. The two input projections agree because a 64-term sum is the sum of its two 32-term halves.
  The neighbourhood sums are the same terms in both programs, so they agree as soon as the arrays they are
  applied to agree. Each layer's updates agree by the laws of Cert.Sage (Algebra): the reciprocal in-degree
  scaling is the division by the in-degree, and the papers' features against the sum of two root weights is the
  sum of the two products because those features are real — in layer 0 because the inputs are, in layer 1
  because every step of layer 0 maps real arrays to real arrays.
-/
import proofs.«117675_j59828894433623_2_alg».proof.Proof.Gen.KernelIdeal
import proofs.«117675_j59828894433623_2_alg».proof.Proof.Gen.Pre_finite_inputs
import proofs.«117675_j59828894433623_2_alg».proof.Proof.KernelStages
import proofs.«117675_j59828894433623_2_alg».proof.Proof.KernelHostAgg
import proofs.«117675_j59828894433623_2_alg».proof.Proof.RefStages
import proofs.«117675_j59828894433623_2_alg».proof.Proof.RefStages2
import proofs.«117675_j59828894433623_2_alg».proof.Proof.RefStages3
import proofs.«117675_j59828894433623_2_alg».proof.Proof.RefDegrees
import proofs.«117675_j59828894433623_2_alg».proof.Proof.FiniteInputs
import proofs.«117675_j59828894433623_2_alg».proof.Proof.AggFacts

noncomputable section

namespace Cert.Bridge

open Idealize.ShloMosaic Idealize.ShloMosaic.ValueIdx
open Cert.Sage Cert.KernelIdeal Cert.KernelIdeal.Gen Cert.KernelIdeal.Whole

/-! ## The input projections -/

/-- The projection computed half by half is the plain projection. -/
theorem yIn_eq (xd xc : C S100000x32 .f32) (w : C S64x64 .f32) (b : C S64 .f32) :
    yIn xd xc w b = projPlain (R := 100000) xd xc w b := by
  unfold yIn
  rw [wTop_eq, wBot_eq, biasRow_eq]
  exact proj_eq_projPlain xd xc w b

/-- Real inputs project to real features. -/
theorem yIn_isReal (xd xc : C S100000x32 .f32) (w : C S64x64 .f32) (b : C S64 .f32)
    (hxd : ∀ i, IsReal (xd i)) (hxc : ∀ i, IsReal (xc i)) (hw : ∀ i, IsReal (w i)) (hb : ∀ i, IsReal (b i)) :
    ∀ i, IsReal (yIn xd xc w b i) := by
  intro i
  unfold yIn
  rw [wTop_eq, wBot_eq, biasRow_eq]
  exact proj_isReal (R := 100000) xd xc _ _ _ hxd hxc (fun _ => hw _) (fun _ => hw _) (fun _ => hb _) i

section stages

variable (a0 a1 a2 a3 : C S100000x32 .f32) (a4 : C S64x64 .f32) (a5 : C S64 .f32) (a6 : C S64x64 .f32)
  (a7 : C S64 .f32) (a8 : C S2x64x64 .f32) (a9 : C S2x64 .f32) (a10 a11 : C S2x64x64 .f32) (a12 : C S2x64 .f32)
  (a13 a14 : C S2x64x64 .f32) (a15 : C S2x64 .f32) (a16 : C S2x64x64 .f32) (a17 : C S64x16 .f32)
  (a18 : C S16 .f32) (a19 a20 a21 a22 a23 a24 : C S1600000 .i32)

theorem yA0_eq : yIn a0 a1 a4 a5 = (Cert.ReferenceIdeal.Read.val_main_v5 (F := Ideal) a0 a1 a4 a5) :=
  (yIn_eq a0 a1 a4 a5).trans (Cert.ReferenceIdeal.Stages.v5_eq a0 a1 a4 a5).symm

theorem yP0_eq : yIn a2 a3 a6 a7 = (Cert.ReferenceIdeal.Read.val_main_v11 (F := Ideal) a2 a3 a6 a7) :=
  (yIn_eq a2 a3 a6 a7).trans (Cert.ReferenceIdeal.Stages.v11_eq a2 a3 a6 a7).symm

/-! ## Layer 0 -/

/-- The papers' layer-0 update. -/
theorem paper0_eq (h10 : ∀ i, IsReal (a10 i)) (h16 : ∀ i, IsReal (a16 i)) (hP : ∀ i, IsReal ((Cert.ReferenceIdeal.Read.val_main_v11 (F := Ideal) a2 a3 a6 a7) i)) :
    paper0 (Cert.ReferenceIdeal.Read.val_main_v5 (F := Ideal) a0 a1 a4 a5) (Cert.ReferenceIdeal.Read.val_main_v11 (F := Ideal) a2 a3 a6 a7) a8 a9 a10 a14 a15 a16 a19 a20 a23 a24 = (Cert.ReferenceIdeal.Read.val_main_v74 (F := Ideal) a0 a1 a2 a3 a4 a5 a6 a7 a8 a9 a10 a14 a15 a16 a19 a20 a23 a24) := by
  unfold paper0
  rw [layerMat0_eq, layerMat0_eq, rootSum0_eq, biasSum0_eq]
  rw [dual_eq_conv (R := 100000) (agg (Cert.ReferenceIdeal.Read.val_main_v5 (F := Ideal) a0 a1 a4 a5) a19 a20) (Cert.ReferenceIdeal.Read.val_main_v35 (F := Ideal) a20) (agg (Cert.ReferenceIdeal.Read.val_main_v11 (F := Ideal) a2 a3 a6 a7) a23 a24) (Cert.ReferenceIdeal.Read.val_main_v66 (F := Ideal) a24) (Cert.ReferenceIdeal.Read.val_main_v11 (F := Ideal) a2 a3 a6 a7)
      (inv a20) (inv a24) (fun n => deg (dstCol a20) n) (fun n => deg (dstCol a24) n)
      (fun n => deg_ne_zero _ n) (fun n => deg_ne_zero _ n)
      (fun n j => Cert.ReferenceIdeal.Degrees.deg_v35 a20 n j) (fun n => (inv_apply a20 n :))
      (fun n j => Cert.ReferenceIdeal.Degrees.deg_v66 a24 n j) (fun n => (inv_apply a24 n :))
      (layer 0 a8) (layer 0 a14) (layer 0 a10) (layer 0 a16) (layerRow 0 a9) (layerRow 0 a15)
      hP (fun _ => h10 _) (fun _ => h16 _)]
  rw [Cert.ReferenceIdeal.Stages.v74_eq a0 a1 a2 a3 a4 a5 a6 a7 a8 a9 a10 a14 a15 a16 a19 a20 a23 a24, Cert.ReferenceIdeal.Stages.v42_eq a0 a1 a2 a3 a4 a5 a6 a7 a8 a9 a10 a19 a20,
    Cert.ReferenceIdeal.Stages.v73_eq a2 a3 a6 a7 a14 a15 a16 a23 a24]
  rfl

/-- The authors' layer-0 update. -/
theorem author0_eq :
    author0 (Cert.ReferenceIdeal.Read.val_main_v11 (F := Ideal) a2 a3 a6 a7) (Cert.ReferenceIdeal.Read.val_main_v5 (F := Ideal) a0 a1 a4 a5) a11 a12 a13 a21 a22 = (Cert.ReferenceIdeal.Read.val_main_v105 (F := Ideal) a0 a1 a2 a3 a4 a5 a6 a7 a11 a12 a13 a21 a22) := by
  unfold author0
  rw [layerMat0_eq, layerMat0_eq, layerBias0_eq]
  rw [single_eq_conv (R := 100000) (agg (Cert.ReferenceIdeal.Read.val_main_v11 (F := Ideal) a2 a3 a6 a7) a21 a22) (Cert.ReferenceIdeal.Read.val_main_v98 (F := Ideal) a22) (Cert.ReferenceIdeal.Read.val_main_v5 (F := Ideal) a0 a1 a4 a5) (inv a22)
      (fun n => deg (dstCol a22) n) (fun n => deg_ne_zero _ n)
      (fun n j => Cert.ReferenceIdeal.Degrees.deg_v98 a22 n j) (fun n => (inv_apply a22 n :))
      (layer 0 a11) (layer 0 a13) (layerRow 0 a12)]
  rw [Cert.ReferenceIdeal.Stages.v105_eq a0 a1 a2 a3 a4 a5 a6 a7 a11 a12 a13 a21 a22]
  rfl

/-- The papers' layer-0 features are real when the inputs are. -/
theorem paper0_isReal (hA : ∀ i, IsReal ((Cert.ReferenceIdeal.Read.val_main_v5 (F := Ideal) a0 a1 a4 a5) i)) (hP : ∀ i, IsReal ((Cert.ReferenceIdeal.Read.val_main_v11 (F := Ideal) a2 a3 a6 a7) i))
    (h8 : ∀ i, IsReal (a8 i)) (h9 : ∀ i, IsReal (a9 i)) (h10 : ∀ i, IsReal (a10 i)) (h14 : ∀ i, IsReal (a14 i))
    (h15 : ∀ i, IsReal (a15 i)) (h16 : ∀ i, IsReal (a16 i)) :
    ∀ i, IsReal (paper0 (Cert.ReferenceIdeal.Read.val_main_v5 (F := Ideal) a0 a1 a4 a5) (Cert.ReferenceIdeal.Read.val_main_v11 (F := Ideal) a2 a3 a6 a7) a8 a9 a10 a14 a15 a16 a19 a20 a23 a24 i) := by
  intro i
  unfold paper0
  rw [layerMat0_eq, layerMat0_eq, rootSum0_eq, biasSum0_eq]
  exact dual_isReal (R := 100000) _ _ _ _ _ _ _ _ _ (agg_isReal _ hA a19 a20) (inv_isReal a20)
    (agg_isReal _ hP a23 a24) (inv_isReal a24) hP (fun _ => h8 _) (fun _ => h14 _)
    (fun _ => (h10 _).add (h16 _)) (fun _ => (h9 _).add (h15 _)) i

/-! ## Layer 1 and the head -/

/-- The papers' layer-1 update followed by the output head. -/
theorem out1_eq (h10 : ∀ i, IsReal (a10 i)) (h16 : ∀ i, IsReal (a16 i)) (hP1 : ∀ i, IsReal ((Cert.ReferenceIdeal.Read.val_main_v74 (F := Ideal) a0 a1 a2 a3 a4 a5 a6 a7 a8 a9 a10 a14 a15 a16 a19 a20 a23 a24) i)) :
    out1 (Cert.ReferenceIdeal.Read.val_main_v105 (F := Ideal) a0 a1 a2 a3 a4 a5 a6 a7 a11 a12 a13 a21 a22) (Cert.ReferenceIdeal.Read.val_main_v74 (F := Ideal) a0 a1 a2 a3 a4 a5 a6 a7 a8 a9 a10 a14 a15 a16 a19 a20 a23 a24) a8 a9 a10 a14 a15 a16 a17 a18 a19 a20 a23 a24 = (Cert.ReferenceIdeal.Read.val_main_v203 (F := Ideal) a0 a1 a2 a3 a4 a5 a6 a7 a8 a9 a10 a11 a12 a13 a14 a15 a16 a17 a18 a19 a20 a21 a22 a23 a24) := by
  unfold out1
  rw [layerMat1_eq, layerMat1_eq, rootSum1_eq, biasSum1_eq, headBias_eq]
  rw [dual_eq_conv (R := 100000) (agg (Cert.ReferenceIdeal.Read.val_main_v105 (F := Ideal) a0 a1 a2 a3 a4 a5 a6 a7 a11 a12 a13 a21 a22) a19 a20) (Cert.ReferenceIdeal.Read.val_main_v129 (F := Ideal) a20) (agg (Cert.ReferenceIdeal.Read.val_main_v74 (F := Ideal) a0 a1 a2 a3 a4 a5 a6 a7 a8 a9 a10 a14 a15 a16 a19 a20 a23 a24) a23 a24) (Cert.ReferenceIdeal.Read.val_main_v160 (F := Ideal) a24) (Cert.ReferenceIdeal.Read.val_main_v74 (F := Ideal) a0 a1 a2 a3 a4 a5 a6 a7 a8 a9 a10 a14 a15 a16 a19 a20 a23 a24)
      (inv a20) (inv a24) (fun n => deg (dstCol a20) n) (fun n => deg (dstCol a24) n)
      (fun n => deg_ne_zero _ n) (fun n => deg_ne_zero _ n)
      (fun n j => Cert.ReferenceIdeal.Degrees.deg_v129 a20 n j) (fun n => (inv_apply a20 n :))
      (fun n j => Cert.ReferenceIdeal.Degrees.deg_v160 a24 n j) (fun n => (inv_apply a24 n :))
      (layer 1 a8) (layer 1 a14) (layer 1 a10) (layer 1 a16) (layerRow 1 a9) (layerRow 1 a15)
      hP1 (fun _ => h10 _) (fun _ => h16 _)]
  rw [Cert.ReferenceIdeal.Stages.v203_eq' a0 a1 a2 a3 a4 a5 a6 a7 a8 a9 a10 a11 a12 a13 a14 a15 a16 a17 a18 a19 a20 a21 a22 a23 a24, Cert.ReferenceIdeal.Stages.v168_eq a0 a1 a2 a3 a4 a5 a6 a7 a8 a9 a10 a11 a12 a13 a14 a15 a16 a19 a20 a21 a22 a23 a24,
    Cert.ReferenceIdeal.Stages.v136_eq a0 a1 a2 a3 a4 a5 a6 a7 a8 a9 a10 a11 a12 a13 a14 a15 a16 a19 a20 a21 a22 a23 a24, Cert.ReferenceIdeal.Stages.v167_eq a0 a1 a2 a3 a4 a5 a6 a7 a8 a9 a10 a14 a15 a16 a19 a20 a23 a24]
  rfl

/-! ## The whole result -/

/-- With every float argument real, the kernel program's closed result is the plain program's composed term. -/
theorem result_eq
    (hpre : Cert.Pre_finite_inputs.fn (F := Ideal) a0 a1 a2 a3 a4 a5 a6 a7 a8 a9 a10 a11 a12 a13 a14 a15 a16 a17 a18
      a19 a20 a21 a22 a23 a24 = (fun _ => 1#1)) :
    kout a0 a1 a2 a3 a4 a5 a6 a7 a8 a9 a10 a11 a12 a13 a14 a15 a16 a17 a18 a19 a20 a21 a22 a23 a24 = (Cert.ReferenceIdeal.Read.val_main_v203 (F := Ideal) a0 a1 a2 a3 a4 a5 a6 a7 a8 a9 a10 a11 a12 a13 a14 a15 a16 a17 a18 a19 a20 a21 a22 a23 a24) := by
  obtain ⟨h0, h1, h2, h3, h4, h5, h6, h7, h8, h9, h10, h11, h12, h13, h14, h15, h16, h17, h18⟩ :=
    Cert.FiniteInputs.reals_of_pre a0 a1 a2 a3 a4 a5 a6 a7 a8 a9 a10 a11 a12 a13 a14 a15 a16 a17 a18
      a19 a20 a21 a22 a23 a24 hpre
  have hA : ∀ i, IsReal ((Cert.ReferenceIdeal.Read.val_main_v5 (F := Ideal) a0 a1 a4 a5) i) := by
    rw [← yA0_eq a0 a1 a4 a5]; exact yIn_isReal a0 a1 a4 a5 h0 h1 h4 h5
  have hP : ∀ i, IsReal ((Cert.ReferenceIdeal.Read.val_main_v11 (F := Ideal) a2 a3 a6 a7) i) := by
    rw [← yP0_eq a2 a3 a6 a7]; exact yIn_isReal a2 a3 a6 a7 h2 h3 h6 h7
  have hP1 : ∀ i, IsReal ((Cert.ReferenceIdeal.Read.val_main_v74 (F := Ideal) a0 a1 a2 a3 a4 a5 a6 a7 a8 a9 a10 a14 a15 a16 a19 a20 a23 a24) i) := by
    rw [← paper0_eq a0 a1 a2 a3 a4 a5 a6 a7 a8 a9 a10 a14 a15 a16 a19 a20 a23 a24 h10 h16 hP]
    exact paper0_isReal a0 a1 a2 a3 a4 a5 a6 a7 a8 a9 a10 a14 a15 a16 a19 a20 a23 a24 hA hP h8 h9 h10 h14 h15 h16
  unfold kout
  rw [yA0_eq a0 a1 a4 a5, yP0_eq a2 a3 a6 a7,
    author0_eq a0 a1 a2 a3 a4 a5 a6 a7 a11 a12 a13 a21 a22,
    paper0_eq a0 a1 a2 a3 a4 a5 a6 a7 a8 a9 a10 a14 a15 a16 a19 a20 a23 a24 h10 h16 hP]
  exact out1_eq a0 a1 a2 a3 a4 a5 a6 a7 a8 a9 a10 a11 a12 a13 a14 a15 a16 a17 a18 a19 a20 a21 a22 a23 a24 h10 h16 hP1

end stages

end Cert.Bridge

end
-- ==== Proof.KernelRun.lean ====
/-
  The whole program's run with its result named: the run of the five tiled stages among the host
  stretches ends with the result buffer holding the last boundary's contents at that buffer, every
  argument array as it was handed in.
-/
import proofs.«117675_j59828894433623_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option backward.isDefEq.respectTransparency.types false in
/-- The program's run, every weakly fair execution terminating without fault, ends with the result buffer at the
    last boundary's contents (the fold of the host stretches and the five stages' write-backs from the launch
    memory), and with every argument array as launched. -/
theorem run_W10 (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v130) = Gen.W10 m ρ c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v130 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c),
       (h c _ (mem_uc main_arg24 (by decide))).trans (W10_main_arg24 m ρ c)⟩)

end Cert.KernelIdeal.Whole

end
-- ==== Proof.KernelKeep.lean ====
/-
  What each stretch of the program leaves alone. The program is five tiled stages among five stretches of host
  operations; a host stretch writes a fixed list of buffers, a stage writes its one result array. Hence every
  other buffer keeps its contents across a stretch, and an argument array, which nothing writes, holds at every
  boundary what it was launched with.
-/
import proofs.«117675_j59828894433623_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable (m : (ℓ : Loc nD τ sig) → Buf (Elt F) ℓ) (ρ : Dev nD → PrngReg)

/-! ## What each stretch leaves alone

Each host stretch writes a fixed list of buffers, each tiled stage writes its one result array; every other
buffer keeps its contents across the stretch. -/

/-- The buffers host stretch 0 writes, in order. -/
abbrev wr0 : List (Ref sig .tc) :=
  [
    main_v0, main_v1, main_v2 ]
theorem wr0_sub : (hostOps0 : List (HloOp τ sig (Elt F))).Forall fun op => op.writes ⊆ ((wr0).map (Proc.devRef (τ := τ) .tc)).toFinset := by
  simp only [hostOps0, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer host stretch 0 does not write keeps its contents across it. -/
theorem host0_keep (V : Valuation τ sig (Elt F)) (r : Ref sig .tc) (hr : r ∉ wr0) :
    StableHlo.after hostOps0 V (Proc.devRef .tc r) = V (Proc.devRef .tc r) :=
  StableHlo.after_of_writes_sub hostOps0 V wr0_sub hr

/-- The buffers host stretch 1 writes, in order. -/
abbrev wr1 : List (Ref sig .tc) :=
  [
    main_v4, main_v5, main_v6 ]
theorem wr1_sub : (hostOps1 : List (HloOp τ sig (Elt F))).Forall fun op => op.writes ⊆ ((wr1).map (Proc.devRef (τ := τ) .tc)).toFinset := by
  simp only [hostOps1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer host stretch 1 does not write keeps its contents across it. -/
theorem host1_keep (V : Valuation τ sig (Elt F)) (r : Ref sig .tc) (hr : r ∉ wr1) :
    StableHlo.after hostOps1 V (Proc.devRef .tc r) = V (Proc.devRef .tc r) :=
  StableHlo.after_of_writes_sub hostOps1 V wr1_sub hr

/-- The buffers host stretch 2 writes, in order. -/
abbrev wr2 : List (Ref sig .tc) :=
  [
    main_cst, main_v8, main_cst_0, main_v9, main_v10, main_v11, main_cst_1, main_v12,
    main_v13, main_cst_2, main_v14, main_v15, main_v16, main_cst_3, main_v17, main_cst_4,
    main_v18, main_v19, main_v20, main_cst_5, main_v21, main_v22, main_cst_6, main_v23,
    main_v24, main_v25, main_cst_7, main_v26, main_cst_8, main_v27, main_v28, main_v29,
    main_cst_9, main_v30, main_v31, main_cst_10, main_v32, main_v33, main_v34, main_c,
    main_v35, main_v36, main_c_11, main_v37, main_v38, main_v39, main_v40, main_v41,
    main_v42, main_cst_12, main_v43, main_v44, main_v45, main_c_13, main_v46, main_v47,
    main_c_14, main_v48, main_v49, main_v50, main_v51, main_v52, main_v53, main_cst_15,
    main_v54, main_v55, main_v56, main_v57, main_v58, main_v59, main_v60, main_v61,
    main_v62, main_v63, main_v64, main_v65, main_v66, main_c_16, main_v67, main_v68,
    main_c_17, main_v69, main_v70, main_v71, main_v72, main_v73, main_v74, main_cst_18,
    main_v75, main_v76, main_v77, main_v78, main_v79, main_v80, main_v81, main_v82 ]
set_option maxHeartbeats 4000000 in
theorem wr2_sub : (hostOps2 : List (HloOp τ sig (Elt F))).Forall fun op => op.writes ⊆ ((wr2).map (Proc.devRef (τ := τ) .tc)).toFinset := by
  simp only [hostOps2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer host stretch 2 does not write keeps its contents across it. -/
theorem host2_keep (V : Valuation τ sig (Elt F)) (r : Ref sig .tc) (hr : r ∉ wr2) :
    StableHlo.after hostOps2 V (Proc.devRef .tc r) = V (Proc.devRef .tc r) :=
  StableHlo.after_of_writes_sub hostOps2 V wr2_sub hr

/-- The buffers host stretch 3 writes, in order. -/
abbrev wr3 : List (Ref sig .tc) :=
  [
    main_v84, main_v85, main_v86, main_v87, main_v88, main_v89, main_v90 ]
theorem wr3_sub : (hostOps3 : List (HloOp τ sig (Elt F))).Forall fun op => op.writes ⊆ ((wr3).map (Proc.devRef (τ := τ) .tc)).toFinset := by
  simp only [hostOps3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer host stretch 3 does not write keeps its contents across it. -/
theorem host3_keep (V : Valuation τ sig (Elt F)) (r : Ref sig .tc) (hr : r ∉ wr3) :
    StableHlo.after hostOps3 V (Proc.devRef .tc r) = V (Proc.devRef .tc r) :=
  StableHlo.after_of_writes_sub hostOps3 V wr3_sub hr

/-- The buffers host stretch 4 writes, in order. -/
abbrev wr4 : List (Ref sig .tc) :=
  [
    main_c_19, main_v92, main_v93, main_c_20, main_v94, main_v95, main_v96, main_v97,
    main_v98, main_v99, main_cst_21, main_v100, main_v101, main_v102, main_c_22, main_v103,
    main_v104, main_c_23, main_v105, main_v106, main_v107, main_v108, main_v109, main_v110,
    main_cst_24, main_v111, main_v112, main_v113, main_v114, main_v115, main_v116, main_v117,
    main_v118, main_v119, main_v120, main_v121, main_v122, main_v123, main_v124, main_v125,
    main_v126, main_v127, main_v128, main_v129 ]
set_option maxHeartbeats 4000000 in
theorem wr4_sub : (hostOps4 : List (HloOp τ sig (Elt F))).Forall fun op => op.writes ⊆ ((wr4).map (Proc.devRef (τ := τ) .tc)).toFinset := by
  simp only [hostOps4, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer host stretch 4 does not write keeps its contents across it. -/
theorem host4_keep (V : Valuation τ sig (Elt F)) (r : Ref sig .tc) (hr : r ∉ wr4) :
    StableHlo.after hostOps4 V (Proc.devRef .tc r) = V (Proc.devRef .tc r) :=
  StableHlo.after_of_writes_sub hostOps4 V wr4_sub hr

/-- Stage 0 changes its result array only: every other buffer, an operand array of the stage or not, leaves as it
    entered. -/
theorem W2_keep (c : Dev nD) (r : Ref sig .tc) (hr : r ≠ main_v3) :
    Gen.W2 m ρ c (Proc.devRef .tc r) = Gen.W1 m ρ c (Proc.devRef .tc r) := by
  by_cases h : ∀ w, Pipeline.arrRef spec0 w ≠ r
  · exact Gen.W2_of_ne m ρ c r h
  · have key : ∀ w : Fin cfg0.W, Pipeline.arrRef spec0 w ≠ main_v3 → (cfg0.win w).isOut = false := by decide
    obtain ⟨w, rfl⟩ := not_forall_not.mp h
    exact (Gen.W2_arr m ρ c w).trans (((Gen.dat0 (Gen.V1 m ρ) c).arrAt_in w (key w hr) _).trans (Gen.A_eq0 (Gen.V1 m ρ) c w))

/-- Stage 1 changes its result array only: every other buffer, an operand array of the stage or not, leaves as it
    entered. -/
theorem W4_keep (c : Dev nD) (r : Ref sig .tc) (hr : r ≠ main_v7) :
    Gen.W4 m ρ c (Proc.devRef .tc r) = Gen.W3 m ρ c (Proc.devRef .tc r) := by
  by_cases h : ∀ w, Pipeline.arrRef spec1 w ≠ r
  · exact Gen.W4_of_ne m ρ c r h
  · have key : ∀ w : Fin cfg1.W, Pipeline.arrRef spec1 w ≠ main_v7 → (cfg1.win w).isOut = false := by decide
    obtain ⟨w, rfl⟩ := not_forall_not.mp h
    exact (Gen.W4_arr m ρ c w).trans (((Gen.dat1 (Gen.V3 m ρ) c).arrAt_in w (key w hr) _).trans (Gen.A_eq1 (Gen.V3 m ρ) c w))

/-- Stage 2 changes its result array only: every other buffer, an operand array of the stage or not, leaves as it
    entered. -/
theorem W6_keep (c : Dev nD) (r : Ref sig .tc) (hr : r ≠ main_v83) :
    Gen.W6 m ρ c (Proc.devRef .tc r) = Gen.W5 m ρ c (Proc.devRef .tc r) := by
  by_cases h : ∀ w, Pipeline.arrRef spec2 w ≠ r
  · exact Gen.W6_of_ne m ρ c r h
  · have key : ∀ w : Fin cfg2.W, Pipeline.arrRef spec2 w ≠ main_v83 → (cfg2.win w).isOut = false := by decide
    obtain ⟨w, rfl⟩ := not_forall_not.mp h
    exact (Gen.W6_arr m ρ c w).trans (((Gen.dat2 (Gen.V5 m ρ) c).arrAt_in w (key w hr) _).trans (Gen.A_eq2 (Gen.V5 m ρ) c w))

/-- Stage 3 changes its result array only: every other buffer, an operand array of the stage or not, leaves as it
    entered. -/
theorem W8_keep (c : Dev nD) (r : Ref sig .tc) (hr : r ≠ main_v91) :
    Gen.W8 m ρ c (Proc.devRef .tc r) = Gen.W7 m ρ c (Proc.devRef .tc r) := by
  by_cases h : ∀ w, Pipeline.arrRef spec3 w ≠ r
  · exact Gen.W8_of_ne m ρ c r h
  · have key : ∀ w : Fin cfg3.W, Pipeline.arrRef spec3 w ≠ main_v91 → (cfg3.win w).isOut = false := by decide
    obtain ⟨w, rfl⟩ := not_forall_not.mp h
    exact (Gen.W8_arr m ρ c w).trans (((Gen.dat3 (Gen.V7 m ρ) c).arrAt_in w (key w hr) _).trans (Gen.A_eq3 (Gen.V7 m ρ) c w))

/-- Stage 4 changes its result array only: every other buffer, an operand array of the stage or not, leaves as it
    entered. -/
theorem W10_keep (c : Dev nD) (r : Ref sig .tc) (hr : r ≠ main_v130) :
    Gen.W10 m ρ c (Proc.devRef .tc r) = Gen.W9 m ρ c (Proc.devRef .tc r) := by
  by_cases h : ∀ w, Pipeline.arrRef spec4 w ≠ r
  · exact Gen.W10_of_ne m ρ c r h
  · have key : ∀ w : Fin cfg4.W, Pipeline.arrRef spec4 w ≠ main_v130 → (cfg4.win w).isOut = false := by decide
    obtain ⟨w, rfl⟩ := not_forall_not.mp h
    exact (Gen.W10_arr m ρ c w).trans (((Gen.dat4 (Gen.V9 m ρ) c).arrAt_in w (key w hr) _).trans (Gen.A_eq4 (Gen.V9 m ρ) c w))

/-! ## The argument arrays at every boundary -/

/-- The argument arrays. -/
abbrev args : List (Ref sig .tc) :=
  [
    main_arg0, main_arg1, main_arg2, main_arg3, main_arg4, main_arg5, main_arg6, main_arg7,
    main_arg8, main_arg9, main_arg10, main_arg11, main_arg12, main_arg13, main_arg14, main_arg15,
    main_arg16, main_arg17, main_arg18, main_arg19, main_arg20, main_arg21, main_arg22, main_arg23,
    main_arg24 ]
theorem args_wr0 : ∀ r ∈ args, r ∉ wr0 := by decide
theorem args_wr1 : ∀ r ∈ args, r ∉ wr1 := by decide
theorem args_wr2 : ∀ r ∈ args, r ∉ wr2 := by decide
theorem args_wr3 : ∀ r ∈ args, r ∉ wr3 := by decide
theorem args_wr4 : ∀ r ∈ args, r ∉ wr4 := by decide
theorem args_out : ∀ r ∈ args, r ≠ main_v3 ∧ r ≠ main_v7 ∧ r ≠ main_v83 ∧ r ≠ main_v91 ∧ r ≠ main_v130 := by decide

/-- No stretch writes an argument array: at every boundary it holds what it was launched with. -/
theorem W1_arg (c : Dev nD) (r : Ref sig .tc) (h : r ∈ args) : Gen.W1 m ρ c (Proc.devRef .tc r) = m ((c : Thread nD τ).loc r) :=
  (host0_keep _ r (args_wr0 r h)).trans rfl
theorem W2_arg (c : Dev nD) (r : Ref sig .tc) (h : r ∈ args) : Gen.W2 m ρ c (Proc.devRef .tc r) = m ((c : Thread nD τ).loc r) :=
  (W2_keep m ρ c r (args_out r h).1).trans (W1_arg m ρ c r h)
theorem W3_arg (c : Dev nD) (r : Ref sig .tc) (h : r ∈ args) : Gen.W3 m ρ c (Proc.devRef .tc r) = m ((c : Thread nD τ).loc r) :=
  (host1_keep _ r (args_wr1 r h)).trans (W2_arg m ρ c r h)
theorem W4_arg (c : Dev nD) (r : Ref sig .tc) (h : r ∈ args) : Gen.W4 m ρ c (Proc.devRef .tc r) = m ((c : Thread nD τ).loc r) :=
  (W4_keep m ρ c r (args_out r h).2.1).trans (W3_arg m ρ c r h)
theorem W5_arg (c : Dev nD) (r : Ref sig .tc) (h : r ∈ args) : Gen.W5 m ρ c (Proc.devRef .tc r) = m ((c : Thread nD τ).loc r) :=
  (host2_keep _ r (args_wr2 r h)).trans (W4_arg m ρ c r h)
theorem W6_arg (c : Dev nD) (r : Ref sig .tc) (h : r ∈ args) : Gen.W6 m ρ c (Proc.devRef .tc r) = m ((c : Thread nD τ).loc r) :=
  (W6_keep m ρ c r (args_out r h).2.2.1).trans (W5_arg m ρ c r h)
theorem W7_arg (c : Dev nD) (r : Ref sig .tc) (h : r ∈ args) : Gen.W7 m ρ c (Proc.devRef .tc r) = m ((c : Thread nD τ).loc r) :=
  (host3_keep _ r (args_wr3 r h)).trans (W6_arg m ρ c r h)
theorem W8_arg (c : Dev nD) (r : Ref sig .tc) (h : r ∈ args) : Gen.W8 m ρ c (Proc.devRef .tc r) = m ((c : Thread nD τ).loc r) :=
  (W8_keep m ρ c r (args_out r h).2.2.2.1).trans (W7_arg m ρ c r h)
theorem W9_arg (c : Dev nD) (r : Ref sig .tc) (h : r ∈ args) : Gen.W9 m ρ c (Proc.devRef .tc r) = m ((c : Thread nD τ).loc r) :=
  (host4_keep _ r (args_wr4 r h)).trans (W8_arg m ρ c r h)

end Cert.KernelIdeal.Whole

end
-- ==== Proof.KernelReadMid.lean ====
/-
  What the host stretch between the second projection and the first aggregation step leaves in the buffers
  the next device step reads, as functions of the buffers as that stretch finds them: for each of the three
  edge types the summed neighbour rows and the reciprocal in-degree column, and layer 0 of the stacked
  parameters (two neighbour weights, the summed root weight, the summed bias row).
-/
import proofs.«117675_j59828894433623_2_alg».proof.Proof.Gen.KernelIdeal.Frame
import proofs.«117675_j59828894433623_2_alg».proof.Proof.KernelHost

set_option maxRecDepth 16384

noncomputable section

namespace Cert.KernelIdeal.Whole

open Idealize.ShloMosaic Idealize.ShloMosaic.TcCoe Idealize.ShloMosaic.Tactic
open Idealize.SL Idealize.SL.Sem
open Cert.KernelIdeal Cert.KernelIdeal.Gen

/-- The first edge type's summed neighbour rows: rows of the first projection's result, gathered along the edges and summed at their targets. -/
theorem W5_v45 (m : (ℓ : Loc nD τ sig) → Buf (Elt Ideal) ℓ) (ρ : Dev nD → PrngReg) (c : Dev nD) :
    Gen.W5 (F := Ideal) m ρ c (Proc.devRef .tc main_v45)
      = agg (Gen.W4 m ρ c (Proc.devRef .tc main_v3)) (Gen.W4 m ρ c (Proc.devRef .tc main_arg19)) (Gen.W4 m ρ c (Proc.devRef .tc main_arg20)) := by
  show StableHlo.after hostOps2 _ (Proc.devRef .tc main_v45) = _; after_results_simp; rfl

/-- The first edge type's reciprocal in-degree column. -/
theorem W5_v16 (m : (ℓ : Loc nD τ sig) → Buf (Elt Ideal) ℓ) (ρ : Dev nD → PrngReg) (c : Dev nD) :
    Gen.W5 (F := Ideal) m ρ c (Proc.devRef .tc main_v16)
      = inv (Gen.W4 m ρ c (Proc.devRef .tc main_arg20)) := by
  show StableHlo.after hostOps2 _ (Proc.devRef .tc main_v16) = _; after_results_simp; rfl

/-- The second edge type's summed neighbour rows: rows of the second projection's result, gathered along the edges and summed at their targets. -/
theorem W5_v56 (m : (ℓ : Loc nD τ sig) → Buf (Elt Ideal) ℓ) (ρ : Dev nD → PrngReg) (c : Dev nD) :
    Gen.W5 (F := Ideal) m ρ c (Proc.devRef .tc main_v56)
      = agg (Gen.W4 m ρ c (Proc.devRef .tc main_v7)) (Gen.W4 m ρ c (Proc.devRef .tc main_arg23)) (Gen.W4 m ρ c (Proc.devRef .tc main_arg24)) := by
  show StableHlo.after hostOps2 _ (Proc.devRef .tc main_v56) = _; after_results_simp; rfl

/-- The second edge type's reciprocal in-degree column. -/
theorem W5_v25 (m : (ℓ : Loc nD τ sig) → Buf (Elt Ideal) ℓ) (ρ : Dev nD → PrngReg) (c : Dev nD) :
    Gen.W5 (F := Ideal) m ρ c (Proc.devRef .tc main_v25)
      = inv (Gen.W4 m ρ c (Proc.devRef .tc main_arg24)) := by
  show StableHlo.after hostOps2 _ (Proc.devRef .tc main_v25) = _; after_results_simp; rfl

/-- The third edge type's summed neighbour rows: rows of the second projection's result, gathered along the edges and summed at their targets. -/
theorem W5_v77 (m : (ℓ : Loc nD τ sig) → Buf (Elt Ideal) ℓ) (ρ : Dev nD → PrngReg) (c : Dev nD) :
    Gen.W5 (F := Ideal) m ρ c (Proc.devRef .tc main_v77)
      = agg (Gen.W4 m ρ c (Proc.devRef .tc main_v7)) (Gen.W4 m ρ c (Proc.devRef .tc main_arg21)) (Gen.W4 m ρ c (Proc.devRef .tc main_arg22)) := by
  show StableHlo.after hostOps2 _ (Proc.devRef .tc main_v77) = _; after_results_simp; rfl

/-- The third edge type's reciprocal in-degree column. -/
theorem W5_v34 (m : (ℓ : Loc nD τ sig) → Buf (Elt Ideal) ℓ) (ρ : Dev nD → PrngReg) (c : Dev nD) :
    Gen.W5 (F := Ideal) m ρ c (Proc.devRef .tc main_v34)
      = inv (Gen.W4 m ρ c (Proc.devRef .tc main_arg22)) := by
  show StableHlo.after hostOps2 _ (Proc.devRef .tc main_v34) = _; after_results_simp; rfl

/-- Layer 0 of the first stacked neighbour weight. -/
theorem W5_v79 (m : (ℓ : Loc nD τ sig) → Buf (Elt Ideal) ℓ) (ρ : Dev nD → PrngReg) (c : Dev nD) :
    Gen.W5 (F := Ideal) m ρ c (Proc.devRef .tc main_v79)
      = layerMat0 (Gen.W4 m ρ c (Proc.devRef .tc main_arg8)) := by
  show StableHlo.after hostOps2 _ (Proc.devRef .tc main_v79) = _; after_results_simp; rfl

/-- Layer 0 of the second stacked neighbour weight. -/
theorem W5_v81 (m : (ℓ : Loc nD τ sig) → Buf (Elt Ideal) ℓ) (ρ : Dev nD → PrngReg) (c : Dev nD) :
    Gen.W5 (F := Ideal) m ρ c (Proc.devRef .tc main_v81)
      = layerMat0 (Gen.W4 m ρ c (Proc.devRef .tc main_arg14)) := by
  show StableHlo.after hostOps2 _ (Proc.devRef .tc main_v81) = _; after_results_simp; rfl

/-- Layer 0 of the two stacked root weights, added. -/
theorem W5_v61 (m : (ℓ : Loc nD τ sig) → Buf (Elt Ideal) ℓ) (ρ : Dev nD → PrngReg) (c : Dev nD) :
    Gen.W5 (F := Ideal) m ρ c (Proc.devRef .tc main_v61)
      = rootSum0 (Gen.W4 m ρ c (Proc.devRef .tc main_arg10)) (Gen.W4 m ρ c (Proc.devRef .tc main_arg16)) := by
  show StableHlo.after hostOps2 _ (Proc.devRef .tc main_v61) = _; after_results_simp; rfl

/-- Layer 0 of the two stacked biases, added, as a row. -/
theorem W5_v82 (m : (ℓ : Loc nD τ sig) → Buf (Elt Ideal) ℓ) (ρ : Dev nD → PrngReg) (c : Dev nD) :
    Gen.W5 (F := Ideal) m ρ c (Proc.devRef .tc main_v82)
      = biasSum0 (Gen.W4 m ρ c (Proc.devRef .tc main_arg9)) (Gen.W4 m ρ c (Proc.devRef .tc main_arg15)) := by
  show StableHlo.after hostOps2 _ (Proc.devRef .tc main_v82) = _; after_results_simp; rfl

end Cert.KernelIdeal.Whole

end
-- ==== Proof.KernelReadLate.lean ====
/-
  What the last two device regions are handed by the host stages that precede them.

  Before the fourth region the host picks layer 0 of three stacked parameters; before the fifth it sums the rows of
  the two hidden feature arrays along the edges of two edge types, picks layer 1 of two stacked weights, adds layer 1
  of two more stacked weights and of two stacked biases, and stands the output head's bias up as a row. Each buffer a
  region reads is stated here as that host stage applied to the contents the stretch of host operations starts from.
-/
import proofs.«117675_j59828894433623_2_alg».proof.Proof.Gen.KernelIdeal.Frame
import proofs.«117675_j59828894433623_2_alg».proof.Proof.KernelHost

set_option maxRecDepth 16384

noncomputable section

namespace Cert.KernelIdeal.Whole

open Idealize.ShloMosaic Idealize.ShloMosaic.TcCoe Idealize.ShloMosaic.Tactic
open Idealize.SL.Sem
open Cert.KernelIdeal Cert.KernelIdeal.Gen

/-! ## The stretch before the fourth region -/

/-- Layer 0 of a stacked weight. -/
theorem W7_v85 (m : (ℓ : Loc nD τ sig) → Buf (Elt Ideal) ℓ) (ρ : Dev nD → PrngReg) (c : Dev nD) :
    Gen.W7 (F := Ideal) m ρ c (Proc.devRef .tc main_v85)
      = layerMat0 (Gen.W6 m ρ c (Proc.devRef .tc main_arg11)) := by
  show StableHlo.after hostOps3 _ (Proc.devRef .tc main_v85) = _; after_results_simp; rfl

/-- Layer 0 of another stacked weight. -/
theorem W7_v87 (m : (ℓ : Loc nD τ sig) → Buf (Elt Ideal) ℓ) (ρ : Dev nD → PrngReg) (c : Dev nD) :
    Gen.W7 (F := Ideal) m ρ c (Proc.devRef .tc main_v87)
      = layerMat0 (Gen.W6 m ρ c (Proc.devRef .tc main_arg13)) := by
  show StableHlo.after hostOps3 _ (Proc.devRef .tc main_v87) = _; after_results_simp; rfl

/-- Layer 0 of a stacked bias, as a row. -/
theorem W7_v90 (m : (ℓ : Loc nD τ sig) → Buf (Elt Ideal) ℓ) (ρ : Dev nD → PrngReg) (c : Dev nD) :
    Gen.W7 (F := Ideal) m ρ c (Proc.devRef .tc main_v90)
      = layerBias0 (Gen.W6 m ρ c (Proc.devRef .tc main_arg12)) := by
  show StableHlo.after hostOps3 _ (Proc.devRef .tc main_v90) = _; after_results_simp; rfl

/-! ## The stretch before the fifth region -/

/-- For each node, the sum along one edge type's edges of the source nodes' rows of a hidden feature array. -/
theorem W9_v102 (m : (ℓ : Loc nD τ sig) → Buf (Elt Ideal) ℓ) (ρ : Dev nD → PrngReg) (c : Dev nD) :
    Gen.W9 (F := Ideal) m ρ c (Proc.devRef .tc main_v102)
      = agg (Gen.W8 m ρ c (Proc.devRef .tc main_v91)) (Gen.W8 m ρ c (Proc.devRef .tc main_arg19)) (Gen.W8 m ρ c (Proc.devRef .tc main_arg20)) := by
  show StableHlo.after hostOps4 _ (Proc.devRef .tc main_v102) = _; after_results_simp; rfl

/-- The same along another edge type's edges, of the other hidden feature array. -/
theorem W9_v113 (m : (ℓ : Loc nD τ sig) → Buf (Elt Ideal) ℓ) (ρ : Dev nD → PrngReg) (c : Dev nD) :
    Gen.W9 (F := Ideal) m ρ c (Proc.devRef .tc main_v113)
      = agg (Gen.W8 m ρ c (Proc.devRef .tc main_v83)) (Gen.W8 m ρ c (Proc.devRef .tc main_arg23)) (Gen.W8 m ρ c (Proc.devRef .tc main_arg24)) := by
  show StableHlo.after hostOps4 _ (Proc.devRef .tc main_v113) = _; after_results_simp; rfl

/-- Layer 1 of a stacked weight. -/
theorem W9_v125 (m : (ℓ : Loc nD τ sig) → Buf (Elt Ideal) ℓ) (ρ : Dev nD → PrngReg) (c : Dev nD) :
    Gen.W9 (F := Ideal) m ρ c (Proc.devRef .tc main_v125)
      = layerMat1 (Gen.W8 m ρ c (Proc.devRef .tc main_arg8)) := by
  show StableHlo.after hostOps4 _ (Proc.devRef .tc main_v125) = _; after_results_simp; rfl

/-- Layer 1 of another stacked weight. -/
theorem W9_v127 (m : (ℓ : Loc nD τ sig) → Buf (Elt Ideal) ℓ) (ρ : Dev nD → PrngReg) (c : Dev nD) :
    Gen.W9 (F := Ideal) m ρ c (Proc.devRef .tc main_v127)
      = layerMat1 (Gen.W8 m ρ c (Proc.devRef .tc main_arg14)) := by
  show StableHlo.after hostOps4 _ (Proc.devRef .tc main_v127) = _; after_results_simp; rfl

/-- The sum of layer 1 of two stacked weights. -/
theorem W9_v118 (m : (ℓ : Loc nD τ sig) → Buf (Elt Ideal) ℓ) (ρ : Dev nD → PrngReg) (c : Dev nD) :
    Gen.W9 (F := Ideal) m ρ c (Proc.devRef .tc main_v118)
      = rootSum1 (Gen.W8 m ρ c (Proc.devRef .tc main_arg10)) (Gen.W8 m ρ c (Proc.devRef .tc main_arg16)) := by
  show StableHlo.after hostOps4 _ (Proc.devRef .tc main_v118) = _; after_results_simp; rfl

/-- The sum of layer 1 of two stacked biases, as a row. -/
theorem W9_v128 (m : (ℓ : Loc nD τ sig) → Buf (Elt Ideal) ℓ) (ρ : Dev nD → PrngReg) (c : Dev nD) :
    Gen.W9 (F := Ideal) m ρ c (Proc.devRef .tc main_v128)
      = biasSum1 (Gen.W8 m ρ c (Proc.devRef .tc main_arg9)) (Gen.W8 m ρ c (Proc.devRef .tc main_arg15)) := by
  show StableHlo.after hostOps4 _ (Proc.devRef .tc main_v128) = _; after_results_simp; rfl

/-- The output head's bias, as a row. -/
theorem W9_v129 (m : (ℓ : Loc nD τ sig) → Buf (Elt Ideal) ℓ) (ρ : Dev nD → PrngReg) (c : Dev nD) :
    Gen.W9 (F := Ideal) m ρ c (Proc.devRef .tc main_v129)
      = headBias (Gen.W8 m ρ c (Proc.devRef .tc main_arg18)) := by
  show StableHlo.after hostOps4 _ (Proc.devRef .tc main_v129) = _; after_results_simp; rfl

end Cert.KernelIdeal.Whole

end
-- ==== Proof.KernelValue.lean ====
/-
  The whole program's result as a closed function of its 25 argument arrays.

  The program is five tiled stages among five stretches of host operations. Walking the boundaries from the launch to
  the return: a host stretch's result buffers are the host operations applied to what the stretch found; a stage's
  result array is the dense step of its operand arrays (the five hypotheses `Stage0 … Stage4`); every other buffer is
  carried unchanged. Substituting boundary by boundary, the last stage's result array is `kout` of the argument
  arrays: both node types' projected inputs, the layer-0 update of each, the layer-1 update of the second and the
  output head.
-/
import proofs.«117675_j59828894433623_2_alg».proof.Proof.KernelRun
import proofs.«117675_j59828894433623_2_alg».proof.Proof.KernelKeep
import proofs.«117675_j59828894433623_2_alg».proof.Proof.KernelStages
import proofs.«117675_j59828894433623_2_alg».proof.Proof.KernelReadMid
import proofs.«117675_j59828894433623_2_alg».proof.Proof.KernelReadLate

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.KernelIdeal Cert.KernelIdeal.Facts₀

/-! ## What is assumed of each stage

The five statements below are the hypotheses of this module: each says that a stage leaves in its result array the
dense step of its operand arrays, for ANY contents `V` the stage is entered with. -/

set_option maxHeartbeats 1000000 in
/-- Stage 0's result array after its launch is the input projection of the stage's operand arrays as it found them. -/
def Stage0 : Prop :=
  ∀ (V : (c : Dev nD) → (b : Ref sig .tc) → Buf (Elt Ideal) ((c : Thread nD τ).loc b)) (c : Dev nD),
    (Gen.dat0 (F := Ideal) V c).arrAt 5 cfg0.N = Cert.Sage.proj (V c (Pipeline.arrRef spec0 0)) (V c (Pipeline.arrRef spec0 1)) (V c (Pipeline.arrRef spec0 2)) (V c (Pipeline.arrRef spec0 3)) (V c (Pipeline.arrRef spec0 4))

set_option maxHeartbeats 1000000 in
/-- Stage 1's result array after its launch is the input projection of the stage's operand arrays as it found them. -/
def Stage1 : Prop :=
  ∀ (V : (c : Dev nD) → (b : Ref sig .tc) → Buf (Elt Ideal) ((c : Thread nD τ).loc b)) (c : Dev nD),
    (Gen.dat1 (F := Ideal) V c).arrAt 5 cfg1.N = Cert.Sage.proj (V c (Pipeline.arrRef spec1 0)) (V c (Pipeline.arrRef spec1 1)) (V c (Pipeline.arrRef spec1 2)) (V c (Pipeline.arrRef spec1 3)) (V c (Pipeline.arrRef spec1 4))

set_option maxHeartbeats 1000000 in
/-- Stage 2's result array after its launch is the two-neighbourhood update of the stage's operand arrays as it found them. -/
def Stage2 : Prop :=
  ∀ (V : (c : Dev nD) → (b : Ref sig .tc) → Buf (Elt Ideal) ((c : Thread nD τ).loc b)) (c : Dev nD),
    (Gen.dat2 (F := Ideal) V c).arrAt 9 cfg2.N = Cert.Sage.dual (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))

set_option maxHeartbeats 1000000 in
/-- Stage 3's result array after its launch is the one-neighbourhood update of the stage's operand arrays as it found them. -/
def Stage3 : Prop :=
  ∀ (V : (c : Dev nD) → (b : Ref sig .tc) → Buf (Elt Ideal) ((c : Thread nD τ).loc b)) (c : Dev nD),
    (Gen.dat3 (F := Ideal) V c).arrAt 6 cfg3.N = Cert.Sage.single (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))

set_option maxHeartbeats 1000000 in
/-- Stage 4's result array after its launch is the output head of the two-neighbourhood update of the stage's operand arrays as it found them. -/
def Stage4 : Prop :=
  ∀ (V : (c : Dev nD) → (b : Ref sig .tc) → Buf (Elt Ideal) ((c : Thread nD τ).loc b)) (c : Dev nD),
    (Gen.dat4 (F := Ideal) V c).arrAt 11 cfg4.N = Cert.Sage.head (Cert.Sage.dual (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))) (V c (Pipeline.arrRef spec4 9)) (V c (Pipeline.arrRef spec4 10))

section Value

variable (h0 : Stage0) (h1 : Stage1) (h2 : Stage2) (h3 : Stage3) (h4 : Stage4)
variable (m : (ℓ : Loc nD τ sig) → Buf (Elt Ideal) ℓ) (ρ : Dev nD → PrngReg) (c : Dev nD)

/-! The argument arrays as launched on core `c`, and the four intermediate feature arrays as functions of them:
    both node types' projected inputs, then the layer-0 update of each. -/
set_option quotPrecheck false
local notation "a₀" => m ((c : Thread nD τ).loc main_arg0)
local notation "a₁" => m ((c : Thread nD τ).loc main_arg1)
local notation "a₂" => m ((c : Thread nD τ).loc main_arg2)
local notation "a₃" => m ((c : Thread nD τ).loc main_arg3)
local notation "a₄" => m ((c : Thread nD τ).loc main_arg4)
local notation "a₅" => m ((c : Thread nD τ).loc main_arg5)
local notation "a₆" => m ((c : Thread nD τ).loc main_arg6)
local notation "a₇" => m ((c : Thread nD τ).loc main_arg7)
local notation "a₈" => m ((c : Thread nD τ).loc main_arg8)
local notation "a₉" => m ((c : Thread nD τ).loc main_arg9)
local notation "a₁₀" => m ((c : Thread nD τ).loc main_arg10)
local notation "a₁₁" => m ((c : Thread nD τ).loc main_arg11)
local notation "a₁₂" => m ((c : Thread nD τ).loc main_arg12)
local notation "a₁₃" => m ((c : Thread nD τ).loc main_arg13)
local notation "a₁₄" => m ((c : Thread nD τ).loc main_arg14)
local notation "a₁₅" => m ((c : Thread nD τ).loc main_arg15)
local notation "a₁₆" => m ((c : Thread nD τ).loc main_arg16)
local notation "a₁₇" => m ((c : Thread nD τ).loc main_arg17)
local notation "a₁₈" => m ((c : Thread nD τ).loc main_arg18)
local notation "a₁₉" => m ((c : Thread nD τ).loc main_arg19)
local notation "a₂₀" => m ((c : Thread nD τ).loc main_arg20)
local notation "a₂₁" => m ((c : Thread nD τ).loc main_arg21)
local notation "a₂₂" => m ((c : Thread nD τ).loc main_arg22)
local notation "a₂₃" => m ((c : Thread nD τ).loc main_arg23)
local notation "a₂₄" => m ((c : Thread nD τ).loc main_arg24)
local notation "yA" => yIn a₀ a₁ a₄ a₅
local notation "yP" => yIn a₂ a₃ a₆ a₇
local notation "yP'" => paper0 yA yP a₈ a₉ a₁₀ a₁₄ a₁₅ a₁₆ a₁₉ a₂₀ a₂₃ a₂₄
local notation "yA'" => author0 yP yA a₁₁ a₁₂ a₁₃ a₂₁ a₂₂

/-! ## Stage 0: the first node type's projected input -/

theorem W1_v0 : (Gen.W1 m ρ c (Proc.devRef .tc main_v0)) = wTop a₄ := by
  show StableHlo.after hostOps0 _ (Proc.devRef .tc main_v0) = _
  after_results
  try rfl

theorem W1_v1 : (Gen.W1 m ρ c (Proc.devRef .tc main_v1)) = wBot a₄ := by
  show StableHlo.after hostOps0 _ (Proc.devRef .tc main_v1) = _
  after_results
  try rfl

theorem W1_v2 : (Gen.W1 m ρ c (Proc.devRef .tc main_v2)) = biasRow a₅ := by
  show StableHlo.after hostOps0 _ (Proc.devRef .tc main_v2) = _
  after_results
  try rfl

include h0 in
theorem W2_v3 : (Gen.W2 m ρ c (Proc.devRef .tc main_v3)) = yA := by
  refine (Gen.W2_arr m ρ c 5).trans ((h0 (Gen.V1 m ρ) c).trans ?_)
  show Cert.Sage.proj (Gen.W1 m ρ c (Proc.devRef .tc main_arg0)) (Gen.W1 m ρ c (Proc.devRef .tc main_arg1)) (Gen.W1 m ρ c (Proc.devRef .tc main_v0)) (Gen.W1 m ρ c (Proc.devRef .tc main_v1)) (Gen.W1 m ρ c (Proc.devRef .tc main_v2)) = _
  rw [W1_arg m ρ c main_arg0 (by decide), W1_arg m ρ c main_arg1 (by decide), W1_v0, W1_v1, W1_v2]
  rfl

/-! ## Stage 1: the second node type's projected input -/

theorem W3_v4 : (Gen.W3 m ρ c (Proc.devRef .tc main_v4)) = wTop a₆ := by
  show StableHlo.after hostOps1 _ (Proc.devRef .tc main_v4) = _
  after_results
  rw [W2_arg m ρ c main_arg6 (by decide)]
  try rfl

theorem W3_v5 : (Gen.W3 m ρ c (Proc.devRef .tc main_v5)) = wBot a₆ := by
  show StableHlo.after hostOps1 _ (Proc.devRef .tc main_v5) = _
  after_results
  rw [W2_arg m ρ c main_arg6 (by decide)]
  try rfl

theorem W3_v6 : (Gen.W3 m ρ c (Proc.devRef .tc main_v6)) = biasRow a₇ := by
  show StableHlo.after hostOps1 _ (Proc.devRef .tc main_v6) = _
  after_results
  rw [W2_arg m ρ c main_arg7 (by decide)]
  try rfl

include h1 in
theorem W4_v7 : (Gen.W4 m ρ c (Proc.devRef .tc main_v7)) = yP := by
  refine (Gen.W4_arr m ρ c 5).trans ((h1 (Gen.V3 m ρ) c).trans ?_)
  show Cert.Sage.proj (Gen.W3 m ρ c (Proc.devRef .tc main_arg2)) (Gen.W3 m ρ c (Proc.devRef .tc main_arg3)) (Gen.W3 m ρ c (Proc.devRef .tc main_v4)) (Gen.W3 m ρ c (Proc.devRef .tc main_v5)) (Gen.W3 m ρ c (Proc.devRef .tc main_v6)) = _
  rw [W3_arg m ρ c main_arg2 (by decide), W3_arg m ρ c main_arg3 (by decide), W3_v4, W3_v5, W3_v6]
  rfl
include h0 in
theorem W4_v3 : (Gen.W4 m ρ c (Proc.devRef .tc main_v3)) = yA :=
  (W4_keep m ρ c main_v3 (by decide)).trans ((host1_keep _ main_v3 (by decide)).trans (W2_v3 h0 m ρ c))

/-! ## Stage 2: the second node type's layer-0 update, from both neighbourhood sums -/

include h1 in
theorem W5_v7 : (Gen.W5 m ρ c (Proc.devRef .tc main_v7)) = yP :=
  (host2_keep _ main_v7 (by decide)).trans (W4_v7 h1 m ρ c)

include h0 in
theorem W5_v3 : (Gen.W5 m ρ c (Proc.devRef .tc main_v3)) = yA :=
  (host2_keep _ main_v3 (by decide)).trans (W4_v3 h0 m ρ c)

include h0 h1 h2 in
theorem W6_v83 : (Gen.W6 m ρ c (Proc.devRef .tc main_v83)) = yP' := by
  refine (Gen.W6_arr m ρ c 9).trans ((h2 (Gen.V5 m ρ) c).trans ?_)
  show Cert.Sage.dual (Gen.W5 m ρ c (Proc.devRef .tc main_v45)) (Gen.W5 m ρ c (Proc.devRef .tc main_v16)) (Gen.W5 m ρ c (Proc.devRef .tc main_v56)) (Gen.W5 m ρ c (Proc.devRef .tc main_v25)) (Gen.W5 m ρ c (Proc.devRef .tc main_v7)) (Gen.W5 m ρ c (Proc.devRef .tc main_v79)) (Gen.W5 m ρ c (Proc.devRef .tc main_v81)) (Gen.W5 m ρ c (Proc.devRef .tc main_v61)) (Gen.W5 m ρ c (Proc.devRef .tc main_v82)) = _
  rw [W5_v45 m ρ c, W5_v16 m ρ c, W5_v56 m ρ c, W5_v25 m ρ c, W5_v7 h1 m ρ c, W5_v79 m ρ c, W5_v81 m ρ c, W5_v61 m ρ c, W5_v82 m ρ c,
    W4_v3 h0 m ρ c, W4_v7 h1 m ρ c, W4_arg m ρ c main_arg19 (by decide), W4_arg m ρ c main_arg20 (by decide), W4_arg m ρ c main_arg23 (by decide), W4_arg m ρ c main_arg24 (by decide), W4_arg m ρ c main_arg8 (by decide), W4_arg m ρ c main_arg14 (by decide), W4_arg m ρ c main_arg10 (by decide), W4_arg m ρ c main_arg16 (by decide), W4_arg m ρ c main_arg9 (by decide), W4_arg m ρ c main_arg15 (by decide)]
  rfl

/-! ## Stage 3: the first node type's layer-0 update, from its one neighbourhood sum -/

include h1 in
theorem W7_v77 : (Gen.W7 m ρ c (Proc.devRef .tc main_v77)) = agg yP a₂₁ a₂₂ := by
  refine (host3_keep _ main_v77 (by decide)).trans ((W6_keep m ρ c main_v77 (by decide)).trans ((W5_v77 m ρ c).trans ?_))
  rw [W4_v7 h1 m ρ c, W4_arg m ρ c main_arg21 (by decide), W4_arg m ρ c main_arg22 (by decide)]
theorem W7_v34 : (Gen.W7 m ρ c (Proc.devRef .tc main_v34)) = inv a₂₂ := by
  refine (host3_keep _ main_v34 (by decide)).trans ((W6_keep m ρ c main_v34 (by decide)).trans ((W5_v34 m ρ c).trans ?_))
  rw [W4_arg m ρ c main_arg22 (by decide)]
include h0 in
theorem W7_v3 : (Gen.W7 m ρ c (Proc.devRef .tc main_v3)) = yA :=
  (host3_keep _ main_v3 (by decide)).trans ((W6_keep m ρ c main_v3 (by decide)).trans (W5_v3 h0 m ρ c))

include h0 h1 h3 in
theorem W8_v91 : (Gen.W8 m ρ c (Proc.devRef .tc main_v91)) = yA' := by
  refine (Gen.W8_arr m ρ c 6).trans ((h3 (Gen.V7 m ρ) c).trans ?_)
  show Cert.Sage.single (Gen.W7 m ρ c (Proc.devRef .tc main_v77)) (Gen.W7 m ρ c (Proc.devRef .tc main_v34)) (Gen.W7 m ρ c (Proc.devRef .tc main_v3)) (Gen.W7 m ρ c (Proc.devRef .tc main_v85)) (Gen.W7 m ρ c (Proc.devRef .tc main_v87)) (Gen.W7 m ρ c (Proc.devRef .tc main_v90)) = _
  rw [W7_v77 h1 m ρ c, W7_v34 m ρ c, W7_v3 h0 m ρ c, W7_v85 m ρ c, W7_v87 m ρ c, W7_v90 m ρ c,
    W6_arg m ρ c main_arg11 (by decide), W6_arg m ρ c main_arg13 (by decide), W6_arg m ρ c main_arg12 (by decide)]
  rfl

/-! ## Stage 4: the second node type's layer-1 update and the output head -/

include h0 h1 h2 in
theorem W9_v83 : (Gen.W9 m ρ c (Proc.devRef .tc main_v83)) = yP' :=
  (host4_keep _ main_v83 (by decide)).trans ((W8_keep m ρ c main_v83 (by decide)).trans ((host3_keep _ main_v83 (by decide)).trans (W6_v83 h0 h1 h2 m ρ c)))

theorem W9_v16 : (Gen.W9 m ρ c (Proc.devRef .tc main_v16)) = inv a₂₀ := by
  refine (host4_keep _ main_v16 (by decide)).trans ((W8_keep m ρ c main_v16 (by decide)).trans ((host3_keep _ main_v16 (by decide)).trans ((W6_keep m ρ c main_v16 (by decide)).trans ((W5_v16 m ρ c).trans ?_))))
  rw [W4_arg m ρ c main_arg20 (by decide)]
theorem W9_v25 : (Gen.W9 m ρ c (Proc.devRef .tc main_v25)) = inv a₂₄ := by
  refine (host4_keep _ main_v25 (by decide)).trans ((W8_keep m ρ c main_v25 (by decide)).trans ((host3_keep _ main_v25 (by decide)).trans ((W6_keep m ρ c main_v25 (by decide)).trans ((W5_v25 m ρ c).trans ?_))))
  rw [W4_arg m ρ c main_arg24 (by decide)]
include h0 h1 h2 in
theorem W8_v83 : (Gen.W8 m ρ c (Proc.devRef .tc main_v83)) = yP' :=
  (W8_keep m ρ c main_v83 (by decide)).trans ((host3_keep _ main_v83 (by decide)).trans (W6_v83 h0 h1 h2 m ρ c))

include h0 h1 h2 h3 h4 in
/-- The program's result buffer at the last boundary is the closed function `kout` of the 25 argument arrays. -/
theorem result_eq : Gen.W10 (F := Ideal) m ρ c (Proc.devRef .tc main_v130)
    = kout a₀ a₁ a₂ a₃ a₄ a₅ a₆ a₇ a₈ a₉ a₁₀ a₁₁ a₁₂ a₁₃ a₁₄ a₁₅ a₁₆ a₁₇ a₁₈ a₁₉ a₂₀ a₂₁ a₂₂ a₂₃ a₂₄ := by
  refine (Gen.W10_arr m ρ c 11).trans ((h4 (Gen.V9 m ρ) c).trans ?_)
  show Cert.Sage.head (Cert.Sage.dual (Gen.W9 m ρ c (Proc.devRef .tc main_v102)) (Gen.W9 m ρ c (Proc.devRef .tc main_v16)) (Gen.W9 m ρ c (Proc.devRef .tc main_v113)) (Gen.W9 m ρ c (Proc.devRef .tc main_v25)) (Gen.W9 m ρ c (Proc.devRef .tc main_v83)) (Gen.W9 m ρ c (Proc.devRef .tc main_v125)) (Gen.W9 m ρ c (Proc.devRef .tc main_v127)) (Gen.W9 m ρ c (Proc.devRef .tc main_v118)) (Gen.W9 m ρ c (Proc.devRef .tc main_v128)))
      (Gen.W9 m ρ c (Proc.devRef .tc main_arg17)) (Gen.W9 m ρ c (Proc.devRef .tc main_v129)) = _
  rw [W9_v102 m ρ c, W9_v16 m ρ c, W9_v113 m ρ c, W9_v25 m ρ c, W9_v83 h0 h1 h2 m ρ c, W9_v125 m ρ c, W9_v127 m ρ c,
    W9_v118 m ρ c, W9_v128 m ρ c, W9_arg m ρ c main_arg17 (by decide), W9_v129 m ρ c,
    W8_v91 h0 h1 h3 m ρ c, W8_v83 h0 h1 h2 m ρ c, W8_arg m ρ c main_arg19 (by decide), W8_arg m ρ c main_arg20 (by decide), W8_arg m ρ c main_arg23 (by decide), W8_arg m ρ c main_arg24 (by decide), W8_arg m ρ c main_arg8 (by decide), W8_arg m ρ c main_arg14 (by decide), W8_arg m ρ c main_arg10 (by decide), W8_arg m ρ c main_arg16 (by decide), W8_arg m ρ c main_arg9 (by decide), W8_arg m ρ c main_arg15 (by decide), W8_arg m ρ c main_arg18 (by decide)]
  rfl

end Value

section Run

variable (h0 : Stage0) (h1 : Stage1) (h2 : Stage2) (h3 : Stage3) (h4 : Stage4)
variable (m : (ℓ : Loc nD τ sig) → Buf (Elt Ideal) ℓ) (ρ : Dev nD → PrngReg)

include h0 h1 h2 h3 h4 in
/-- The program's run at the ideal instance: every weakly fair execution terminates without fault, the result buffer
    ends at `kout` of the 25 argument arrays, and every argument array ends as launched. -/
theorem run_value :
    θ_run defs (onTc (τ := τ) (main (F := Ideal))) ⟨m, fun _ => 0, ρ⟩ (fun r => ∀ c : Dev nD,
      r.2.mem ((c.tc : Thread nD τ).loc main_v130)
        = kout (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
            (m ((c.tc : Thread nD τ).loc main_arg21))
            (m ((c.tc : Thread nD τ).loc main_arg22))
            (m ((c.tc : Thread nD τ).loc main_arg23))
            (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨(h c).1.trans (result_eq h0 h1 h2 h3 h4 m ρ c), (h c).2⟩) (run_W10 m ρ)

end Run

end Cert.KernelIdeal.Whole

end
-- ==== Proof.RegionProjPay.lean ====
/-
  The arithmetic of one row tile of an input projection.

  On a tile of 5000 rows the body forms each 32-column feature half against its 32-row weight half (an exact
  sum of 32 products per entry, into a zero accumulator), adds the two, adds the bias row to every row, and
  clamps below at zero. The changes of float format along the way are the identity on the extended reals.
  Both projections have this same body. An entry of the result depends on its own row of the features only,
  which is what lets a tile stand for the same rows of the whole array.
-/
import proofs.«117675_j59828894433623_2_alg».proof.Proof.Gen.KernelIdeal.Skeleton
import proofs.«117675_j59828894433623_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Cert.KernelIdeal Cert.KernelIdeal.Gen
open Idealize.ShloMosaic.Pipeline (Dat)

namespace Cert.KernelIdeal.RegionProj

/-! ## One tile product at an entry -/

/-- The left operand's index of the tile product: the output's row, -/
theorem lhs_row (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
/-- and the summed coordinate as its column. -/
theorem lhs_col (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
/-- The right operand's index: the summed coordinate as its row, -/
theorem rhs_row (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
/-- and the output's column. -/
theorem rhs_col (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- One tile product into a zero accumulator, at row `p` and column `q`: the sum over the 32 shared
    coordinates of the products. -/
theorem tileDot (x : FVec Ideal S5000x32 .bf16) (w : FVec Ideal S32x64 .bf16) (p : Fin 5000) (q : Fin 64) :
    matmul (F := Ideal) dot_S5000x32_S32x64_S5000x64_1_0_0_1_n_n none x w (constant (F := Ideal) S5000x64 .f32 0x00000000#32) (ix2 p q)
      = Cert.Sage.dot (R := 5000) (K := 32) (C := 64) x w p q := by
  unfold Cert.Sage.dot
  simp only [matmul]
  rw [Ideal.matmul_constant_zero_apply, ← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx (ix2 p q) ((ValueIdx.contrEquiv1 dot_S5000x32_S32x64_S5000x64_1_0_0_1_n_n 32 rfl rfl).symm k) = ix2 p k := funext fun a => Fin.ext (by
    match a with
    | ⟨0, _⟩ => exact lhs_row _ _
    | ⟨1, _⟩ => exact (lhs_col _ _).trans hk)
  have er : dot_S5000x32_S32x64_S5000x64_1_0_0_1_n_n.rhsIdx (ix2 p q) ((ValueIdx.contrEquiv1 dot_S5000x32_S32x64_S5000x64_1_0_0_1_n_n 32 rfl rfl).symm k) = ix2 k q := funext fun a => Fin.ext (by
    match a with
    | ⟨0, _⟩ => exact (rhs_row _ _).trans hk
    | ⟨1, _⟩ => exact rhs_col _ _)
  rw [el, er]

/-! ## The body's arithmetic on one tile -/

/-- The body of the first projection on one tile: both feature halves against their weight halves, plus
    the bias row, clamped below at zero (the changes of float format are the identity on the extended
    reals, and the clamp's constant is zero). -/
theorem pay0 (x0 x1 : Vec Ideal S5000x32 .f32) (x2 x3 : Vec Ideal S32x64 .f32) (x4 : Vec Ideal S1x64 .f32) :
    Gen.k0_pay1 (F := Ideal) x0 x1 x2 x3 x4 = Cert.Sage.proj x0 x1 x2 x3 x4 := by
  funext j
  obtain ⟨p, q, rfl⟩ : ∃ (p : Fin 5000) (q : Fin 64), j = ix2 p q := ⟨j 0, j 1, eq_ix2 j⟩
  rw [Cert.Sage.proj_apply]
  unfold Gen.k0_pay1
  simp only [shapeCast_self]
  show max (matmul (F := Ideal) dot_S5000x32_S32x64_S5000x64_1_0_0_1_n_n none (x0 : FVec Ideal S5000x32 .bf16) (x2 : FVec Ideal S32x64 .bf16) (constant (F := Ideal) S5000x64 .f32 0x00000000#32) (ix2 p q)
      + matmul (F := Ideal) dot_S5000x32_S32x64_S5000x64_1_0_0_1_n_n none (x1 : FVec Ideal S5000x32 .bf16) (x3 : FVec Ideal S32x64 .bf16) (constant (F := Ideal) S5000x64 .f32 0x00000000#32) (ix2 p q)
      + broadcastTo S5000x64 x4 broadcasts_S1x64_S5000x64 (ix2 p q)) (Ideal.ofBits .f32 0x00000000#32) = _
  rw [tileDot, tileDot, broadcastTo_1b_ab_apply, Ideal.ofBits_zero_f32]

/-- The body of the second projection on one tile (the same arithmetic): both feature halves against their weight halves, plus
    the bias row, clamped below at zero (the changes of float format are the identity on the extended
    reals, and the clamp's constant is zero). -/
theorem pay1 (x0 x1 : Vec Ideal S5000x32 .f32) (x2 x3 : Vec Ideal S32x64 .f32) (x4 : Vec Ideal S1x64 .f32) :
    Gen.k1_pay1 (F := Ideal) x0 x1 x2 x3 x4 = Cert.Sage.proj x0 x1 x2 x3 x4 := by
  funext j
  obtain ⟨p, q, rfl⟩ : ∃ (p : Fin 5000) (q : Fin 64), j = ix2 p q := ⟨j 0, j 1, eq_ix2 j⟩
  rw [Cert.Sage.proj_apply]
  unfold Gen.k1_pay1
  simp only [shapeCast_self]
  show max (matmul (F := Ideal) dot_S5000x32_S32x64_S5000x64_1_0_0_1_n_n none (x0 : FVec Ideal S5000x32 .bf16) (x2 : FVec Ideal S32x64 .bf16) (constant (F := Ideal) S5000x64 .f32 0x00000000#32) (ix2 p q)
      + matmul (F := Ideal) dot_S5000x32_S32x64_S5000x64_1_0_0_1_n_n none (x1 : FVec Ideal S5000x32 .bf16) (x3 : FVec Ideal S32x64 .bf16) (constant (F := Ideal) S5000x64 .f32 0x00000000#32) (ix2 p q)
      + broadcastTo S5000x64 x4 broadcasts_S1x64_S5000x64 (ix2 p q)) (Ideal.ofBits .f32 0x00000000#32) = _
  rw [tileDot, tileDot, broadcastTo_1b_ab_apply, Ideal.ofBits_zero_f32]

/-! ## From tiles to the whole array -/

theorem hz : (![0, 0] : Fin 2 → Nat) = fun _ => 0 := funext fun a => by fin_cases a <;> rfl

/-- Row `p` of a tile's projection is row `n` of the whole array's, when row `p` of each feature tile is
    row `n` of the feature array and the weights and the bias row agree: an entry depends on its own row of
    the features only. -/
theorem proj_row {R : Nat} (A0 A1 : Cert.Sage.Mat R 32) (x0 x1 : Cert.Sage.Mat 5000 32) (w0 w1 w0' w1' : Cert.Sage.Mat 32 64)
    (b b' : Cert.Sage.Mat 1 64) (p : Fin 5000) (n : Fin R) (q : Fin 64)
    (h0 : ∀ k : Fin 32, x0 (ix2 p k) = A0 (ix2 n k)) (h1 : ∀ k : Fin 32, x1 (ix2 p k) = A1 (ix2 n k))
    (hw0 : ∀ k : Fin 32, w0 (ix2 k q) = w0' (ix2 k q)) (hw1 : ∀ k : Fin 32, w1 (ix2 k q) = w1' (ix2 k q))
    (hb : b (ix2 0 q) = b' (ix2 0 q)) :
    Cert.Sage.proj x0 x1 w0 w1 b (ix2 p q) = Cert.Sage.proj A0 A1 w0' w1' b' (ix2 n q) := by
  rw [Cert.Sage.proj_apply, Cert.Sage.proj_apply]
  unfold Cert.Sage.dot
  simp only [h0, h1, hw0, hw1, hb]

end Cert.KernelIdeal.RegionProj

end
-- ==== Proof.RegionProj0.lean ====
/-
  The first input projection over the whole array.

  Its 20 points each take rows `5000·t … 5000·t + 4999` of the two feature arrays, the whole of both weight
  halves and of the bias row, and write back the same rows of the result. Row `n` of the projection depends on
  row `n` of the features only, so what point `t` writes is tile `t` of the projection of the whole arrays;
  every row `r` lies in tile `r / 5000`, so after the last point the result array is that projection.
-/
import proofs.«117675_j59828894433623_2_alg».proof.Proof.Gen.KernelIdeal.Frame
import proofs.«117675_j59828894433623_2_alg».proof.Proof.RegionProjPay

set_option maxRecDepth 16384

noncomputable section

open Idealize.ShloMosaic Idealize.ShloMosaic.TcCoe Idealize.ShloMosaic.ValueIdx Idealize.SL.Sem
open Cert.KernelIdeal Cert.KernelIdeal.Gen
open Idealize.ShloMosaic.Pipeline (Dat)

namespace Cert.KernelIdeal.RegionProj

section Region0

variable (V : (c : Dev nD) → (b : Ref sig .tc) → Buf (Elt Ideal) ((c : Thread nD τ).loc b))

/-- The printed index maps of the first projection, decided over its 20 points: tile `t` of the two feature
    arrays and of the result starts at row block `t`; the weights and the bias row are whole at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Tile `t` of the first feature half is rows `5000·t … 5000·t + 4999` of its array. -/
theorem tile0_0 (c : Dev nD) (t : Fin cfg0.N) (x : S5000x32.Idx) (k : S100000x32.Idx)
    (hk0 : (k 0).val = 5000 * t.val + (x 0).val) (hk1 : (k 1).val = (x 1).val) :
    (iblk0 V c 0 t : Vec Ideal S5000x32 .f32) x = (V c (Pipeline.arrRef spec0 0) : S100000x32.Idx → Elt Ideal .f32) k := by
  obtain ⟨e0, e1, -⟩ := idx0 t
  unfold iblk0
  rw [View.read_apply]
  refine congrArg (V c (Pipeline.arrRef spec0 0)) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 32 + 1 * (x 1).val = (k 1).val; rw [e1, hk1]; omega

/-- Tile `t` of the second feature half is rows `5000·t … 5000·t + 4999` of its array. -/
theorem tile0_1 (c : Dev nD) (t : Fin cfg0.N) (x : S5000x32.Idx) (k : S100000x32.Idx)
    (hk0 : (k 0).val = 5000 * t.val + (x 0).val) (hk1 : (k 1).val = (x 1).val) :
    (iblk0 V c 1 t : Vec Ideal S5000x32 .f32) x = (V c (Pipeline.arrRef spec0 1) : S100000x32.Idx → Elt Ideal .f32) k := by
  obtain ⟨-, -, e0, e1, -⟩ := idx0 t
  unfold iblk0
  rw [View.read_apply]
  refine congrArg (V c (Pipeline.arrRef spec0 1)) (funext fun a => Fin.ext ?_)
  match a with
  | ⟨0, _⟩ => show win0_1.index t (0 : Fin 2) * 5000 + 1 * (x 0).val = (k 0).val; rw [e0, hk0]; omega
  | ⟨1, _⟩ => show win0_1.index t (1 : Fin 2) * 32 + 1 * (x 1).val = (k 1).val; rw [e1, hk1]; omega

/-- The first weight half's block is the whole weight at every point. -/
theorem tile0_2 (c : Dev nD) (t : Fin cfg0.N) (x : S32x64.Idx) :
    (iblk0 V c 2 t : Vec Ideal S32x64 .f32) x = (V c (Pipeline.arrRef spec0 2) : S32x64.Idx → Elt Ideal .f32) x := by
  obtain ⟨-, -, -, -, e0, e1, -⟩ := idx0 t
  unfold iblk0
  rw [View.read_apply]
  refine congrArg (V c (Pipeline.arrRef spec0 2)) (funext fun a => Fin.ext ?_)
  match a with
  | ⟨0, _⟩ => show win0_2.index t (0 : Fin 2) * 32 + 1 * (x 0).val = (x 0).val; rw [e0]; omega
  | ⟨1, _⟩ => show win0_2.index t (1 : Fin 2) * 64 + 1 * (x 1).val = (x 1).val; rw [e1]; omega

/-- The second weight half's block is the whole weight at every point. -/
theorem tile0_3 (c : Dev nD) (t : Fin cfg0.N) (x : S32x64.Idx) :
    (iblk0 V c 3 t : Vec Ideal S32x64 .f32) x = (V c (Pipeline.arrRef spec0 3) : S32x64.Idx → Elt Ideal .f32) x := by
  obtain ⟨-, -, -, -, -, -, e0, e1, -⟩ := idx0 t
  unfold iblk0
  rw [View.read_apply]
  refine congrArg (V c (Pipeline.arrRef spec0 3)) (funext fun a => Fin.ext ?_)
  match a with
  | ⟨0, _⟩ => show win0_3.index t (0 : Fin 2) * 32 + 1 * (x 0).val = (x 0).val; rw [e0]; omega
  | ⟨1, _⟩ => show win0_3.index t (1 : Fin 2) * 64 + 1 * (x 1).val = (x 1).val; rw [e1]; omega

/-- The bias row's block is the whole row at every point. -/
theorem tile0_4 (c : Dev nD) (t : Fin cfg0.N) (x : S1x64.Idx) :
    (iblk0 V c 4 t : Vec Ideal S1x64 .f32) x = (V c (Pipeline.arrRef spec0 4) : S1x64.Idx → Elt Ideal .f32) x := by
  obtain ⟨-, -, -, -, -, -, -, -, e0, e1, -⟩ := idx0 t
  unfold iblk0
  rw [View.read_apply]
  refine congrArg (V c (Pipeline.arrRef spec0 4)) (funext fun a => Fin.ext ?_)
  match a with
  | ⟨0, _⟩ => show win0_4.index t (0 : Fin 2) * 1 + 1 * (x 0).val = (x 0).val; rw [e0]; omega
  | ⟨1, _⟩ => show win0_4.index t (1 : Fin 2) * 64 + 1 * (x 1).val = (x 1).val; rw [e1]; omega

/-- What point `t` writes back is tile `t` of the projection of the whole arrays. -/
theorem flushed0 (c : Dev nD) (t : Fin cfg0.N) :
    (dat0 (F := Ideal) V c).flushed 5 t = ((cfg0.win 5).blk t).view.read (Elt Ideal)
      (Cert.Sage.proj (R := 100000) (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S5000x32) hz, View.ld_unit_zero (S := S32x64) hz, View.ld_unit_zero (S := S1x64) hz]
  rw [pay0]
  funext j
  obtain ⟨p, q, rfl⟩ : ∃ (p : Fin 5000) (q : Fin 64), j = ix2 p q := ⟨j 0, j 1, eq_ix2 j⟩
  have hN : cfg0.N = 20 := N_0
  have ht : t.val < 20 := by have := t.isLt; omega
  obtain ⟨-, -, -, -, -, -, -, -, -, -, e0, e1⟩ := idx0 t
  rw [View.read_apply]
  have hemb : ((cfg0.win 5).blk t).view.emb (ix2 p q) = ix2 (⟨5000 * t.val + p.val, by have := p.isLt; omega⟩ : Fin 100000) q := by
    funext a; apply Fin.ext
    match a with
    | ⟨0, _⟩ => show win0_5.index t (0 : Fin 2) * 5000 + 1 * p.val = 5000 * t.val + p.val; rw [e0]; omega
    | ⟨1, _⟩ => show win0_5.index t (1 : Fin 2) * 64 + 1 * q.val = q.val; rw [e1]; omega
  rw [hemb]
  exact proj_row (V c (Pipeline.arrRef spec0 0)) (V c (Pipeline.arrRef spec0 1)) (iblk0 V c 0 t) (iblk0 V c 1 t)
    (iblk0 V c 2 t) (iblk0 V c 3 t) (V c (Pipeline.arrRef spec0 2)) (V c (Pipeline.arrRef spec0 3))
    (iblk0 V c 4 t) (V c (Pipeline.arrRef spec0 4)) p _ q
    (fun k => tile0_0 V c t (ix2 p k) _ rfl rfl) (fun k => tile0_1 V c t (ix2 p k) _ rfl rfl)
    (fun k => tile0_2 V c t (ix2 k q)) (fun k => tile0_3 V c t (ix2 k q)) (tile0_4 V c t (ix2 0 q))

/-- The result array of the first projection after its 20 points: the projection of the whole arrays — every
    row `r` lies in tile `r / 5000`, and every tile is written back. -/
theorem final0 (c : Dev nD) :
    (dat0 (F := Ideal) V c).arrAt 5 cfg0.N
      = Cert.Sage.proj (R := 100000) (V c (Pipeline.arrRef spec0 0)) (V c (Pipeline.arrRef spec0 1)) (V c (Pipeline.arrRef spec0 2)) (V c (Pipeline.arrRef spec0 3)) (V c (Pipeline.arrRef spec0 4)) :=
  (dat0 (F := Ideal) V c).arrAt_eq_of_cover 5 _ (fun t _ => flushed0 V c t) fun i => by
    have hi0 : (i 0).val < 100000 := (i 0).isLt
    have hi1 : (i 1).val < 64 := (i 1).isLt
    have hN : cfg0.N = 20 := N_0
    obtain ⟨t, ht⟩ : ∃ t : Fin cfg0.N, t.val = (i 0).val / 5000 := ⟨⟨(i 0).val / 5000, by omega⟩, rfl⟩
    obtain ⟨-, -, -, -, -, -, -, -, -, -, e0, e1⟩ := idx0 t
    refine ⟨t, flush0_5 t, ?_⟩
    show i ∈ ((View.whole main_v3).slice (win0_5.rect t)).set
    rw [View.set_slice_whole, Rect.mem_set_unit]
    intro a
    match a with
    | ⟨0, _⟩ => show win0_5.index t (0 : Fin 2) * 5000 ≤ (i 0).val ∧ (i 0).val < win0_5.index t (0 : Fin 2) * 5000 + 5000; rw [e0, ht]; omega
    | ⟨1, _⟩ => show win0_5.index t (1 : Fin 2) * 64 ≤ (i 1).val ∧ (i 1).val < win0_5.index t (1 : Fin 2) * 64 + 64; rw [e1]; omega

end Region0

end Cert.KernelIdeal.RegionProj

end
-- ==== Proof.RegionProj1.lean ====
/-
  The second input projection over the whole array.

  Its 20 points each take rows `5000·t … 5000·t + 4999` of the two feature arrays, the whole of both weight
  halves and of the bias row, and write back the same rows of the result. Row `n` of the projection depends on
  row `n` of the features only, so what point `t` writes is tile `t` of the projection of the whole arrays;
  every row `r` lies in tile `r / 5000`, so after the last point the result array is that projection.
-/
import proofs.«117675_j59828894433623_2_alg».proof.Proof.Gen.KernelIdeal.Frame
import proofs.«117675_j59828894433623_2_alg».proof.Proof.RegionProjPay

set_option maxRecDepth 16384

noncomputable section

open Idealize.ShloMosaic Idealize.ShloMosaic.TcCoe Idealize.ShloMosaic.ValueIdx Idealize.SL.Sem
open Cert.KernelIdeal Cert.KernelIdeal.Gen
open Idealize.ShloMosaic.Pipeline (Dat)

namespace Cert.KernelIdeal.RegionProj

section Region1

variable (V : (c : Dev nD) → (b : Ref sig .tc) → Buf (Elt Ideal) ((c : Thread nD τ).loc b))

/-- The printed index maps of the second projection, decided over its 20 points: tile `t` of the two feature
    arrays and of the result starts at row block `t`; the weights and the bias row are whole at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Tile `t` of the first feature half is rows `5000·t … 5000·t + 4999` of its array. -/
theorem tile1_0 (c : Dev nD) (t : Fin cfg1.N) (x : S5000x32.Idx) (k : S100000x32.Idx)
    (hk0 : (k 0).val = 5000 * t.val + (x 0).val) (hk1 : (k 1).val = (x 1).val) :
    (iblk1 V c 0 t : Vec Ideal S5000x32 .f32) x = (V c (Pipeline.arrRef spec1 0) : S100000x32.Idx → Elt Ideal .f32) k := by
  obtain ⟨e0, e1, -⟩ := idx1 t
  unfold iblk1
  rw [View.read_apply]
  refine congrArg (V c (Pipeline.arrRef spec1 0)) (funext fun a => Fin.ext ?_)
  match a with
  | ⟨0, _⟩ => show win1_0.index t (0 : Fin 2) * 5000 + 1 * (x 0).val = (k 0).val; rw [e0, hk0]; omega
  | ⟨1, _⟩ => show win1_0.index t (1 : Fin 2) * 32 + 1 * (x 1).val = (k 1).val; rw [e1, hk1]; omega

/-- Tile `t` of the second feature half is rows `5000·t … 5000·t + 4999` of its array. -/
theorem tile1_1 (c : Dev nD) (t : Fin cfg1.N) (x : S5000x32.Idx) (k : S100000x32.Idx)
    (hk0 : (k 0).val = 5000 * t.val + (x 0).val) (hk1 : (k 1).val = (x 1).val) :
    (iblk1 V c 1 t : Vec Ideal S5000x32 .f32) x = (V c (Pipeline.arrRef spec1 1) : S100000x32.Idx → Elt Ideal .f32) k := by
  obtain ⟨-, -, e0, e1, -⟩ := idx1 t
  unfold iblk1
  rw [View.read_apply]
  refine congrArg (V c (Pipeline.arrRef spec1 1)) (funext fun a => Fin.ext ?_)
  match a with
  | ⟨0, _⟩ => show win1_1.index t (0 : Fin 2) * 5000 + 1 * (x 0).val = (k 0).val; rw [e0, hk0]; omega
  | ⟨1, _⟩ => show win1_1.index t (1 : Fin 2) * 32 + 1 * (x 1).val = (k 1).val; rw [e1, hk1]; omega

/-- The first weight half's block is the whole weight at every point. -/
theorem tile1_2 (c : Dev nD) (t : Fin cfg1.N) (x : S32x64.Idx) :
    (iblk1 V c 2 t : Vec Ideal S32x64 .f32) x = (V c (Pipeline.arrRef spec1 2) : S32x64.Idx → Elt Ideal .f32) x := by
  obtain ⟨-, -, -, -, e0, e1, -⟩ := idx1 t
  unfold iblk1
  rw [View.read_apply]
  refine congrArg (V c (Pipeline.arrRef spec1 2)) (funext fun a => Fin.ext ?_)
  match a with
  | ⟨0, _⟩ => show win1_2.index t (0 : Fin 2) * 32 + 1 * (x 0).val = (x 0).val; rw [e0]; omega
  | ⟨1, _⟩ => show win1_2.index t (1 : Fin 2) * 64 + 1 * (x 1).val = (x 1).val; rw [e1]; omega

/-- The second weight half's block is the whole weight at every point. -/
theorem tile1_3 (c : Dev nD) (t : Fin cfg1.N) (x : S32x64.Idx) :
    (iblk1 V c 3 t : Vec Ideal S32x64 .f32) x = (V c (Pipeline.arrRef spec1 3) : S32x64.Idx → Elt Ideal .f32) x := by
  obtain ⟨-, -, -, -, -, -, e0, e1, -⟩ := idx1 t
  unfold iblk1
  rw [View.read_apply]
  refine congrArg (V c (Pipeline.arrRef spec1 3)) (funext fun a => Fin.ext ?_)
  match a with
  | ⟨0, _⟩ => show win1_3.index t (0 : Fin 2) * 32 + 1 * (x 0).val = (x 0).val; rw [e0]; omega
  | ⟨1, _⟩ => show win1_3.index t (1 : Fin 2) * 64 + 1 * (x 1).val = (x 1).val; rw [e1]; omega

/-- The bias row's block is the whole row at every point. -/
theorem tile1_4 (c : Dev nD) (t : Fin cfg1.N) (x : S1x64.Idx) :
    (iblk1 V c 4 t : Vec Ideal S1x64 .f32) x = (V c (Pipeline.arrRef spec1 4) : S1x64.Idx → Elt Ideal .f32) x := by
  obtain ⟨-, -, -, -, -, -, -, -, e0, e1, -⟩ := idx1 t
  unfold iblk1
  rw [View.read_apply]
  refine congrArg (V c (Pipeline.arrRef spec1 4)) (funext fun a => Fin.ext ?_)
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- What point `t` writes back is tile `t` of the projection of the whole arrays. -/
theorem flushed1 (c : Dev nD) (t : Fin cfg1.N) :
    (dat1 (F := Ideal) V c).flushed 5 t = ((cfg1.win 5).blk t).view.read (Elt Ideal)
      (Cert.Sage.proj (R := 100000) (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S5000x32) hz, View.ld_unit_zero (S := S32x64) hz, View.ld_unit_zero (S := S1x64) hz]
  rw [pay1]
  funext j
  obtain ⟨p, q, rfl⟩ : ∃ (p : Fin 5000) (q : Fin 64), j = ix2 p q := ⟨j 0, j 1, eq_ix2 j⟩
  have hN : cfg1.N = 20 := N_1
  have ht : t.val < 20 := by have := t.isLt; omega
  obtain ⟨-, -, -, -, -, -, -, -, -, -, e0, e1⟩ := idx1 t
  rw [View.read_apply]
  have hemb : ((cfg1.win 5).blk t).view.emb (ix2 p q) = ix2 (⟨5000 * t.val + p.val, by have := p.isLt; omega⟩ : Fin 100000) q := by
    funext a; apply Fin.ext
    match a with
    | ⟨0, _⟩ => show win1_5.index t (0 : Fin 2) * 5000 + 1 * p.val = 5000 * t.val + p.val; rw [e0]; omega
    | ⟨1, _⟩ => show win1_5.index t (1 : Fin 2) * 64 + 1 * q.val = q.val; rw [e1]; omega
  rw [hemb]
  exact proj_row (V c (Pipeline.arrRef spec1 0)) (V c (Pipeline.arrRef spec1 1)) (iblk1 V c 0 t) (iblk1 V c 1 t)
    (iblk1 V c 2 t) (iblk1 V c 3 t) (V c (Pipeline.arrRef spec1 2)) (V c (Pipeline.arrRef spec1 3))
    (iblk1 V c 4 t) (V c (Pipeline.arrRef spec1 4)) p _ q
    (fun k => tile1_0 V c t (ix2 p k) _ rfl rfl) (fun k => tile1_1 V c t (ix2 p k) _ rfl rfl)
    (fun k => tile1_2 V c t (ix2 k q)) (fun k => tile1_3 V c t (ix2 k q)) (tile1_4 V c t (ix2 0 q))

/-- The result array of the second projection after its 20 points: the projection of the whole arrays — every
    row `r` lies in tile `r / 5000`, and every tile is written back. -/
theorem final1 (c : Dev nD) :
    (dat1 (F := Ideal) V c).arrAt 5 cfg1.N
      = Cert.Sage.proj (R := 100000) (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed1 V c t) fun i => by
    have hi0 : (i 0).val < 100000 := (i 0).isLt
    have hi1 : (i 1).val < 64 := (i 1).isLt
    have hN : cfg1.N = 20 := N_1
    obtain ⟨t, ht⟩ : ∃ t : Fin cfg1.N, t.val = (i 0).val / 5000 := ⟨⟨(i 0).val / 5000, by omega⟩, rfl⟩
    obtain ⟨-, -, -, -, -, -, -, -, -, -, e0, e1⟩ := idx1 t
    refine ⟨t, flush1_5 t, ?_⟩
    show i ∈ ((View.whole main_v7).slice (win1_5.rect t)).set
    rw [View.set_slice_whole, Rect.mem_set_unit]
    intro a
    match a with
    | ⟨0, _⟩ => show win1_5.index t (0 : Fin 2) * 5000 ≤ (i 0).val ∧ (i 0).val < win1_5.index t (0 : Fin 2) * 5000 + 5000; rw [e0, ht]; omega
    | ⟨1, _⟩ => show win1_5.index t (1 : Fin 2) * 64 ≤ (i 1).val ∧ (i 1).val < win1_5.index t (1 : Fin 2) * 64 + 64; rw [e1]; omega

end Region1

end Cert.KernelIdeal.RegionProj

end
-- ==== Proof.RegionProj.lean ====
/-
  The two input projections of the kernel program, each as one function of the whole arrays: the arithmetic
  of a row tile (`pay0`, `pay1`) and the result array after the 20 tiles (`final0`, `final1`).
-/
import proofs.«117675_j59828894433623_2_alg».proof.Proof.RegionProj0
import proofs.«117675_j59828894433623_2_alg».proof.Proof.RegionProj1
-- ==== Proof.RegionCombine.lean ====
/-
  One tile of the two layer-0 combine steps.

  Each step runs over twenty tiles of 5000 rows. A tile's result depends only on the same 5000 rows of the
  row-indexed operands (a summed neighbourhood, its per-row scale, the node's own features) and on the whole of
  the small operands (the 64 × 64 weights, the bias row). Here the arithmetic of one tile — scale each
  neighbourhood row, contract over the 64 inner columns into a zero accumulator, add the products left to right,
  add the bias row; every change of float format is the identity over the extended reals — is identified with
  the row-generic functions `Cert.Sage.single` and `Cert.Sage.dual` at 5000 rows, and those functions are shown
  to act row by row, which is what lets twenty tiles be read as one array.
-/
import proofs.«117675_j59828894433623_2_alg».proof.Proof.Gen.KernelIdeal.Frame
import proofs.«117675_j59828894433623_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionCombine

open Idealize.ShloMosaic Idealize.ShloMosaic.TcCoe Idealize.ShloMosaic.ValueIdx Idealize.SL.Sem
open Idealize.ShloMosaic.Pipeline (Dat)
open Cert.KernelIdeal Cert.KernelIdeal.Gen

/-! ## One tile's arithmetic -/

/-- A one-column array spread over `b` columns reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The contraction of a 5000 × 64 tile with a 64 × 64 weight into a zero accumulator, read at `(p, q)`:
    the sum over the inner index of the products. -/
theorem matmul_read {φ₁ φ₂ : FTy} (l : FVec Ideal S5000x64 φ₁) (r : FVec Ideal S64x64 φ₂) (p : Fin 5000) (q : Fin 64) :
    matmul (F := Ideal) dot_S5000x64_S64x64_S5000x64_1_0_0_1_n_n none l r (constant (F := Ideal) S5000x64 .f32 0x00000000#32) (ix2 p q)
      = ∑ k : Fin 64, l (ix2 p k) * r (ix2 k q) := by
  show FloatOps.matmul dot_S5000x64_S64x64_S5000x64_1_0_0_1_n_n none l r (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ =>
      show (dot_S5000x64_S64x64_S5000x64_1_0_0_1_n_n.lhsIdx (ix2 p q) _ 0).val = p.val
      unfold DotDims.lhsIdx
      rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
      rfl
    | ⟨1, _⟩ => exact (dot_S5000x64_S64x64_S5000x64_1_0_0_1_n_n.lhsIdx_val_of_single rfl (ix2 p q) _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl (ix2 p q) _).trans hk
    | ⟨1, _⟩ =>
      show (dot_S5000x64_S64x64_S5000x64_1_0_0_1_n_n.rhsIdx (ix2 p q) _ 1).val = q.val
      unfold DotDims.rhsIdx
      rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
      rfl)
  rw [el, er]

/-- The tile of the one-edge-type update: the scaled neighbourhood against its weight, the node's own rows
    against the root weight, and the bias row, as `Cert.Sage.single` at 5000 rows. -/
theorem pay3 (x0 : Vec Ideal S5000x64 .f32) (x1 : Vec Ideal S5000x1 .f32) (x2 : Vec Ideal S5000x64 .bf16)
    (x3 x4 : Vec Ideal S64x64 .f32) (x5 : Vec Ideal S1x64 .f32) :
    Gen.k3_pay1 (F := Ideal) x0 x1 x2 x3 x4 x5 = Cert.Sage.single x0 x1 x2 x3 x4 x5 := by
  funext j
  obtain ⟨p, q, rfl⟩ : ∃ (p : Fin 5000) (q : Fin 64), j = ix2 p q := ⟨j 0, j 1, eq_ix2 j⟩
  unfold Gen.k3_pay1
  simp only [shapeCast_self]
  rw [truncf_apply, addf_apply, addf_apply, matmul_read, matmul_read, broadcastTo_1b_ab_apply]
  simp only [truncf_apply, mulf_apply, broadcastTo_a1_ab_apply]
  rfl

/-- The tile of the two-edge-type update: both scaled neighbourhoods against their weights, the node's own rows
    against the root weight, added left to right, and the bias row, as `Cert.Sage.dual` at 5000 rows. -/
theorem pay2 (x0 : Vec Ideal S5000x64 .f32) (x1 : Vec Ideal S5000x1 .f32) (x2 : Vec Ideal S5000x64 .f32)
    (x3 : Vec Ideal S5000x1 .f32) (x4 : Vec Ideal S5000x64 .bf16) (x5 x6 x7 : Vec Ideal S64x64 .f32)
    (x8 : Vec Ideal S1x64 .f32) :
    Gen.k2_pay1 (F := Ideal) x0 x1 x2 x3 x4 x5 x6 x7 x8 = Cert.Sage.dual x0 x1 x2 x3 x4 x5 x6 x7 x8 := by
  funext j
  obtain ⟨p, q, rfl⟩ : ∃ (p : Fin 5000) (q : Fin 64), j = ix2 p q := ⟨j 0, j 1, eq_ix2 j⟩
  unfold Gen.k2_pay1
  simp only [shapeCast_self]
  rw [truncf_apply, addf_apply, addf_apply, addf_apply, matmul_read, matmul_read, matmul_read, broadcastTo_1b_ab_apply]
  simp only [truncf_apply, mulf_apply, broadcastTo_a1_ab_apply]
  rfl

/-! ## The updates act row by row

Row `n` of an update reads row `n` of each row-indexed operand and column `q` of each small operand, so two
families of operands that agree on those entries give the same entry `(n, q)`, whatever their row counts. -/

/-- Entry `(n, q)` of the one-edge-type update depends on row `n` of the three row-indexed operands, column
    `q` of the two weights and entry `q` of the bias row. -/
theorem single_rows {R R' : Nat} (a : Cert.Sage.Mat R 64) (s : Cert.Sage.Mat R 1) (y : Cert.Sage.Mat R 64)
    (wl wr : Cert.Sage.Mat 64 64) (b : Cert.Sage.Mat 1 64)
    (a' : Cert.Sage.Mat R' 64) (s' : Cert.Sage.Mat R' 1) (y' : Cert.Sage.Mat R' 64)
    (wl' wr' : Cert.Sage.Mat 64 64) (b' : Cert.Sage.Mat 1 64)
    (n : Fin R) (n' : Fin R') (q : Fin 64) (i' : (⟨2, ![R', 64]⟩ : Shape).Idx) (hi' : i' = ix2 n' q)
    (ha : ∀ k : Fin 64, a (ix2 n k) = a' (ix2 n' k)) (hs : s (ix2 n 0) = s' (ix2 n' 0))
    (hy : ∀ k : Fin 64, y (ix2 n k) = y' (ix2 n' k))
    (hwl : ∀ k : Fin 64, wl (ix2 k q) = wl' (ix2 k q)) (hwr : ∀ k : Fin 64, wr (ix2 k q) = wr' (ix2 k q))
    (hb : b (ix2 0 q) = b' (ix2 0 q)) :
    Cert.Sage.single a s y wl wr b (ix2 n q) = Cert.Sage.single a' s' y' wl' wr' b' i' := by
  subst hi'
  rw [Cert.Sage.single_apply, Cert.Sage.single_apply]
  unfold Cert.Sage.dot
  refine congrArg₂ (· + ·) (congrArg₂ (· + ·) (Finset.sum_congr rfl fun k _ => ?_) (Finset.sum_congr rfl fun k _ => ?_)) hb
  · rw [Cert.Sage.scaled_apply, Cert.Sage.scaled_apply, ha k, hs, hwl k]
  · rw [hy k, hwr k]

/-- Entry `(n, q)` of the two-edge-type update depends on row `n` of the five row-indexed operands, column
    `q` of the three weights and entry `q` of the bias row. -/
theorem dual_rows {R R' : Nat} (a1 : Cert.Sage.Mat R 64) (s1 : Cert.Sage.Mat R 1) (a2 : Cert.Sage.Mat R 64)
    (s2 : Cert.Sage.Mat R 1) (y : Cert.Sage.Mat R 64) (wl1 wl2 wr : Cert.Sage.Mat 64 64) (b : Cert.Sage.Mat 1 64)
    (a1' : Cert.Sage.Mat R' 64) (s1' : Cert.Sage.Mat R' 1) (a2' : Cert.Sage.Mat R' 64)
    (s2' : Cert.Sage.Mat R' 1) (y' : Cert.Sage.Mat R' 64) (wl1' wl2' wr' : Cert.Sage.Mat 64 64) (b' : Cert.Sage.Mat 1 64)
    (n : Fin R) (n' : Fin R') (q : Fin 64) (i' : (⟨2, ![R', 64]⟩ : Shape).Idx) (hi' : i' = ix2 n' q)
    (ha1 : ∀ k : Fin 64, a1 (ix2 n k) = a1' (ix2 n' k)) (hs1 : s1 (ix2 n 0) = s1' (ix2 n' 0))
    (ha2 : ∀ k : Fin 64, a2 (ix2 n k) = a2' (ix2 n' k)) (hs2 : s2 (ix2 n 0) = s2' (ix2 n' 0))
    (hy : ∀ k : Fin 64, y (ix2 n k) = y' (ix2 n' k))
    (hwl1 : ∀ k : Fin 64, wl1 (ix2 k q) = wl1' (ix2 k q)) (hwl2 : ∀ k : Fin 64, wl2 (ix2 k q) = wl2' (ix2 k q))
    (hwr : ∀ k : Fin 64, wr (ix2 k q) = wr' (ix2 k q)) (hb : b (ix2 0 q) = b' (ix2 0 q)) :
    Cert.Sage.dual a1 s1 a2 s2 y wl1 wl2 wr b (ix2 n q) = Cert.Sage.dual a1' s1' a2' s2' y' wl1' wl2' wr' b' i' := by
  subst hi'
  rw [Cert.Sage.dual_apply, Cert.Sage.dual_apply]
  unfold Cert.Sage.dot
  refine congrArg₂ (· + ·) (congrArg₂ (· + ·) (congrArg₂ (· + ·) (Finset.sum_congr rfl fun k _ => ?_)
    (Finset.sum_congr rfl fun k _ => ?_)) (Finset.sum_congr rfl fun k _ => ?_)) hb
  · rw [Cert.Sage.scaled_apply, Cert.Sage.scaled_apply, ha1 k, hs1, hwl1 k]
  · rw [Cert.Sage.scaled_apply, Cert.Sage.scaled_apply, ha2 k, hs2, hwl2 k]
  · rw [hy k, hwr k]

/-- The zero offsets of a whole-tile rectangle. -/
theorem hz : (![0, 0] : Fin 2 → Nat) = fun _ => 0 := funext fun a => by fin_cases a <;> rfl

end Cert.KernelIdeal.RegionCombine

end
-- ==== Proof.RegionSingle.lean ====
/-
  The one-edge-type combine step of layer 0, from its tiles to the whole array.

  The step runs over twenty tiles. Tile `t` reads rows `5000 t … 5000 t + 4999` of each row-indexed operand and
  the whole of each weight and of the bias row, and writes rows `5000 t … 5000 t + 4999` of the result. Since
  entry `(n, q)` of the update reads only row `n` of the row-indexed operands, what tile `t` writes is block row
  `t` of the update of the WHOLE arrays; row `r` lies in tile `r / 5000`, so the twenty blocks cover the result,
  which therefore ends as `Cert.Sage.single` at 100000 rows of the arrays the step was handed.
-/
import proofs.«117675_j59828894433623_2_alg».proof.Proof.RegionCombine

set_option maxRecDepth 16384

noncomputable section

namespace Cert.KernelIdeal.RegionCombine

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Over the twenty tiles: tile `t` of a row-indexed operand, and of the result, is block row `t`; a weight
    or the bias row is one block, the whole array, at every tile. -/
theorem idx_facts3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Tile `t` of the summed neighbourhood is rows `5000 t … 5000 t + 4999` of the array. -/
theorem blk3_0 (c : Dev nD) (t : Fin cfg3.N) (y : S5000x64.Idx) (i : S100000x64.Idx)
    (h0 : (i 0).val = 5000 * t.val + (y 0).val) (h1 : (i 1).val = (y 1).val) :
    (iblk3 (F := Ideal) V c 0 t : S5000x64.Idx → EReal) y = (V c (Pipeline.arrRef spec3 0) : S100000x64.Idx → EReal) i := by
  obtain ⟨e0, e1, -⟩ := idx_facts3 t
  unfold iblk3
  rw [View.read_apply]
  show V c (Pipeline.arrRef spec3 0) (((cfg3.win 0).blk t).view.emb y) = V c (Pipeline.arrRef spec3 0) i
  refine congrArg (V c (Pipeline.arrRef spec3 0)) (funext fun a => Fin.ext ?_)
  match a with
  | ⟨0, _⟩ => show win3_0.index t (0 : Fin 2) * 5000 + 1 * (y 0).val = (i 0).val; omega
  | ⟨1, _⟩ => show win3_0.index t (1 : Fin 2) * 64 + 1 * (y 1).val = (i 1).val; omega

/-- Tile `t` of the per-row scale is rows `5000 t … 5000 t + 4999` of the one-column array. -/
theorem blk3_1 (c : Dev nD) (t : Fin cfg3.N) (y : S5000x1.Idx) (i : S100000x1.Idx)
    (h0 : (i 0).val = 5000 * t.val + (y 0).val) (h1 : (i 1).val = (y 1).val) :
    (iblk3 (F := Ideal) V c 1 t : S5000x1.Idx → EReal) y = (V c (Pipeline.arrRef spec3 1) : S100000x1.Idx → EReal) i := by
  obtain ⟨-, -, e0, e1, -⟩ := idx_facts3 t
  unfold iblk3
  rw [View.read_apply]
  show V c (Pipeline.arrRef spec3 1) (((cfg3.win 1).blk t).view.emb y) = V c (Pipeline.arrRef spec3 1) i
  refine congrArg (V c (Pipeline.arrRef spec3 1)) (funext fun a => Fin.ext ?_)
  match a with
  | ⟨0, _⟩ => show win3_1.index t (0 : Fin 2) * 5000 + 1 * (y 0).val = (i 0).val; omega
  | ⟨1, _⟩ => show win3_1.index t (1 : Fin 2) * 1 + 1 * (y 1).val = (i 1).val; omega

/-- Tile `t` of the node's own features is rows `5000 t … 5000 t + 4999` of the array. -/
theorem blk3_2 (c : Dev nD) (t : Fin cfg3.N) (y : S5000x64.Idx) (i : S100000x64.Idx)
    (h0 : (i 0).val = 5000 * t.val + (y 0).val) (h1 : (i 1).val = (y 1).val) :
    (iblk3 (F := Ideal) V c 2 t : S5000x64.Idx → EReal) y = (V c (Pipeline.arrRef spec3 2) : S100000x64.Idx → EReal) i := by
  obtain ⟨-, -, -, -, e0, e1, -⟩ := idx_facts3 t
  unfold iblk3
  rw [View.read_apply]
  show V c (Pipeline.arrRef spec3 2) (((cfg3.win 2).blk t).view.emb y) = V c (Pipeline.arrRef spec3 2) i
  refine congrArg (V c (Pipeline.arrRef spec3 2)) (funext fun a => Fin.ext ?_)
  match a with
  | ⟨0, _⟩ => show win3_2.index t (0 : Fin 2) * 5000 + 1 * (y 0).val = (i 0).val; omega
  | ⟨1, _⟩ => show win3_2.index t (1 : Fin 2) * 64 + 1 * (y 1).val = (i 1).val; omega

/-- Every tile sees the whole neighbourhood weight. -/
theorem blk3_3 (c : Dev nD) (t : Fin cfg3.N) (y : S64x64.Idx) :
    (iblk3 (F := Ideal) V c 3 t : S64x64.Idx → EReal) y = (V c (Pipeline.arrRef spec3 3) : S64x64.Idx → EReal) y := by
  obtain ⟨-, -, -, -, -, -, e0, e1, -⟩ := idx_facts3 t
  unfold iblk3
  rw [View.read_apply]
  show V c (Pipeline.arrRef spec3 3) (((cfg3.win 3).blk t).view.emb y) = V c (Pipeline.arrRef spec3 3) y
  refine congrArg (V c (Pipeline.arrRef spec3 3)) (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega

/-- Every tile sees the whole root weight. -/
theorem blk3_4 (c : Dev nD) (t : Fin cfg3.N) (y : S64x64.Idx) :
    (iblk3 (F := Ideal) V c 4 t : S64x64.Idx → EReal) y = (V c (Pipeline.arrRef spec3 4) : S64x64.Idx → EReal) y := by
  obtain ⟨-, -, -, -, -, -, -, -, e0, e1, -⟩ := idx_facts3 t
  unfold iblk3
  rw [View.read_apply]
  show V c (Pipeline.arrRef spec3 4) (((cfg3.win 4).blk t).view.emb y) = V c (Pipeline.arrRef spec3 4) y
  refine congrArg (V c (Pipeline.arrRef spec3 4)) (funext fun a => Fin.ext ?_)
  match a with
  | ⟨0, _⟩ => show win3_4.index t (0 : Fin 2) * 64 + 1 * (y 0).val = (y 0).val; omega
  | ⟨1, _⟩ => show win3_4.index t (1 : Fin 2) * 64 + 1 * (y 1).val = (y 1).val; omega

/-- Every tile sees the whole bias row. -/
theorem blk3_5 (c : Dev nD) (t : Fin cfg3.N) (y : S1x64.Idx) :
    (iblk3 (F := Ideal) V c 5 t : S1x64.Idx → EReal) y = (V c (Pipeline.arrRef spec3 5) : S1x64.Idx → EReal) y := by
  obtain ⟨-, -, -, -, -, -, -, -, -, -, e0, e1, -⟩ := idx_facts3 t
  unfold iblk3
  rw [View.read_apply]
  show V c (Pipeline.arrRef spec3 5) (((cfg3.win 5).blk t).view.emb y) = V c (Pipeline.arrRef spec3 5) y
  refine congrArg (V c (Pipeline.arrRef spec3 5)) (funext fun a => Fin.ext ?_)
  match a with
  | ⟨0, _⟩ => show win3_5.index t (0 : Fin 2) * 1 + 1 * (y 0).val = (y 0).val; omega
  | ⟨1, _⟩ => show win3_5.index t (1 : Fin 2) * 64 + 1 * (y 1).val = (y 1).val; omega

/-- What tile `t` writes back is block row `t` of the one-edge-type update of the whole arrays. -/
theorem flushed3_eq (c : Dev nD) (t : Fin cfg3.N) :
    (dat3 (F := Ideal) V c).flushed 6 t = ((cfg3.win 6).blk t).view.read (Elt Ideal)
      (Cert.Sage.single (R := 100000) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 (F := Ideal) V c).after 6 t) = _
  rw [after3_6]
  unfold out3_6
  rw [View.canon_unit_zero hz]
  simp only [View.ld_unit_zero (S := S5000x64) hz, View.ld_unit_zero (S := S5000x1) hz,
    View.ld_unit_zero (S := S64x64) hz, View.ld_unit_zero (S := S1x64) hz]
  rw [pay3]
  obtain ⟨-, -, -, -, -, -, -, -, -, -, -, -, e0, e1⟩ := idx_facts3 t
  have hN : t.val < 20 := lt_of_lt_of_eq t.isLt N_3
  refine funext fun (j : S5000x64.Idx) => ?_
  obtain ⟨p, q, rfl⟩ : ∃ (p : Fin 5000) (q : Fin 64), j = ix2 p q := ⟨j 0, j 1, eq_ix2 j⟩
  have hp : p.val < 5000 := p.isLt
  show Cert.Sage.single (R := 5000) (iblk3 (F := Ideal) V c 0 t) (iblk3 (F := Ideal) V c 1 t) (iblk3 (F := Ideal) V c 2 t)
      (iblk3 (F := Ideal) V c 3 t) (iblk3 (F := Ideal) V c 4 t) (iblk3 (F := Ideal) V c 5 t) (ix2 p q)
    = Cert.Sage.single (R := 100000) (V c (Pipeline.arrRef spec3 0)) (V c (Pipeline.arrRef spec3 1)) (V c (Pipeline.arrRef spec3 2))
      (V c (Pipeline.arrRef spec3 3)) (V c (Pipeline.arrRef spec3 4)) (V c (Pipeline.arrRef spec3 5))
      (((cfg3.win 6).blk t).view.emb (ix2 p q))
  refine single_rows _ _ _ _ _ _ _ _ _ _ _ _ p (⟨5000 * t.val + p.val, by omega⟩ : Fin 100000) q _ ?_
    (fun k => blk3_0 V c t (ix2 p k) (ix2 _ k) rfl rfl) (blk3_1 V c t (ix2 p 0) (ix2 _ 0) rfl rfl)
    (fun k => blk3_2 V c t (ix2 p k) (ix2 _ k) rfl rfl)
    (fun k => blk3_3 V c t (ix2 k q)) (fun k => blk3_4 V c t (ix2 k q)) (blk3_5 V c t (ix2 0 q))
  funext a; apply Fin.ext
  match a with
  | ⟨0, _⟩ => show win3_6.index t (0 : Fin 2) * 5000 + 1 * p.val = 5000 * t.val + p.val; omega
  | ⟨1, _⟩ => show win3_6.index t (1 : Fin 2) * 64 + 1 * q.val = q.val; omega

/-- An index of the result lies in tile `t`'s block iff each coordinate lies in the block's range on its axis. -/
theorem mem_blk3 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v91).slice (win3_6.rect t)).set ↔ _
  rw [View.set_slice_whole, Rect.mem_set_unit]
  exact Iff.rfl

/-- Row `r` of the result lies in tile `r / 5000`: the twenty tiles cover the array. -/
theorem cover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, lt_of_lt_of_eq (show (i 0).val / 5000 < 20 by omega) N_3.symm⟩, rfl⟩
  obtain ⟨-, -, -, -, -, -, -, -, -, -, -, -, e0, e1⟩ := idx_facts3 t
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- After its twenty tiles the result array of the one-edge-type step is the update of the whole arrays the step
    was handed. -/
theorem final3 (c : Dev nD) :
    (Gen.dat3 (F := Ideal) V c).arrAt 6 cfg3.N
      = Cert.Sage.single (R := 100000) (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (Gen.dat3 (F := Ideal) V c).arrAt_eq_of_cover 6 _ (fun t _ => flushed3_eq V c t) cover3

end Cert.KernelIdeal.RegionCombine

end
-- ==== Proof.RegionDualBlocks.lean ====
/-
  The two-edge-type combine step of layer 0: what each tile holds.

  The step runs over twenty tiles. Tile `t` reads rows `5000 t … 5000 t + 4999` of each of the five row-indexed
  operands (two summed neighbourhoods, their two per-row scales, the node's own features) and the whole of each
  of the three weights and of the bias row. Here each of the nine tiles is read as those entries of the array it
  is cut from; the index maps are decided once over the twenty tiles.
-/
import proofs.«117675_j59828894433623_2_alg».proof.Proof.RegionCombine

set_option maxRecDepth 16384

noncomputable section

namespace Cert.KernelIdeal.RegionCombine

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Over the twenty tiles: tile `t` of a row-indexed operand, and of the result, is block row `t`; a weight
    or the bias row is one block, the whole array, at every tile. -/
theorem idx_facts2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Tile `t` of the first summed neighbourhood is rows `5000 t … 5000 t + 4999` of the array. -/
theorem blk2_0 (c : Dev nD) (t : Fin cfg2.N) (y : S5000x64.Idx) (i : S100000x64.Idx)
    (h0 : (i 0).val = 5000 * t.val + (y 0).val) (h1 : (i 1).val = (y 1).val) :
    (iblk2 (F := Ideal) V c 0 t : S5000x64.Idx → EReal) y = (V c (Pipeline.arrRef spec2 0) : S100000x64.Idx → EReal) i := by
  obtain ⟨e0, e1, -⟩ := idx_facts2 t
  unfold iblk2
  rw [View.read_apply]
  show V c (Pipeline.arrRef spec2 0) (((cfg2.win 0).blk t).view.emb y) = V c (Pipeline.arrRef spec2 0) i
  refine congrArg (V c (Pipeline.arrRef spec2 0)) (funext fun a => Fin.ext ?_)
  match a with
  | ⟨0, _⟩ => show win2_0.index t (0 : Fin 2) * 5000 + 1 * (y 0).val = (i 0).val; omega
  | ⟨1, _⟩ => show win2_0.index t (1 : Fin 2) * 64 + 1 * (y 1).val = (i 1).val; omega

/-- Tile `t` of the first per-row scale is rows `5000 t … 5000 t + 4999` of the one-column array. -/
theorem blk2_1 (c : Dev nD) (t : Fin cfg2.N) (y : S5000x1.Idx) (i : S100000x1.Idx)
    (h0 : (i 0).val = 5000 * t.val + (y 0).val) (h1 : (i 1).val = (y 1).val) :
    (iblk2 (F := Ideal) V c 1 t : S5000x1.Idx → EReal) y = (V c (Pipeline.arrRef spec2 1) : S100000x1.Idx → EReal) i := by
  obtain ⟨-, -, e0, e1, -⟩ := idx_facts2 t
  unfold iblk2
  rw [View.read_apply]
  show V c (Pipeline.arrRef spec2 1) (((cfg2.win 1).blk t).view.emb y) = V c (Pipeline.arrRef spec2 1) i
  refine congrArg (V c (Pipeline.arrRef spec2 1)) (funext fun a => Fin.ext ?_)
  match a with
  | ⟨0, _⟩ => show win2_1.index t (0 : Fin 2) * 5000 + 1 * (y 0).val = (i 0).val; omega
  | ⟨1, _⟩ => show win2_1.index t (1 : Fin 2) * 1 + 1 * (y 1).val = (i 1).val; omega

/-- Tile `t` of the second summed neighbourhood is rows `5000 t … 5000 t + 4999` of the array. -/
theorem blk2_2 (c : Dev nD) (t : Fin cfg2.N) (y : S5000x64.Idx) (i : S100000x64.Idx)
    (h0 : (i 0).val = 5000 * t.val + (y 0).val) (h1 : (i 1).val = (y 1).val) :
    (iblk2 (F := Ideal) V c 2 t : S5000x64.Idx → EReal) y = (V c (Pipeline.arrRef spec2 2) : S100000x64.Idx → EReal) i := by
  obtain ⟨-, -, -, -, e0, e1, -⟩ := idx_facts2 t
  unfold iblk2
  rw [View.read_apply]
  show V c (Pipeline.arrRef spec2 2) (((cfg2.win 2).blk t).view.emb y) = V c (Pipeline.arrRef spec2 2) i
  refine congrArg (V c (Pipeline.arrRef spec2 2)) (funext fun a => Fin.ext ?_)
  match a with
  | ⟨0, _⟩ => show win2_2.index t (0 : Fin 2) * 5000 + 1 * (y 0).val = (i 0).val; omega
  | ⟨1, _⟩ => show win2_2.index t (1 : Fin 2) * 64 + 1 * (y 1).val = (i 1).val; omega

/-- Tile `t` of the second per-row scale is rows `5000 t … 5000 t + 4999` of the one-column array. -/
theorem blk2_3 (c : Dev nD) (t : Fin cfg2.N) (y : S5000x1.Idx) (i : S100000x1.Idx)
    (h0 : (i 0).val = 5000 * t.val + (y 0).val) (h1 : (i 1).val = (y 1).val) :
    (iblk2 (F := Ideal) V c 3 t : S5000x1.Idx → EReal) y = (V c (Pipeline.arrRef spec2 3) : S100000x1.Idx → EReal) i := by
  obtain ⟨-, -, -, -, -, -, e0, e1, -⟩ := idx_facts2 t
  unfold iblk2
  rw [View.read_apply]
  show V c (Pipeline.arrRef spec2 3) (((cfg2.win 3).blk t).view.emb y) = V c (Pipeline.arrRef spec2 3) i
  refine congrArg (V c (Pipeline.arrRef spec2 3)) (funext fun a => Fin.ext ?_)
  match a with
  | ⟨0, _⟩ => show win2_3.index t (0 : Fin 2) * 5000 + 1 * (y 0).val = (i 0).val; omega
  | ⟨1, _⟩ => show win2_3.index t (1 : Fin 2) * 1 + 1 * (y 1).val = (i 1).val; omega

/-- Tile `t` of the node's own features is rows `5000 t … 5000 t + 4999` of the array. -/
theorem blk2_4 (c : Dev nD) (t : Fin cfg2.N) (y : S5000x64.Idx) (i : S100000x64.Idx)
    (h0 : (i 0).val = 5000 * t.val + (y 0).val) (h1 : (i 1).val = (y 1).val) :
    (iblk2 (F := Ideal) V c 4 t : S5000x64.Idx → EReal) y = (V c (Pipeline.arrRef spec2 4) : S100000x64.Idx → EReal) i := by
  obtain ⟨-, -, -, -, -, -, -, -, e0, e1, -⟩ := idx_facts2 t
  unfold iblk2
  rw [View.read_apply]
  show V c (Pipeline.arrRef spec2 4) (((cfg2.win 4).blk t).view.emb y) = V c (Pipeline.arrRef spec2 4) i
  refine congrArg (V c (Pipeline.arrRef spec2 4)) (funext fun a => Fin.ext ?_)
  match a with
  | ⟨0, _⟩ => show win2_4.index t (0 : Fin 2) * 5000 + 1 * (y 0).val = (i 0).val; omega
  | ⟨1, _⟩ => show win2_4.index t (1 : Fin 2) * 64 + 1 * (y 1).val = (i 1).val; omega

/-- Every tile sees the whole first neighbourhood weight. -/
theorem blk2_5 (c : Dev nD) (t : Fin cfg2.N) (y : S64x64.Idx) :
    (iblk2 (F := Ideal) V c 5 t : S64x64.Idx → EReal) y = (V c (Pipeline.arrRef spec2 5) : S64x64.Idx → EReal) y := by
  obtain ⟨-, -, -, -, -, -, -, -, -, -, e0, e1, -⟩ := idx_facts2 t
  unfold iblk2
  rw [View.read_apply]
  show V c (Pipeline.arrRef spec2 5) (((cfg2.win 5).blk t).view.emb y) = V c (Pipeline.arrRef spec2 5) y
  refine congrArg (V c (Pipeline.arrRef spec2 5)) (funext fun a => Fin.ext ?_)
  match a with
  | ⟨0, _⟩ => show win2_5.index t (0 : Fin 2) * 64 + 1 * (y 0).val = (y 0).val; omega
  | ⟨1, _⟩ => show win2_5.index t (1 : Fin 2) * 64 + 1 * (y 1).val = (y 1).val; omega

/-- Every tile sees the whole second neighbourhood weight. -/
theorem blk2_6 (c : Dev nD) (t : Fin cfg2.N) (y : S64x64.Idx) :
    (iblk2 (F := Ideal) V c 6 t : S64x64.Idx → EReal) y = (V c (Pipeline.arrRef spec2 6) : S64x64.Idx → EReal) y := by
  obtain ⟨-, -, -, -, -, -, -, -, -, -, -, -, e0, e1, -⟩ := idx_facts2 t
  unfold iblk2
  rw [View.read_apply]
  show V c (Pipeline.arrRef spec2 6) (((cfg2.win 6).blk t).view.emb y) = V c (Pipeline.arrRef spec2 6) y
  refine congrArg (V c (Pipeline.arrRef spec2 6)) (funext fun a => Fin.ext ?_)
  match a with
  | ⟨0, _⟩ => show win2_6.index t (0 : Fin 2) * 64 + 1 * (y 0).val = (y 0).val; omega
  | ⟨1, _⟩ => show win2_6.index t (1 : Fin 2) * 64 + 1 * (y 1).val = (y 1).val; omega

/-- Every tile sees the whole root weight. -/
theorem blk2_7 (c : Dev nD) (t : Fin cfg2.N) (y : S64x64.Idx) :
    (iblk2 (F := Ideal) V c 7 t : S64x64.Idx → EReal) y = (V c (Pipeline.arrRef spec2 7) : S64x64.Idx → EReal) y := by
  obtain ⟨-, -, -, -, -, -, -, -, -, -, -, -, -, -, e0, e1, -⟩ := idx_facts2 t
  unfold iblk2
  rw [View.read_apply]
  show V c (Pipeline.arrRef spec2 7) (((cfg2.win 7).blk t).view.emb y) = V c (Pipeline.arrRef spec2 7) y
  refine congrArg (V c (Pipeline.arrRef spec2 7)) (funext fun a => Fin.ext ?_)
  match a with
  | ⟨0, _⟩ => show win2_7.index t (0 : Fin 2) * 64 + 1 * (y 0).val = (y 0).val; omega
  | ⟨1, _⟩ => show win2_7.index t (1 : Fin 2) * 64 + 1 * (y 1).val = (y 1).val; omega

/-- Every tile sees the whole bias row. -/
theorem blk2_8 (c : Dev nD) (t : Fin cfg2.N) (y : S1x64.Idx) :
    (iblk2 (F := Ideal) V c 8 t : S1x64.Idx → EReal) y = (V c (Pipeline.arrRef spec2 8) : S1x64.Idx → EReal) y := by
  obtain ⟨-, -, -, -, -, -, -, -, -, -, -, -, -, -, -, -, e0, e1, -⟩ := idx_facts2 t
  unfold iblk2
  rw [View.read_apply]
  show V c (Pipeline.arrRef spec2 8) (((cfg2.win 8).blk t).view.emb y) = V c (Pipeline.arrRef spec2 8) y
  refine congrArg (V c (Pipeline.arrRef spec2 8)) (funext fun a => Fin.ext ?_)
  match a with
  | ⟨0, _⟩ => show win2_8.index t (0 : Fin 2) * 1 + 1 * (y 0).val = (y 0).val; omega
  | ⟨1, _⟩ => show win2_8.index t (1 : Fin 2) * 64 + 1 * (y 1).val = (y 1).val; omega

end Cert.KernelIdeal.RegionCombine

end
-- ==== Proof.RegionDual.lean ====
/-
  The two-edge-type combine step of layer 0, from its tiles to the whole array.

  The step runs over twenty tiles. Tile `t` reads rows `5000 t … 5000 t + 4999` of each row-indexed operand and
  the whole of each weight and of the bias row, and writes rows `5000 t … 5000 t + 4999` of the result. Since
  entry `(n, q)` of the update reads only row `n` of the row-indexed operands, what tile `t` writes is block row
  `t` of the update of the WHOLE arrays; row `r` lies in tile `r / 5000`, so the twenty blocks cover the result,
  which therefore ends as `Cert.Sage.dual` at 100000 rows of the arrays the step was handed.
-/
import proofs.«117675_j59828894433623_2_alg».proof.Proof.RegionDualBlocks

set_option maxRecDepth 16384

noncomputable section

namespace Cert.KernelIdeal.RegionCombine

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

set_option maxHeartbeats 1000000 in
/-- What tile `t` writes back is block row `t` of the two-edge-type update of the whole arrays. -/
theorem flushed2_eq (c : Dev nD) (t : Fin cfg2.N) :
    (dat2 (F := Ideal) V c).flushed 9 t = ((cfg2.win 9).blk t).view.read (Elt Ideal)
      (Cert.Sage.dual (R := 100000) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))) := by
  show (cfg2.win 9).cut (grid2.coords t) ((dat2 (F := Ideal) V c).after 9 t) = _
  rw [after2_9]
  unfold out2_9
  rw [View.canon_unit_zero hz]
  simp only [View.ld_unit_zero (S := S5000x64) hz, View.ld_unit_zero (S := S5000x1) hz,
    View.ld_unit_zero (S := S64x64) hz, View.ld_unit_zero (S := S1x64) hz]
  rw [pay2]
  obtain ⟨-, -, -, -, -, -, -, -, -, -, -, -, -, -, -, -, -, -, e0, e1⟩ := idx_facts2 t
  have hN : t.val < 20 := lt_of_lt_of_eq t.isLt N_2
  refine funext fun (j : S5000x64.Idx) => ?_
  obtain ⟨p, q, rfl⟩ : ∃ (p : Fin 5000) (q : Fin 64), j = ix2 p q := ⟨j 0, j 1, eq_ix2 j⟩
  have hp : p.val < 5000 := p.isLt
  show Cert.Sage.dual (R := 5000) (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) (iblk2 (F := Ideal) V c 6 t) (iblk2 (F := Ideal) V c 7 t) (iblk2 (F := Ideal) V c 8 t) (ix2 p q)
    = Cert.Sage.dual (R := 100000) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))
      (((cfg2.win 9).blk t).view.emb (ix2 p q))
  refine dual_rows _ _ _ _ _ _ _ _ _ _ _ _ _ _ _ _ _ _ p (⟨5000 * t.val + p.val, by omega⟩ : Fin 100000) q _ ?_
    (fun k => blk2_0 V c t (ix2 p k) (ix2 _ k) rfl rfl) (blk2_1 V c t (ix2 p 0) (ix2 _ 0) rfl rfl)
    (fun k => blk2_2 V c t (ix2 p k) (ix2 _ k) rfl rfl) (blk2_3 V c t (ix2 p 0) (ix2 _ 0) rfl rfl)
    (fun k => blk2_4 V c t (ix2 p k) (ix2 _ k) rfl rfl)
    (fun k => blk2_5 V c t (ix2 k q)) (fun k => blk2_6 V c t (ix2 k q)) (fun k => blk2_7 V c t (ix2 k q))
    (blk2_8 V c t (ix2 0 q))
  funext a; apply Fin.ext
  match a with
  | ⟨0, _⟩ => show win2_9.index t (0 : Fin 2) * 5000 + 1 * p.val = 5000 * t.val + p.val; omega
  | ⟨1, _⟩ => show win2_9.index t (1 : Fin 2) * 64 + 1 * q.val = q.val; omega

/-- An index of the result lies in tile `t`'s block iff each coordinate lies in the block's range on its axis. -/
theorem mem_blk2 (t : Fin cfg2.N) (i : S100000x64.Idx) :
    i ∈ ((cfg2.win 9).blk t).view.set ↔ ∀ a : Fin 2, win2_9.index t a * S5000x64.size a ≤ (i a).val ∧ (i a).val < win2_9.index t a * S5000x64.size a + S5000x64.size a := by
  show i ∈ ((View.whole main_v83).slice (win2_9.rect t)).set ↔ _
  rw [View.set_slice_whole, Rect.mem_set_unit]
  exact Iff.rfl

/-- Row `r` of the result lies in tile `r / 5000`: the twenty tiles cover the array. -/
theorem cover2 (i : S100000x64.Idx) :
    ∃ t : Fin cfg2.N, (cfg2.win 9).flush t = true ∧ i ∈ ((cfg2.win 9).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, lt_of_lt_of_eq (show (i 0).val / 5000 < 20 by omega) N_2.symm⟩, rfl⟩
  obtain ⟨-, -, -, -, -, -, -, -, -, -, -, -, -, -, -, -, -, -, e0, e1⟩ := idx_facts2 t
  refine ⟨t, flush2_9 t, ?_⟩
  rw [mem_blk2]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 64 ≤ (i 1).val ∧ (i 1).val < win2_9.index t (1 : Fin 2) * 64 + 64; omega

/-- After its twenty tiles the result array of the two-edge-type step is the update of the whole arrays the step
    was handed. -/
theorem final2 (c : Dev nD) :
    (Gen.dat2 (F := Ideal) V c).arrAt 9 cfg2.N
      = Cert.Sage.dual (R := 100000) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) :=
  (Gen.dat2 (F := Ideal) V c).arrAt_eq_of_cover 9 _ (fun t _ => flushed2_eq V c t) cover2

end Cert.KernelIdeal.RegionCombine

end
-- ==== Proof.RegionFinal.lean ====
/-
  The last dense step of the network, one tile of 5000 rows at a time, and then on the whole array.

  A tile's result is a function of the tile's own rows of the row-indexed operands and of the (small, whole)
  weights and bias rows: first the update of a node type fed by two edge types (both neighbourhood means
  against their weights, the node's own features against the root weight, the bias row), then the output
  head applied to that 64-column value. Row r of the 100000-row result therefore depends on row r of the
  row-indexed arrays only, and the twenty tiles (tile t holds rows 5000 t … 5000 t + 4999) fill the array.
-/
import proofs.«117675_j59828894433623_2_alg».proof.Proof.Gen.KernelIdeal.Frame
import proofs.«117675_j59828894433623_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionFinal

open Idealize.ShloMosaic Idealize.ShloMosaic.TcCoe Idealize.ShloMosaic.ValueIdx Idealize.SL.Sem
open Cert.KernelIdeal Cert.KernelIdeal.Gen

/-! ## One matrix product read at an entry

The operand positions a product's entry (n, j) meets at inner position k are (n, k) on the left and (k, j)
on the right; the four coordinate facts, then the sum re-indexed over the 64 inner positions. -/

theorem prod64_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem prod64_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem prod64_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem prod64_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (n, j) of a 5000×64 by 64×64 product into a zero accumulator: the sum over the 64 inner positions of
    row n of the left factor times column j of the right factor. -/
theorem prod64_apply (l : FVec Ideal S5000x64 .bf16) (r : FVec Ideal S64x64 .bf16) (n : Fin 5000) (j : Fin 64) :
    matmul (F := Ideal) dot_S5000x64_S64x64_S5000x64_1_0_0_1_n_n none l r (constant (F := Ideal) S5000x64 .f32 0x00000000#32) (ix2 n j)
      = ∑ k : Fin 64, l (ix2 n k) * r (ix2 k j) := by
  refine (Ideal.matmul_constant_zero_apply dot_S5000x64_S64x64_S5000x64_1_0_0_1_n_n none l r (ix2 n j)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 n j) ((ValueIdx.contrEquiv1 dot_S5000x64_S64x64_S5000x64_1_0_0_1_n_n 64 rfl rfl).symm k) = ix2 n k := funext fun a => Fin.ext (by
    match a with
    | ⟨0, _⟩ => exact prod64_l0 _ _
    | ⟨1, _⟩ => exact (prod64_l1 _ _).trans hk)
  have er : dot_S5000x64_S64x64_S5000x64_1_0_0_1_n_n.rhsIdx (ix2 n j) ((ValueIdx.contrEquiv1 dot_S5000x64_S64x64_S5000x64_1_0_0_1_n_n 64 rfl rfl).symm k) = ix2 k j := funext fun a => Fin.ext (by
    match a with
    | ⟨0, _⟩ => exact (prod64_r0 _ _).trans hk
    | ⟨1, _⟩ => exact prod64_r1 _ _)
  rw [el, er]

theorem prod16_l0 (i : S5000x16.Idx) (q : dot_S5000x64_S64x16_S5000x16_1_0_0_1_n_n.contr.Idx) : (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem prod16_l1 (i : S5000x16.Idx) (q : dot_S5000x64_S64x16_S5000x16_1_0_0_1_n_n.contr.Idx) : (dot_S5000x64_S64x16_S5000x16_1_0_0_1_n_n.lhsIdx i q 1).val = (q ⟨0, by decide⟩).val :=
  dot_S5000x64_S64x16_S5000x16_1_0_0_1_n_n.lhsIdx_val_of_single rfl i q
theorem prod16_r0 (i : S5000x16.Idx) (q : dot_S5000x64_S64x16_S5000x16_1_0_0_1_n_n.contr.Idx) : (dot_S5000x64_S64x16_S5000x16_1_0_0_1_n_n.rhsIdx i q 0).val = (q ⟨0, by decide⟩).val :=
  dot_S5000x64_S64x16_S5000x16_1_0_0_1_n_n.rhsIdx_val_of_single rfl i q
theorem prod16_r1 (i : S5000x16.Idx) (q : dot_S5000x64_S64x16_S5000x16_1_0_0_1_n_n.contr.Idx) : (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The same for the 5000×64 by 64×16 product of the output head. -/
theorem prod16_apply (l : FVec Ideal S5000x64 .bf16) (r : FVec Ideal S64x16 .bf16) (n : Fin 5000) (j : Fin 16) :
    matmul (F := Ideal) dot_S5000x64_S64x16_S5000x16_1_0_0_1_n_n none l r (constant (F := Ideal) S5000x16 .f32 0x00000000#32) (ix2 n j)
      = ∑ k : Fin 64, l (ix2 n k) * r (ix2 k j) := by
  refine (Ideal.matmul_constant_zero_apply dot_S5000x64_S64x16_S5000x16_1_0_0_1_n_n none l r (ix2 n j)).trans ?_
  rw [← Equiv.sum_comp (ValueIdx.contrEquiv1 dot_S5000x64_S64x16_S5000x16_1_0_0_1_n_n 64 rfl rfl).symm]
  refine Finset.sum_congr rfl fun k _ => ?_
  have hk := ValueIdx.contrEquiv1_symm_val dot_S5000x64_S64x16_S5000x16_1_0_0_1_n_n 64 rfl rfl k
  have el : dot_S5000x64_S64x16_S5000x16_1_0_0_1_n_n.lhsIdx (ix2 n j) ((ValueIdx.contrEquiv1 dot_S5000x64_S64x16_S5000x16_1_0_0_1_n_n 64 rfl rfl).symm k) = ix2 n k := funext fun a => Fin.ext (by
    match a with
    | ⟨0, _⟩ => exact prod16_l0 _ _
    | ⟨1, _⟩ => exact (prod16_l1 _ _).trans hk)
  have er : dot_S5000x64_S64x16_S5000x16_1_0_0_1_n_n.rhsIdx (ix2 n j) ((ValueIdx.contrEquiv1 dot_S5000x64_S64x16_S5000x16_1_0_0_1_n_n 64 rfl rfl).symm k) = ix2 k j := funext fun a => Fin.ext (by
    match a with
    | ⟨0, _⟩ => exact (prod16_r0 _ _).trans hk
    | ⟨1, _⟩ => exact prod16_r1 _ _)
  rw [el, er]

/-! ## A one-column array spread across the columns -/

/-- An a×1 column broadcast to a×b reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One tile of the two-edge-type update, entry by entry: both scaled neighbourhood sums against their weights,
    the node's own features against the root weight, and the bias row. -/
theorem dual_tile_apply (x0 : Vec Ideal S5000x64 .f32) (x1 : Vec Ideal S5000x1 .f32) (x2 : Vec Ideal S5000x64 .f32) (x3 : Vec Ideal S5000x1 .f32) (x4 : Vec Ideal S5000x64 .bf16) (x5 x6 x7 : Vec Ideal S64x64 .f32) (x8 : Vec Ideal S1x64 .f32) (n : Fin 5000) (j : Fin 64) :
    Gen.k4_pay2 (F := Ideal) x0 x1 x2 x3 x4 x5 x6 x7 x8 (ix2 n j)
      = (∑ k : Fin 64, (x0 (ix2 n k) * x1 (ix2 n 0)) * x5 (ix2 k j)) + (∑ k : Fin 64, (x2 (ix2 n k) * x3 (ix2 n 0)) * x6 (ix2 k j))
        + (∑ k : Fin 64, x4 (ix2 n k) * x7 (ix2 k j)) + x8 (ix2 0 j) := by
  unfold Gen.k4_pay2
  simp only [shapeCast_self, truncf_apply, addf_apply]
  rw [prod64_apply, prod64_apply, prod64_apply, broadcastTo_1b_ab_apply]
  simp only [truncf_apply, mulf_apply, broadcastTo_a1_ab_apply]

/-- One tile of the output head, entry by entry, for any 5000×64 value: the value against the 64×16 weight, plus the
    bias row. -/
theorem head_tile_apply (h : FVec Ideal S5000x64 .bf16) (x9 : Vec Ideal S64x16 .f32) (x10 : Vec Ideal S1x16 .f32) (n : Fin 5000) (j : Fin 16) :
    Gen.k4_pay1 (F := Ideal) h x9 x10 (ix2 n j) = (∑ k : Fin 64, h (ix2 n k) * x9 (ix2 k j)) + x10 (ix2 0 j) := by
  unfold Gen.k4_pay1
  simp only [shapeCast_self, addf_apply]
  rw [prod16_apply, broadcastTo_1b_ab_apply]
  simp only [truncf_apply]

/-! ## A tile's value in the shared vocabulary -/

/-- A tile of the two-edge-type update is that update of the tile's operands. -/
theorem dual_tile (x0 : Vec Ideal S5000x64 .f32) (x1 : Vec Ideal S5000x1 .f32) (x2 : Vec Ideal S5000x64 .f32) (x3 : Vec Ideal S5000x1 .f32) (x4 : Vec Ideal S5000x64 .bf16) (x5 x6 x7 : Vec Ideal S64x64 .f32) (x8 : Vec Ideal S1x64 .f32) :
    Gen.k4_pay2 (F := Ideal) x0 x1 x2 x3 x4 x5 x6 x7 x8 = Cert.Sage.dual x0 x1 x2 x3 x4 x5 x6 x7 x8 := by
  funext i
  obtain ⟨n, j, rfl⟩ : ∃ (n : Fin 5000) (j : Fin 64), i = ix2 n j := ⟨i 0, i 1, eq_ix2 i⟩
  rw [dual_tile_apply, Cert.Sage.dual_apply]
  simp only [Cert.Sage.dot, Cert.Sage.scaled_apply]

/-- A tile of the output head, of any 5000×64 value, is the head of that value. -/
theorem head_tile (h : FVec Ideal S5000x64 .bf16) (x9 : Vec Ideal S64x16 .f32) (x10 : Vec Ideal S1x16 .f32) :
    Gen.k4_pay1 (F := Ideal) h x9 x10 = Cert.Sage.head h x9 x10 := by
  funext i
  obtain ⟨n, j, rfl⟩ : ∃ (n : Fin 5000) (j : Fin 16), i = ix2 n j := ⟨i 0, i 1, eq_ix2 i⟩
  rw [head_tile_apply, Cert.Sage.head_apply]
  simp only [Cert.Sage.dot]

/-- The whole tile: the head of the two-edge-type update of the tile's operands. -/
theorem pay4 (x0 : Vec Ideal S5000x64 .f32) (x1 : Vec Ideal S5000x1 .f32) (x2 : Vec Ideal S5000x64 .f32) (x3 : Vec Ideal S5000x1 .f32) (x4 : Vec Ideal S5000x64 .bf16) (x5 x6 x7 : Vec Ideal S64x64 .f32) (x8 : Vec Ideal S1x64 .f32) (x9 : Vec Ideal S64x16 .f32) (x10 : Vec Ideal S1x16 .f32) :
    Gen.k4_pay1 (F := Ideal) (Gen.k4_pay2 (F := Ideal) x0 x1 x2 x3 x4 x5 x6 x7 x8) x9 x10 = Cert.Sage.head (Cert.Sage.dual x0 x1 x2 x3 x4 x5 x6 x7 x8) x9 x10 := by
  rw [dual_tile]
  exact head_tile _ x9 x10

/-- Row locality: entry (n, j) of the head of the update depends on row n of the row-indexed operands only, so a
    tile whose row n is row r of the arrays gives the arrays' entry (r, j). -/
theorem head_dual_row {R R' : Nat} (a0 : Cert.Sage.Mat R 64) (a1 : Cert.Sage.Mat R 1) (a2 : Cert.Sage.Mat R 64) (a3 : Cert.Sage.Mat R 1) (a4 : Cert.Sage.Mat R 64)
    (b0 : Cert.Sage.Mat R' 64) (b1 : Cert.Sage.Mat R' 1) (b2 : Cert.Sage.Mat R' 64) (b3 : Cert.Sage.Mat R' 1) (b4 : Cert.Sage.Mat R' 64)
    (w5 w6 w7 : Cert.Sage.Mat 64 64) (w8 : Cert.Sage.Mat 1 64) (w9 : Cert.Sage.Mat 64 16) (w10 : Cert.Sage.Mat 1 16) (n : Fin R') (r : Fin R) (j : Fin 16)
    (h0 : ∀ k : Fin 64, b0 (ix2 n k) = a0 (ix2 r k)) (h1 : b1 (ix2 n 0) = a1 (ix2 r 0))
    (h2 : ∀ k : Fin 64, b2 (ix2 n k) = a2 (ix2 r k)) (h3 : b3 (ix2 n 0) = a3 (ix2 r 0))
    (h4 : ∀ k : Fin 64, b4 (ix2 n k) = a4 (ix2 r k)) :
    Cert.Sage.head (Cert.Sage.dual b0 b1 b2 b3 b4 w5 w6 w7 w8) w9 w10 (ix2 n j)
      = Cert.Sage.head (Cert.Sage.dual a0 a1 a2 a3 a4 w5 w6 w7 w8) w9 w10 (ix2 r j) := by
  simp only [Cert.Sage.head_apply, Cert.Sage.dot, Cert.Sage.dual_apply, Cert.Sage.scaled_apply, h0, h1, h2, h3, h4]

/-! ## The tiles as rows of the arrays -/

open Idealize.ShloMosaic.Pipeline (Dat)

theorem hz : (![0, 0] : Fin 2 → Nat) = fun _ => 0 := funext fun a => by fin_cases a <;> rfl

/-- Row n of tile t is row 5000 t + n of the array. -/
def rowAt (t : Fin cfg4.N) (n : Fin 5000) : Fin 100000 :=
  ⟨5000 * t.val + n.val, by
    have ht : t.val < 20 := (show t.val < grid4.N from t.isLt).trans_eq Gen.N_4
    have := n.isLt; omega⟩

/-- The printed index maps over the grid: a row-indexed window's tile t is block (t, 0); a weight's or bias row's
    is block (0, 0), the whole array. -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = t.val ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = 0 ∧ win4_9.index t (1 : Fin 2) = 0)
    ∧ (win4_10.index t (0 : Fin 2) = 0 ∧ win4_10.index t (1 : Fin 2) = 0)
    ∧ (win4_11.index t (0 : Fin 2) = t.val ∧ win4_11.index t (1 : Fin 2) = 0) :=
  (by decide +kernel : ∀ t : Fin grid4.N, _)

section
variable (V : (c : Dev nD) → (b : Ref sig .tc) → Buf (Elt Ideal) ((c : Thread nD τ).loc b)) (c : Dev nD)

/-! Each row-indexed window's tile t, read at row n, is the array at row 5000 t + n; each weight's and bias row's
    tile is the whole array. -/

theorem blk0 (t : Fin cfg4.N) (n : Fin 5000) (k : Fin 64) :
    (Gen.iblk4 (F := Ideal) V c 0 t : Vec Ideal S5000x64 .f32) (ix2 n k)
      = (V c (Pipeline.arrRef spec4 0) : Vec Ideal S100000x64 .f32) (ix2 (rowAt t n) k) := by
  obtain ⟨⟨e0, e1⟩, -⟩ := idx_facts t
  unfold Gen.iblk4
  rw [View.read_apply]
  refine congrArg (V c (Pipeline.arrRef spec4 0)) (funext fun a => Fin.ext ?_)
  match a with
  | ⟨0, _⟩ => show win4_0.index t (0 : Fin 2) * 5000 + 1 * n.val = 5000 * t.val + n.val; omega
  | ⟨1, _⟩ => show win4_0.index t (1 : Fin 2) * 64 + 1 * k.val = k.val; omega

theorem blk1 (t : Fin cfg4.N) (n : Fin 5000) (k : Fin 1) :
    (Gen.iblk4 (F := Ideal) V c 1 t : Vec Ideal S5000x1 .f32) (ix2 n k)
      = (V c (Pipeline.arrRef spec4 1) : Vec Ideal S100000x1 .f32) (ix2 (rowAt t n) k) := by
  obtain ⟨-, ⟨e0, e1⟩, -⟩ := idx_facts t
  unfold Gen.iblk4
  rw [View.read_apply]
  refine congrArg (V c (Pipeline.arrRef spec4 1)) (funext fun a => Fin.ext ?_)
  match a with
  | ⟨0, _⟩ => show win4_1.index t (0 : Fin 2) * 5000 + 1 * n.val = 5000 * t.val + n.val; omega
  | ⟨1, _⟩ => show win4_1.index t (1 : Fin 2) * 1 + 1 * k.val = k.val; omega

theorem blk2 (t : Fin cfg4.N) (n : Fin 5000) (k : Fin 64) :
    (Gen.iblk4 (F := Ideal) V c 2 t : Vec Ideal S5000x64 .f32) (ix2 n k)
      = (V c (Pipeline.arrRef spec4 2) : Vec Ideal S100000x64 .f32) (ix2 (rowAt t n) k) := by
  obtain ⟨-, -, ⟨e0, e1⟩, -⟩ := idx_facts t
  unfold Gen.iblk4
  rw [View.read_apply]
  refine congrArg (V c (Pipeline.arrRef spec4 2)) (funext fun a => Fin.ext ?_)
  match a with
  | ⟨0, _⟩ => show win4_2.index t (0 : Fin 2) * 5000 + 1 * n.val = 5000 * t.val + n.val; omega
  | ⟨1, _⟩ => show win4_2.index t (1 : Fin 2) * 64 + 1 * k.val = k.val; omega

theorem blk3 (t : Fin cfg4.N) (n : Fin 5000) (k : Fin 1) :
    (Gen.iblk4 (F := Ideal) V c 3 t : Vec Ideal S5000x1 .f32) (ix2 n k)
      = (V c (Pipeline.arrRef spec4 3) : Vec Ideal S100000x1 .f32) (ix2 (rowAt t n) k) := by
  obtain ⟨-, -, -, ⟨e0, e1⟩, -⟩ := idx_facts t
  unfold Gen.iblk4
  rw [View.read_apply]
  refine congrArg (V c (Pipeline.arrRef spec4 3)) (funext fun a => Fin.ext ?_)
  match a with
  | ⟨0, _⟩ => show win4_3.index t (0 : Fin 2) * 5000 + 1 * n.val = 5000 * t.val + n.val; omega
  | ⟨1, _⟩ => show win4_3.index t (1 : Fin 2) * 1 + 1 * k.val = k.val; omega

theorem blk4 (t : Fin cfg4.N) (n : Fin 5000) (k : Fin 64) :
    (Gen.iblk4 (F := Ideal) V c 4 t : Vec Ideal S5000x64 .bf16) (ix2 n k)
      = (V c (Pipeline.arrRef spec4 4) : Vec Ideal S100000x64 .bf16) (ix2 (rowAt t n) k) := by
  obtain ⟨-, -, -, -, ⟨e0, e1⟩, -⟩ := idx_facts t
  unfold Gen.iblk4
  rw [View.read_apply]
  refine congrArg (V c (Pipeline.arrRef spec4 4)) (funext fun a => Fin.ext ?_)
  match a with
  | ⟨0, _⟩ => show win4_4.index t (0 : Fin 2) * 5000 + 1 * n.val = 5000 * t.val + n.val; omega
  | ⟨1, _⟩ => show win4_4.index t (1 : Fin 2) * 64 + 1 * k.val = k.val; omega

theorem blk5 (t : Fin cfg4.N) :
    (Gen.iblk4 (F := Ideal) V c 5 t : Vec Ideal S64x64 .f32) = (V c (Pipeline.arrRef spec4 5) : Vec Ideal S64x64 .f32) := by
  obtain ⟨-, -, -, -, -, ⟨e0, e1⟩, -⟩ := idx_facts t
  funext y
  unfold Gen.iblk4
  rw [View.read_apply]
  refine congrArg (V c (Pipeline.arrRef spec4 5)) (funext fun a => Fin.ext ?_)
  match a with
  | ⟨0, _⟩ => show win4_5.index t (0 : Fin 2) * 64 + 1 * (y 0).val = (y 0).val; omega
  | ⟨1, _⟩ => show win4_5.index t (1 : Fin 2) * 64 + 1 * (y 1).val = (y 1).val; omega

theorem blk6 (t : Fin cfg4.N) :
    (Gen.iblk4 (F := Ideal) V c 6 t : Vec Ideal S64x64 .f32) = (V c (Pipeline.arrRef spec4 6) : Vec Ideal S64x64 .f32) := by
  obtain ⟨-, -, -, -, -, -, ⟨e0, e1⟩, -⟩ := idx_facts t
  funext y
  unfold Gen.iblk4
  rw [View.read_apply]
  refine congrArg (V c (Pipeline.arrRef spec4 6)) (funext fun a => Fin.ext ?_)
  match a with
  | ⟨0, _⟩ => show win4_6.index t (0 : Fin 2) * 64 + 1 * (y 0).val = (y 0).val; omega
  | ⟨1, _⟩ => show win4_6.index t (1 : Fin 2) * 64 + 1 * (y 1).val = (y 1).val; omega

theorem blk7 (t : Fin cfg4.N) :
    (Gen.iblk4 (F := Ideal) V c 7 t : Vec Ideal S64x64 .f32) = (V c (Pipeline.arrRef spec4 7) : Vec Ideal S64x64 .f32) := by
  obtain ⟨-, -, -, -, -, -, -, ⟨e0, e1⟩, -⟩ := idx_facts t
  funext y
  unfold Gen.iblk4
  rw [View.read_apply]
  refine congrArg (V c (Pipeline.arrRef spec4 7)) (funext fun a => Fin.ext ?_)
  match a with
  | ⟨0, _⟩ => show win4_7.index t (0 : Fin 2) * 64 + 1 * (y 0).val = (y 0).val; omega
  | ⟨1, _⟩ => show win4_7.index t (1 : Fin 2) * 64 + 1 * (y 1).val = (y 1).val; omega

theorem blk8 (t : Fin cfg4.N) :
    (Gen.iblk4 (F := Ideal) V c 8 t : Vec Ideal S1x64 .f32) = (V c (Pipeline.arrRef spec4 8) : Vec Ideal S1x64 .f32) := by
  obtain ⟨-, -, -, -, -, -, -, -, ⟨e0, e1⟩, -⟩ := idx_facts t
  funext y
  unfold Gen.iblk4
  rw [View.read_apply]
  refine congrArg (V c (Pipeline.arrRef spec4 8)) (funext fun a => Fin.ext ?_)
  match a with
  | ⟨0, _⟩ => show win4_8.index t (0 : Fin 2) * 1 + 1 * (y 0).val = (y 0).val; omega
  | ⟨1, _⟩ => show win4_8.index t (1 : Fin 2) * 64 + 1 * (y 1).val = (y 1).val; omega

theorem blk9 (t : Fin cfg4.N) :
    (Gen.iblk4 (F := Ideal) V c 9 t : Vec Ideal S64x16 .f32) = (V c (Pipeline.arrRef spec4 9) : Vec Ideal S64x16 .f32) := by
  obtain ⟨-, -, -, -, -, -, -, -, -, ⟨e0, e1⟩, -⟩ := idx_facts t
  funext y
  unfold Gen.iblk4
  rw [View.read_apply]
  refine congrArg (V c (Pipeline.arrRef spec4 9)) (funext fun a => Fin.ext ?_)
  match a with
  | ⟨0, _⟩ => show win4_9.index t (0 : Fin 2) * 64 + 1 * (y 0).val = (y 0).val; omega
  | ⟨1, _⟩ => show win4_9.index t (1 : Fin 2) * 16 + 1 * (y 1).val = (y 1).val; omega

theorem blk10 (t : Fin cfg4.N) :
    (Gen.iblk4 (F := Ideal) V c 10 t : Vec Ideal S1x16 .f32) = (V c (Pipeline.arrRef spec4 10) : Vec Ideal S1x16 .f32) := by
  obtain ⟨-, -, -, -, -, -, -, -, -, -, ⟨e0, e1⟩, -⟩ := idx_facts t
  funext y
  unfold Gen.iblk4
  rw [View.read_apply]
  refine congrArg (V c (Pipeline.arrRef spec4 10)) (funext fun a => Fin.ext ?_)
  match a with
  | ⟨0, _⟩ => show win4_10.index t (0 : Fin 2) * 1 + 1 * (y 0).val = (y 0).val; omega
  | ⟨1, _⟩ => show win4_10.index t (1 : Fin 2) * 16 + 1 * (y 1).val = (y 1).val; omega

/-- Entry (n, j) of the result's tile t sits at (5000 t + n, j) of the result array. -/
theorem out_emb (t : Fin cfg4.N) (n : Fin 5000) (j : Fin 16) :
    (((cfg4.win 11).blk t).view.emb (ix2 n j) : S100000x16.Idx) = ix2 (rowAt t n) j := by
  obtain ⟨-, -, -, -, -, -, -, -, -, -, -, e0, e1⟩ := idx_facts t
  refine funext fun a => Fin.ext ?_
  match a with
  | ⟨0, _⟩ => show win4_11.index t (0 : Fin 2) * 5000 + 1 * n.val = 5000 * t.val + n.val; omega
  | ⟨1, _⟩ => show win4_11.index t (1 : Fin 2) * 16 + 1 * j.val = j.val; omega

/-- The result array as one function of the arrays the region finds. -/
abbrev whole : Cert.Sage.Mat 100000 16 :=
  Cert.Sage.head (Cert.Sage.dual (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))) (V c (Pipeline.arrRef spec4 9)) (V c (Pipeline.arrRef spec4 10))

set_option maxHeartbeats 400000 in
/-- What tile t writes back is tile t of the whole-array function. -/
theorem flushed_eq (t : Fin cfg4.N) :
    (Gen.dat4 (F := Ideal) V c).flushed 11 t = ((cfg4.win 11).blk t).view.read (Elt Ideal) (whole V c) := by
  show (cfg4.win 11).cut (grid4.coords t) ((Gen.dat4 (F := Ideal) V c).after 11 t) = _
  rw [Gen.after4_11]
  unfold Gen.out4_11
  rw [View.canon_unit_zero hz]
  simp only [View.ld_unit_zero (S := S5000x64) hz, View.ld_unit_zero (S := S5000x1) hz, View.ld_unit_zero (S := S64x64) hz, View.ld_unit_zero (S := S1x64) hz, View.ld_unit_zero (S := S64x16) hz, View.ld_unit_zero (S := S1x16) hz]
  rw [pay4, blk5 V c t, blk6 V c t, blk7 V c t, blk8 V c t, blk9 V c t, blk10 V c t]
  funext y
  obtain ⟨n, j, rfl⟩ : ∃ (n : Fin 5000) (j : Fin 16), y = ix2 n j := ⟨y 0, y 1, eq_ix2 y⟩
  show Cert.Sage.head (Cert.Sage.dual (Gen.iblk4 (F := Ideal) V c 0 t) (Gen.iblk4 (F := Ideal) V c 1 t) (Gen.iblk4 (F := Ideal) V c 2 t) (Gen.iblk4 (F := Ideal) V c 3 t) (Gen.iblk4 (F := Ideal) V c 4 t)
        (V c (Pipeline.arrRef spec4 5)) (V c (Pipeline.arrRef spec4 6)) (V c (Pipeline.arrRef spec4 7)) (V c (Pipeline.arrRef spec4 8))) (V c (Pipeline.arrRef spec4 9)) (V c (Pipeline.arrRef spec4 10)) (ix2 n j)
      = whole V c (((cfg4.win 11).blk t).view.emb (ix2 n j))
  rw [out_emb t n j]
  exact head_dual_row (V c (Pipeline.arrRef spec4 0)) (V c (Pipeline.arrRef spec4 1)) (V c (Pipeline.arrRef spec4 2)) (V c (Pipeline.arrRef spec4 3)) (V c (Pipeline.arrRef spec4 4))
    (Gen.iblk4 (F := Ideal) V c 0 t) (Gen.iblk4 (F := Ideal) V c 1 t) (Gen.iblk4 (F := Ideal) V c 2 t) (Gen.iblk4 (F := Ideal) V c 3 t) (Gen.iblk4 (F := Ideal) V c 4 t)
    (V c (Pipeline.arrRef spec4 5)) (V c (Pipeline.arrRef spec4 6)) (V c (Pipeline.arrRef spec4 7)) (V c (Pipeline.arrRef spec4 8)) (V c (Pipeline.arrRef spec4 9)) (V c (Pipeline.arrRef spec4 10))
    n (rowAt t n) j (fun k => blk0 V c t n k) (blk1 V c t n 0) (fun k => blk2 V c t n k) (blk3 V c t n 0) (fun k => blk4 V c t n k)

/-- An index of the result array is in tile t iff its row lies in rows 5000 t … 5000 t + 4999. -/
theorem mem_blk (t : Fin cfg4.N) (i : S100000x16.Idx) :
    i ∈ ((cfg4.win 11).blk t).view.set ↔ ∀ a : Fin 2, win4_11.index t a * S5000x16.size a ≤ (i a).val ∧ (i a).val < win4_11.index t a * S5000x16.size a + S5000x16.size a := by
  show i ∈ ((View.whole main_v130).slice (win4_11.rect t)).set ↔ _
  rw [View.set_slice_whole, Rect.mem_set_unit]
  exact Iff.rfl

/-- Every index of the result array lies in some tile: row r in tile r / 5000. -/
theorem cover (i : S100000x16.Idx) :
    ∃ t : Fin cfg4.N, (cfg4.win 11).flush t = true ∧ i ∈ ((cfg4.win 11).blk t).view.set := by
  have hi0 : (i 0).val < 100000 := (i 0).isLt
  have hi1 : (i 1).val < 16 := (i 1).isLt
  have hN : grid4.N = 20 := Gen.N_4
  let t : Fin cfg4.N := ⟨(i 0).val / 5000, by show (i 0).val / 5000 < grid4.N; omega⟩
  obtain ⟨-, -, -, -, -, -, -, -, -, -, -, e0, e1⟩ := idx_facts t
  refine ⟨t, Gen.flush4_11 t, ?_⟩
  rw [mem_blk]
  intro a
  have ht : t.val = (i 0).val / 5000 := rfl
  match a with
  | ⟨0, _⟩ => show win4_11.index t (0 : Fin 2) * 5000 ≤ (i 0).val ∧ (i 0).val < win4_11.index t (0 : Fin 2) * 5000 + 5000; omega
  | ⟨1, _⟩ => show win4_11.index t (1 : Fin 2) * 16 ≤ (i 1).val ∧ (i 1).val < win4_11.index t (1 : Fin 2) * 16 + 16; omega

/-- The result array after the region: the head of the two-edge-type update of the arrays the region finds. -/
theorem final4 :
    (Gen.dat4 (F := Ideal) V c).arrAt 11 cfg4.N
      = Cert.Sage.head (Cert.Sage.dual (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))) (V c (Pipeline.arrRef spec4 9)) (V c (Pipeline.arrRef spec4 10)) :=
  (Gen.dat4 (F := Ideal) V c).arrAt_eq_of_cover 11 (whole V c) (fun t _ => flushed_eq V c t) cover

end

end Cert.KernelIdeal.RegionFinal

end
-- ==== Proof.KernelWhole.lean ====
/-
  The kernel program's run with its result at the closed function of the arguments: the run with the result
  named, each launch's array after the launch being the dense step that launch computes.
-/
import proofs.«117675_j59828894433623_2_alg».proof.Proof.KernelValue
import proofs.«117675_j59828894433623_2_alg».proof.Proof.RegionProj
import proofs.«117675_j59828894433623_2_alg».proof.Proof.RegionSingle
import proofs.«117675_j59828894433623_2_alg».proof.Proof.RegionDual
import proofs.«117675_j59828894433623_2_alg».proof.Proof.RegionFinal

noncomputable section

namespace Cert.Bridge

open Idealize.ShloMosaic Idealize.SL.Sem
open Cert.KernelIdeal Cert.KernelIdeal.Gen Cert.KernelIdeal.Whole

/-! ## The kernel program's run -/

/-- The kernel program terminates with its result at the closed function of the arguments (the run with the
    result named; each launch's array after the launch is the dense step it computes) and its arguments kept. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v130) = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Cert.KernelIdeal.Whole.run_value
    (fun V c => Cert.KernelIdeal.RegionProj.final0 V c) (fun V c => Cert.KernelIdeal.RegionProj.final1 V c)
    (fun V c => Cert.KernelIdeal.RegionCombine.final2 V c) (fun V c => Cert.KernelIdeal.RegionCombine.final3 V c)
    (fun V c => Cert.KernelIdeal.RegionFinal.final4 V c) m ρ

end Cert.Bridge

end
-- ==== Proof.lean ====
/-
  Two programs for a two-layer neighbourhood-mean network over two node types (authors and papers, joined by
  three edge types) are shown to compute the same 100000 × 16 result over the extended reals.

  One program computes each layer with the root weights and the biases of the two edge types that feed the
  paper nodes summed beforehand, scales each summed neighbourhood by the reciprocal of the clamped in-degree,
  computes the in-degrees once, splits the input projection's 64-column product into its two 32-column halves,
  and never forms the last layer's author update, which nothing reads. The other divides by the clamped
  in-degree, keeps the edge types' contributions apart, and recomputes the in-degrees in every layer.

  The neighbourhood sums (a gather of source rows followed by a scatter-add onto the target rows) are the SAME
  terms in both programs once the arrays they are applied to agree, so they are never opened for the equality;
  they are read at an index only to see that a sum of real numbers is real and that a scatter-add of ones
  counts edges. What joins the two sides is: a 64-term sum is the sum of its two 32-term halves; sums may be
  regrouped; dividing by a nonzero real `c` is scaling by `1 / c`; and — the one law that needs finite inputs —
  real node features against the SUM of two real weight matrices is the sum of the two products. Finiteness
  of the inputs is carried through the first layer (every dense step and every neighbourhood sum maps real
  arrays to real arrays) so that the law applies again in the second.
-/
import proofs.«117675_j59828894433623_2_alg».proof.Defs
import proofs.«117675_j59828894433623_2_alg».proof.Proof.Gen.Kernel
import proofs.«117675_j59828894433623_2_alg».proof.Proof.Gen.Kernel.Skeleton
import proofs.«117675_j59828894433623_2_alg».proof.Proof.Gen.Kernel.Launch
import proofs.«117675_j59828894433623_2_alg».proof.Proof.Gen.Kernel.Points
import proofs.«117675_j59828894433623_2_alg».proof.Proof.Gen.Kernel.Frame
import proofs.«117675_j59828894433623_2_alg».proof.Proof.Gen.KernelIdeal
import proofs.«117675_j59828894433623_2_alg».proof.Proof.Gen.KernelIdeal.Skeleton
import proofs.«117675_j59828894433623_2_alg».proof.Proof.Gen.KernelIdeal.Launch
import proofs.«117675_j59828894433623_2_alg».proof.Proof.Gen.KernelIdeal.Points
import proofs.«117675_j59828894433623_2_alg».proof.Proof.Gen.KernelIdeal.Frame
import proofs.«117675_j59828894433623_2_alg».proof.Proof.Gen.ReferenceIdeal
import proofs.«117675_j59828894433623_2_alg».proof.Proof.Gen.Pre_finite_inputs
import proofs.«117675_j59828894433623_2_alg».proof.Proof.Gen.ReferenceIdeal.Run
import proofs.«117675_j59828894433623_2_alg».proof.Proof.Gen.ReferenceIdeal.Read
import proofs.«117675_j59828894433623_2_alg».proof.Proof.Bridge
import proofs.«117675_j59828894433623_2_alg».proof.Proof.KernelWhole
import Idealize.ShloMosaic.Adequacy
import Idealize.ShloMosaic.Init

noncomputable section

namespace Cert.Proof

open Idealize.ShloMosaic Idealize.SL.Sem

/-- The printed kernel program runs and leaves its arguments as launched. -/
theorem frame_k : Cert.frame_Kernel :=
  fun m ρ _ => Cert.Kernel.Gen.frame m ρ

/-- So does its reading over the extended reals. -/
theorem frame_ki : Cert.frame_KernelIdeal :=
  fun m ρ _ => Cert.KernelIdeal.Gen.frame m ρ

/-- The plain program is a sequence of whole-array operations: its run, with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- From memories that agree on the 25 arguments, all float arguments finite, both programs end with the same
    result: the kernel program's result is its closed function of the arguments, the plain program's is its
    composed term, and the two are one function (`Cert.Bridge.result_eq`). -/
theorem algebraic :
    Cert.algebraic_KernelIdeal_ReferenceIdeal := by
  intro m ρ m' ρ' hpre hagree
  refine ⟨fun c => Cert.KernelIdeal.Whole.kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)),
    Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v203_eq]
  obtain ⟨e0, e1, e2, e3, e4, e5, e6, e7, e8, e9, e10, e11, e12, e13, e14, e15, e16, e17, e18, e19, e20, e21, e22, e23, e24⟩ := hagree c
  rw [e0, e1, e2, e3, e4, e5, e6, e7, e8, e9, e10, e11, e12, e13, e14, e15, e16, e17, e18, e19, e20, e21, e22, e23, e24]
  exact (Cert.Bridge.result_eq _ _ _ _ _ _ _ _ _ _ _ _ _ _ _ _ _ _ _ _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
